-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![2, 64, 64, 64]⟩ ⟨4, ![2, 256, 64, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨4, ![2, 64, 64, 128]⟩ ⟨4, ![2, 256, 64, 128]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x64x64x64 : Shape := ⟨4, ![2, 64, 64, 64]⟩
abbrev S64x128 : Shape := ⟨2, ![64, 128]⟩
abbrev S_ : Shape := ⟨0, ![]⟩

class Facts : Prop where
  bcast_S_S2x64x64x64 : S_.BroadcastsInDim S2x64x64x64 (![] : Fin 0 → Fin S2x64x64x64.rank)
  reducesTo_S2x64x64x64_S_d0_1_2_3 : S2x64x64x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x64x64x64 .f32) (main_arg1 : FVec F S64x128 .f32) : IVec S_ 1 :=
  let main_v0 : FVec F S2x64x64x64 .f32 := Host.absf main_arg0
  let main_cst : FVec F S_ .f32 := constant S_ .f32 0x7F800000#32
  let main_v1 : FVec F S2x64x64x64 .f32 := broadcastInDim S2x64x64x64 ![] bcast_S_S2x64x64x64 main_cst
  let main_v2 : IVec S2x64x64x64 1 := cmpf .olt main_v0 main_v1
  let main_c : IVec S_ 1 := constantI S_ 1 1#1
  let main_v3 : IVec S_ 1 := (fun x v => Host.reduce IntOp.andi x v reducesTo_S2x64x64x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Pre_finite_inputs_ReferenceIdeal.lean ====
abbrev S2x256x64x64 : Shape := ⟨4, ![2, 256, 64, 64]⟩
abbrev S64x128 : Shape := ⟨2, ![64, 128]⟩
abbrev S_ : Shape := ⟨0, ![]⟩

class Facts : Prop where
  bcast_S_S2x256x64x64 : S_.BroadcastsInDim S2x256x64x64 (![] : Fin 0 → Fin S2x256x64x64.rank)
  reducesTo_S2x256x64x64_S_d0_1_2_3 : S2x256x64x64.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2x256x64x64 .f32) (main_arg1 : FVec F S64x128 .f32) : IVec S_ 1 :=
  let main_v0 : FVec F S2x256x64x64 .f32 := Host.absf main_arg0
  let main_cst : FVec F S_ .f32 := constant S_ .f32 0x7F800000#32
  let main_v1 : FVec F S2x256x64x64 .f32 := broadcastInDim S2x256x64x64 ![] bcast_S_S2x256x64x64 main_cst
  let main_v2 : IVec S2x256x64x64 1 := cmpf .olt main_v0 main_v1
  let main_c : IVec S_ 1 := constantI S_ 1 1#1
  let main_v3 : IVec S_ 1 := (fun x v => Host.reduce IntOp.andi x v reducesTo_S2x256x64x64_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S2x64x64x64 : Shape := ⟨4, ![2, 64, 64, 64]⟩
abbrev S64x128 : Shape := ⟨2, ![64, 128]⟩
abbrev S2x64x64x128 : Shape := ⟨4, ![2, 64, 64, 128]⟩
abbrev S4x4x64 : Shape := ⟨3, ![4, 4, 64]⟩
abbrev S3 : Shape := ⟨1, ![3]⟩
abbrev S_ : Shape := ⟨0, ![]⟩
abbrev S2x64 : Shape := ⟨2, ![2, 64]⟩
abbrev S4x64 : Shape := ⟨2, ![4, 64]⟩
abbrev S1x4x64 : Shape := ⟨3, ![1, 4, 64]⟩
abbrev S1 : Shape := ⟨1, ![1]⟩
abbrev S2x1x1x64 : Shape := ⟨4, ![2, 1, 1, 64]⟩
abbrev S8192x64 : Shape := ⟨2, ![8192, 64]⟩
abbrev S8192x128 : Shape := ⟨2, ![8192, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x64x64x64, .f32⟩
  | .hbm, ⟨1, _⟩ => ⟨S64x128, .f32⟩
  | .hbm, ⟨2, _⟩ => ⟨S2x64x64x128, .f32⟩
  | .local _ .vmem, ⟨0, _⟩ => ⟨S2x64x64x64, .f32⟩
  | .local _ .vmem, ⟨1, _⟩ => ⟨S64x128, .f32⟩
  | .local _ .vmem, ⟨2, _⟩ => ⟨S2x64x64x128, .f32⟩
  | .local _ .vmem, ⟨3, _⟩ => ⟨S4x4x64, .f32⟩
  | _, _ => ⟨S2x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  { ofTc nBuf bufTy 1 9 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_20 : BitVec 32 := 2#32
  let v25 : BitVec 32 := Scalar.addi v2 c2_i32_20
  let c4_i32_21 : BitVec 32 := 4#32
  let v26 : BitVec 32 := Scalar.remsi v25 c4_i32_21
  let c1_i32_26 : BitVec 32 := 1#32
  let v27 : BitVec 32 := Scalar.muli v26 c1_i32_26
  let v28 : BitVec 32 := Scalar.addi c0_i32_27 v27
  v28.toNat
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v37 : BitVec 32 := Scalar.addi v2 c1_i32_32
  let c4_i32_33 : BitVec 32 := 4#32
  let v38 : BitVec 32 := Scalar.remsi v37 c4_i32_33
  let c1_i32_38 : BitVec 32 := 1#32
  let v39 : BitVec 32 := Scalar.muli v38 c1_i32_38
  let v40 : BitVec 32 := Scalar.addi c0_i32_39 v39
  v40.toNat
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_44 : BitVec 32 := 3#32
  let v49 : BitVec 32 := Scalar.addi v2 c3_i32_44
  let c4_i32_45 : BitVec 32 := 4#32
  let v50 : BitVec 32 := Scalar.remsi v49 c4_i32_45
  let c1_i32_50 : BitVec 32 := 1#32
  let v51 : BitVec 32 := Scalar.muli v50 c1_i32_50
  let v52 : BitVec 32 := Scalar.addi c0_i32_51 v51
  v52.toNat
abbrev stage0_0 : Fin 1 → Memref sig .tc .vmem S2x64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S2x64x64x64_S2x64x64x64_0_0_0_0 : ∀ a, (![0, 0, 0, 0] : Fin 4 → Nat) a + S2x64x64x64.size a ≤ S2x64x64x64.size a
  h_S2x64x64x64 : 0 < S2x64x64x64.numel
  shapeCasts_S2x64x64x64_S2x64x64x64 : S2x64x64x64.ShapeCasts S2x64x64x64
  reduces_S2x64x64x64_S2x64 : S2x64x64x64.Reduces [1, 2] S2x64
  concatenates_S2x64_S2x64_S4x64_d0 : Shape.Concatenates [S2x64, S2x64] S4x64 0
  inb_S4x4x64_S1x4x64_0_0_0 : ∀ a, (![0, 0, 0] : Fin 3 → Nat) a + S1x4x64.size a ≤ S4x4x64.size a
  h_S1x4x64 : 0 < S1x4x64.numel
  shapeCasts_S1x4x64_S4x64 : S1x4x64.ShapeCasts S4x64
  shapeCasts_S4x64_S1x4x64 : S4x64.ShapeCasts S1x4x64
  hamt_3 : (3#32 : BitVec 32).msb = false
  inb_S3_S1_1 : ∀ a, (![1] : Fin 1 → Nat) a + S1.size a ≤ S3.size a
  squeezes_S1_S_ : S1.Squeezes S_
  inb_S4x4x64_S1x4x64_2_0_0 : ∀ a, (![2, 0, 0] : Fin 3 → Nat) a + S1x4x64.size a ≤ S4x4x64.size a
  squeezes_S1x4x64_S4x64 : S1x4x64.Squeezes S4x64
  inb_S3_S1_0 : ∀ a, (![0] : Fin 1 → Nat) a + S1.size a ≤ S3.size a
  inb_S3_S1_2 : ∀ a, (![2] : Fin 1 → Nat) a + S1.size a ≤ S3.size a
  inb_S4x4x64_S1x4x64_3_0_0 : ∀ a, (![3, 0, 0] : Fin 3 → Nat) a + S1x4x64.size a ≤ S4x4x64.size a
  inb_S4x4x64_S1x4x64_1_0_0 : ∀ a, (![1, 0, 0] : Fin 3 → Nat) a + S1x4x64.size a ≤ S4x4x64.size a
  slices_S4x64_o0_0_S2x64 : S4x64.Slices ![0, 0] S2x64
  slices_S4x64_o2_0_S2x64 : S4x64.Slices ![2, 0] S2x64
  shapeCasts_S2x64_S2x1x1x64 : S2x64.ShapeCasts S2x1x1x64
  broadcasts_S2x1x1x64_S2x64x64x64 : S2x1x1x64.Broadcasts S2x64x64x64
  shapeCasts_S2x64x64x64_S8192x64 : S2x64x64x64.ShapeCasts S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S8192x128_S2x64x64x128 : S8192x128.ShapeCasts S2x64x64x128
  inb_S2x64x64x128_S2x64x64x128_0_0_0_0 : ∀ a, (![0, 0, 0, 0] : Fin 4 → Nat) a + S2x64x64x128.size a ≤ S2x64x64x128.size a
  h_S2x64x64x128 : 0 < S2x64x64x128.numel
  dot_S8192x64_S64x128_S8192x128_1_0_0_1_n_n_wf : DotDims.WF S8192x64 S64x128 S8192x128 [1] [0] [0] [1] [] []
  hcc0_scratch1 : 3 + S3.numel ≤ 9
  hcc0_scratch2 : 6 + S3.numel ≤ 9
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S3 := SemArray.consecutive 3 S3 hcc0_scratch1
abbrev cc0_scratch2 : DmaSems sig S3 := SemArray.consecutive 6 S3 hcc0_scratch2
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x256x64x64 : Shape := ⟨4, ![2, 256, 64, 64]⟩
abbrev S64x128 : Shape := ⟨2, ![64, 128]⟩
abbrev S_ : Shape := ⟨0, ![]⟩
abbrev S2x64 : Shape := ⟨2, ![2, 64]⟩
abbrev S2x1x1x64 : Shape := ⟨4, ![2, 1, 1, 64]⟩
abbrev S32768x64 : Shape := ⟨2, ![32768, 64]⟩
abbrev S32768x128 : Shape := ⟨2, ![32768, 128]⟩
abbrev S2x256x64x128 : Shape := ⟨4, ![2, 256, 64, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x256x64x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x1x64, .f32⟩
  | .hbm, ⟨5, _⟩ => ⟨S_, .f32⟩
  | .hbm, ⟨6, _⟩ => ⟨S2x1x1x64, .f32⟩
  | .hbm, ⟨7, _⟩ => ⟨S2x1x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x1x64, .f32⟩
  | .hbm, ⟨12, _⟩ => ⟨S_, .f32⟩
  | .hbm, ⟨13, _⟩ => ⟨S2x1x1x64, .f32⟩
  | .hbm, ⟨14, _⟩ => ⟨S2x1x1x64, .f32⟩
  | .hbm, ⟨15, _⟩ => ⟨S2x256x64x64, .f32⟩
  | .hbm, ⟨16, _⟩ => ⟨S2x256x64x64, .f32⟩
  | .hbm, ⟨17, _⟩ => ⟨S2x256x64x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x1x64, .f32⟩
  | .hbm, ⟨24, _⟩ => ⟨S2x1x1x64, .f32⟩
  | .hbm, ⟨25, _⟩ => ⟨S2x1x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x1x64, .f32⟩
  | .hbm, ⟨31, _⟩ => ⟨S2x1x1x64, .f32⟩
  | .hbm, ⟨32, _⟩ => ⟨S2x256x64x64, .f32⟩
  | .hbm, ⟨33, _⟩ => ⟨S2x256x64x64, .f32⟩
  | .hbm, ⟨34, _⟩ => ⟨S_, .f32⟩
  | .hbm, ⟨35, _⟩ => ⟨S2x1x1x64, .f32⟩
  | .hbm, ⟨36, _⟩ => ⟨S2x1x1x64, .f32⟩
  | .hbm, ⟨37, _⟩ => ⟨S2x1x1x64, .f32⟩
  | .hbm, ⟨38, _⟩ => ⟨S2x256x64x64, .f32⟩
  | .hbm, ⟨39, _⟩ => ⟨S2x256x64x64, .f32⟩
  | .hbm, ⟨40, _⟩ => ⟨S2x256x64x64, .f32⟩
  | .hbm, ⟨41, _⟩ => ⟨S2x256x64x64, .f32⟩
  | .hbm, ⟨42, _⟩ => ⟨S_, .f32⟩
  | .hbm, ⟨43, _⟩ => ⟨S2x256x64x64, .f32⟩
  | .hbm, ⟨44, _⟩ => ⟨S2x256x64x64, .f32⟩
  | .hbm, ⟨45, _⟩ => ⟨S2x256x64x64, .f32⟩
  | .hbm, ⟨46, _⟩ => ⟨S32768x64, .f32⟩
  | .hbm, ⟨47, _⟩ => ⟨S32768x128, .f32⟩
  | .hbm, ⟨48, _⟩ => ⟨S2x256x64x128, .f32⟩
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩

abbrev nD : Nat := 1
abbrev τ : Topo := Topo.v7x

variable {F : FTy → Type} [FloatOps F]

class Facts₀ : Prop where
  reducesTo_S2x256x64x64_S2x64_d1_2 : S2x256x64x64.ReducesTo [1, 2] S2x64
  h_S_ : 0 < S_.numel
  bcast_S2x64_S2x1x1x64_0_3 : S2x64.BroadcastsInDim S2x1x1x64 (![0, 3] : Fin 2 → Fin S2x1x1x64.rank)
  bcast_S_S2x1x1x64 : S_.BroadcastsInDim S2x1x1x64 (![] : Fin 0 → Fin S2x1x1x64.rank)
  bcast_S2x1x1x64_S2x256x64x64_0_1_2_3 : S2x1x1x64.BroadcastsInDim S2x256x64x64 (![0, 1, 2, 3] : Fin 4 → Fin S2x256x64x64.rank)
  bcast_S_S2x256x64x64 : S_.BroadcastsInDim S2x256x64x64 (![] : Fin 0 → Fin S2x256x64x64.rank)
  shapeCasts_S2x256x64x64_S32768x64 : S2x256x64x64.ShapeCasts S32768x64
  shapeCasts_S32768x128_S2x256x64x128 : S32768x128.ShapeCasts S2x256x64x128
  dot_S32768x64_S64x128_S32768x128_1_0_0_1_n_n_wf : DotDims.WF S32768x64 S64x128 S32768x128 [1] [0] [0] [1] [] []

variable [Facts₀]

def dot_S32768x64_S64x128_S32768x128_1_0_0_1_n_n : DotDims S32768x64 S64x128 S32768x128 where
  lhsContracting := [1]
  rhsContracting := [0]
  lhsNonContracting := [0]
  rhsNonContracting := [1]
  lhsBatch := []
  rhsBatch := []
  wf := dot_S32768x64_S64x128_S32768x128_1_0_0_1_n_n_wf

class Facts : Prop extends Facts₀ where

variable [Facts]
-- ==== Proof.Spec.lean ====
/-
  What both programs compute, as ONE function of the whole arrays, index by index on the extended reals.

  For an input `X : [2, 256, 64, 64]` and a weight `W : [64, 128]`: per batch entry `b` and channel `k`, the mean and the
  (centred) variance of `X b · · k` over the 256 · 64 positions; every element centred and divided by the square root
  of the variance plus a small constant; the result `t` passed through `t / (1 + e^(-t))`; and each position's channel
  vector multiplied by `W`.  The count, the small constant and the one are kept as the f32 words both programs print.

  Also here: the cyclic shift of a position on the ring of four, by which a device names the peers it talks to.
-/
import Idealize.ShloMosaic.PureOps.Ideal
import Idealize.ShloMosaic.Lib.ValueIdx

noncomputable section

open scoped BigOperators

namespace Cert.StatsNorm

open Idealize.ShloMosaic Idealize.ShloMosaic.ValueIdx

/-- The whole input, the weight and the whole result. -/
abbrev SX : Shape := ⟨4, ![2, 256, 64, 64]⟩
abbrev SW : Shape := ⟨2, ![64, 128]⟩
abbrev SO : Shape := ⟨4, ![2, 256, 64, 128]⟩

/-- The number of positions a statistic is taken over (256 · 64 = 16384), as the f32 word. -/
def cnt : EReal := Ideal.ofBits .f32 0x46800000#32
/-- The small constant added to the variance, as the f32 word. -/
def eps : EReal := Ideal.ofBits .f32 0x3727C5AC#32
/-- One, as the f32 word. -/
def one : EReal := Ideal.ofBits .f32 0x3F800000#32

/-- Position `c` of the ring of four shifted by `d`. -/
def sh (c : Fin 4) (d : Nat) : Fin 4 := ⟨(c.val + d) % 4, Nat.mod_lt _ (by decide)⟩

variable (X : SX.Idx → EReal) (W : SW.Idx → EReal)

/-- The mean of channel `k` of batch entry `b` over all positions. -/
def mean (b : Fin 2) (k : Fin 64) : EReal :=
  Ideal.div (∑ h : Fin 256, ∑ w : Fin 64, X (ix4 b h w k)) cnt

/-- An element less its channel's mean. -/
def centred (b : Fin 2) (h : Fin 256) (w : Fin 64) (k : Fin 64) : EReal := X (ix4 b h w k) - mean X b k

/-- The variance of channel `k` of batch entry `b`: the mean of the squared centred elements. -/
def var (b : Fin 2) (k : Fin 64) : EReal :=
  Ideal.div (∑ h : Fin 256, ∑ w : Fin 64, centred X b h w k * centred X b h w k) cnt

/-- The normalised element: centred, divided by the square root of the variance plus the small constant. -/
def normed (b : Fin 2) (h : Fin 256) (w : Fin 64) (k : Fin 64) : EReal :=
  Ideal.div (centred X b h w k) (Ideal.sqrt (var X b k + eps))

/-- The activation `t / (1 + e^(-t))` of the normalised element. -/
def act (b : Fin 2) (h : Fin 256) (w : Fin 64) (k : Fin 64) : EReal :=
  Ideal.div (normed X b h w k) (one + Ideal.exp (-(normed X b h w k)))

/-- The result at coordinates: the position's activations against column `n` of the weight. -/
def outAt (b : Fin 2) (h : Fin 256) (w : Fin 64) (n : Fin 128) : EReal :=
  ∑ k : Fin 64, act X b h w k * W (ix2 k n)

/-- The result as an array. -/
def out : SO.Idx → EReal := fun j => outAt X W (j 0) (j 1) (j 2) (j 3)

theorem out_ix4 (b : Fin 2) (h : Fin 256) (w : Fin 64) (n : Fin 128) : out X W (ix4 b h w n) = outAt X W b h w n := rfl

end Cert.StatsNorm

end
-- ==== Proof.KProto.lean ====
/-
  The exchange protocol of the four devices, as a schedule of rounds.

  Every device `c` has seven semaphore cells: its entry cell (the collective's barrier semaphore), three departure
  cells and three arrival cells.  All cells have exactly one round.
  * The entry cell of `c` has three duties, one unit each: duty `d` is paid by the device `e = c + (3 - d)` (whose signal
    number `d + 1` names `c`), and hands `c` the part `d + 1` of `e`'s exchange buffer together with the knowledge that
    `e`'s arrival cell `d` has reached its round: what `c` needs to copy its statistics into that part.
  * Arrival cell `j` of `c` has one duty, paid by the copy of the device `c + (j + 1)`; it hands `c` part `j + 1` of its own
    exchange buffer holding that device's statistics.
  * Departure cell `k` of `c` has one duty, paid by `c`'s own copy number `k`; it hands back the share of part 0 (the
    device's own statistics) the copy was reading.
  The exchange buffer of every device ends holding ONE function `G c`: part `s` is the statistics of device `c + s`.
-/
import proofs.«900350_g7700000000000351_dist_diff_noisepred_hshard_i_b2_h64_w64_c64_v7x_i4_f32_1_alg».proof.Proof.Spec
import proofs.«900350_g7700000000000351_dist_diff_noisepred_hshard_i_b2_h64_w64_c64_v7x_i4_f32_1_alg».proof.Proof.Gen.KernelIdeal
import proofs.«900350_g7700000000000351_dist_diff_noisepred_hshard_i_b2_h64_w64_c64_v7x_i4_f32_1_alg».proof.Proof.Gen.KernelIdeal.Skeleton
import proofs.«900350_g7700000000000351_dist_diff_noisepred_hshard_i_b2_h64_w64_c64_v7x_i4_f32_1_alg».proof.Proof.Gen.KernelIdeal.Launch
import proofs.«900350_g7700000000000351_dist_diff_noisepred_hshard_i_b2_h64_w64_c64_v7x_i4_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

/-! ## The resource algebra: the pipeline's own copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The ring -/

theorem sh_sh (c : Dev nD) (a b : ℕ) (h : (a + b) % 4 = 0) : sh (sh c a) b = c := by
  apply Fin.ext; show ((c.val + a) % 4 + b) % 4 = c.val; have hc : c.val < 4 := c.isLt; omega
theorem sh_zero (c : Dev nD) : sh c 0 = c := by apply Fin.ext; show (c.val + 0) % 4 = c.val; have hc : c.val < 4 := c.isLt; omega
theorem sh_inj (d : ℕ) : Function.Injective (fun c : Dev nD => sh c d) := by
  intro a b h; have h' : (a.val + d) % 4 = (b.val + d) % 4 := congrArg Fin.val h; apply Fin.ext; have ha : a.val < 4 := a.isLt; have hb : b.val < 4 := b.isLt; omega

/-- The kernel's `device_id` chains name the shifted positions. -/
theorem dev1_eq (c : Dev nD) : (⟨k0_dev1 c, k0_dev1_lt c⟩ : Dev nD) = sh c 1 := Fin.ext (k0_dev1_eq c)
theorem dev2_eq (c : Dev nD) : (⟨k0_dev2 c, k0_dev2_lt c⟩ : Dev nD) = sh c 2 := Fin.ext (k0_dev2_eq c)
theorem dev3_eq (c : Dev nD) : (⟨k0_dev3 c, k0_dev3_lt c⟩ : Dev nD) = sh c 3 := Fin.ext (k0_dev3_eq c)
theorem dev4_eq (c : Dev nD) : (⟨k0_dev4 c, k0_dev4_lt c⟩ : Dev nD) = sh c 2 := Fin.ext (k0_dev4_eq c)
theorem dev5_eq (c : Dev nD) : (⟨k0_dev5 c, k0_dev5_lt c⟩ : Dev nD) = sh c 1 := Fin.ext (k0_dev5_eq c)
theorem dev6_eq (c : Dev nD) : (⟨k0_dev6 c, k0_dev6_lt c⟩ : Dev nD) = sh c 3 := Fin.ext (k0_dev6_eq c)

/-! ## The memrefs and the cells -/

abbrev xM : Memref sig .tc .vmem S2x64x64x64 .f32 := Memref.whole cc0_stg0_0
abbrev wM : Memref sig .tc .vmem S64x128 .f32 := Memref.whole cc0_stg1_0
abbrev oM : Memref sig .tc .vmem S2x64x64x128 .f32 := Memref.whole cc0_stg2_0
abbrev scrM : Memref sig .tc .vmem S4x4x64 .f32 := Memref.whole cc0_scratch0

/-- Part `s` of the exchange buffer, as the kernel's copies name it. -/
abbrev part0M : Memref sig .tc .vmem S4x64 .f32 :=
  (scrM.slice (Rect.unit (s := S4x4x64) ![0, 0, 0] S1x4x64.size inb_S4x4x64_S1x4x64_0_0_0) (fun _ => rfl)).squeeze S4x64 squeezes_S1x4x64_S4x64
abbrev part1M : Memref sig .tc .vmem S4x64 .f32 :=
  (scrM.slice (Rect.unit (s := S4x4x64) ![1, 0, 0] S1x4x64.size inb_S4x4x64_S1x4x64_1_0_0) (fun _ => rfl)).squeeze S4x64 squeezes_S1x4x64_S4x64
abbrev part2M : Memref sig .tc .vmem S4x64 .f32 :=
  (scrM.slice (Rect.unit (s := S4x4x64) ![2, 0, 0] S1x4x64.size inb_S4x4x64_S1x4x64_2_0_0) (fun _ => rfl)).squeeze S4x64 squeezes_S1x4x64_S4x64
abbrev part3M : Memref sig .tc .vmem S4x64 .f32 :=
  (scrM.slice (Rect.unit (s := S4x4x64) ![3, 0, 0] S1x4x64.size inb_S4x4x64_S1x4x64_3_0_0) (fun _ => rfl)).squeeze S4x64 squeezes_S1x4x64_S4x64

abbrev barS : Sem sig := (SemArray.scalar (sig.barrier 0 rfl) : Sems sig S_).sem
abbrev snd0 : DmaSem sig := ((cc0_scratch1.slice (Rect.unit (s := S3) ![0] S1.size inb_S3_S1_0)).squeeze S_ squeezes_S1_S_ : DmaSems sig S_).sem
abbrev snd1 : DmaSem sig := ((cc0_scratch1.slice (Rect.unit (s := S3) ![1] S1.size inb_S3_S1_1)).squeeze S_ squeezes_S1_S_ : DmaSems sig S_).sem
abbrev snd2 : DmaSem sig := ((cc0_scratch1.slice (Rect.unit (s := S3) ![2] S1.size inb_S3_S1_2)).squeeze S_ squeezes_S1_S_ : DmaSems sig S_).sem
abbrev rcv0 : DmaSem sig := ((cc0_scratch2.slice (Rect.unit (s := S3) ![0] S1.size inb_S3_S1_0)).squeeze S_ squeezes_S1_S_ : DmaSems sig S_).sem
abbrev rcv1 : DmaSem sig := ((cc0_scratch2.slice (Rect.unit (s := S3) ![1] S1.size inb_S3_S1_1)).squeeze S_ squeezes_S1_S_ : DmaSems sig S_).sem
abbrev rcv2 : DmaSem sig := ((cc0_scratch2.slice (Rect.unit (s := S3) ![2] S1.size inb_S3_S1_2)).squeeze S_ squeezes_S1_S_ : DmaSems sig S_).sem

theorem snd0_val : snd0 = (3 : DmaSem sig) := by decide
theorem snd1_val : snd1 = (4 : DmaSem sig) := by decide
theorem snd2_val : snd2 = (5 : DmaSem sig) := by decide
theorem rcv0_val : rcv0 = (6 : DmaSem sig) := by decide
theorem rcv1_val : rcv1 = (7 : DmaSem sig) := by decide
theorem rcv2_val : rcv2 = (8 : DmaSem sig) := by decide

abbrev barCell (c : Dev nD) : GSem nD τ sig := ((c : Thread nD τ), .reg barS)
abbrev sndCell (c : Dev nD) (k : Fin 3) : GSem nD τ sig := ((c : Thread nD τ), .dma (![snd0, snd1, snd2] k))
abbrev rcvCell (c : Dev nD) (k : Fin 3) : GSem nD τ sig := ((c : Thread nD τ), .dma (![rcv0, rcv1, rcv2] k))

/-- The three parts of the exchange buffer a copy lands in, and part 0 it reads, as rectangles of the buffer. -/
abbrev rc0 : Rect S4x4x64 := Rect.unit (s := S4x4x64) ![0, 0, 0] S1x4x64.size inb_S4x4x64_S1x4x64_0_0_0
abbrev rc1 : Rect S4x4x64 := Rect.unit (s := S4x4x64) ![1, 0, 0] S1x4x64.size inb_S4x4x64_S1x4x64_1_0_0
abbrev rc2 : Rect S4x4x64 := Rect.unit (s := S4x4x64) ![2, 0, 0] S1x4x64.size inb_S4x4x64_S1x4x64_2_0_0
abbrev rc3 : Rect S4x4x64 := Rect.unit (s := S4x4x64) ![3, 0, 0] S1x4x64.size inb_S4x4x64_S1x4x64_3_0_0

/-- The indices of part `s`: first coordinate `s`. -/
def pset (s : ℕ) : Finset S4x4x64.Idx := Finset.univ.filter fun i => (i 0).val = s

theorem mem_pset {s : ℕ} {i : S4x4x64.Idx} : i ∈ pset s ↔ (i 0).val = s := by unfold pset; simp

theorem rc_set_aux (s : ℕ) (hs : s < 4) (inb) : (Rect.unit (s := S4x4x64) ![s, 0, 0] S1x4x64.size inb).set = pset s := by
  ext i
  rw [Rect.mem_set_unit, mem_pset]
  constructor
  · intro h; have := h 0; simp only [Matrix.cons_val_zero] at this; change s ≤ (i 0).val ∧ (i 0).val < s + 1 at this; omega
  · intro h a
    match a with
    | ⟨0, _⟩ => change s ≤ (i 0).val ∧ (i 0).val < s + 1; omega
    | ⟨1, _⟩ => change 0 ≤ (i 1).val ∧ (i 1).val < 0 + 4; have := (i 1).isLt; change (i 1).val < 4 at this; omega
    | ⟨2, _⟩ => change 0 ≤ (i 2).val ∧ (i 2).val < 0 + 64; have := (i 2).isLt; change (i 2).val < 64 at this; omega

theorem rc0_set : rc0.set = pset 0 := rc_set_aux 0 (by decide) _
theorem rc1_set : rc1.set = pset 1 := rc_set_aux 1 (by decide) _
theorem rc2_set : rc2.set = pset 2 := rc_set_aux 2 (by decide) _
theorem rc3_set : rc3.set = pset 3 := rc_set_aux 3 (by decide) _

theorem part0_set : (part0M : Memref sig .tc .vmem S4x64 .f32).view.set = pset 0 :=
  (View.set_reshape _ _).trans ((View.set_slice_whole cc0_scratch0 rc0).trans rc0_set)
theorem part1_set : (part1M : Memref sig .tc .vmem S4x64 .f32).view.set = pset 1 :=
  (View.set_reshape _ _).trans ((View.set_slice_whole cc0_scratch0 rc1).trans rc1_set)
theorem part2_set : (part2M : Memref sig .tc .vmem S4x64 .f32).view.set = pset 2 :=
  (View.set_reshape _ _).trans ((View.set_slice_whole cc0_scratch0 rc2).trans rc2_set)
theorem part3_set : (part3M : Memref sig .tc .vmem S4x64 .f32).view.set = pset 3 :=
  (View.set_reshape _ _).trans ((View.set_slice_whole cc0_scratch0 rc3).trans rc3_set)

theorem pset_disjoint {s s' : ℕ} (h : s ≠ s') : Disjoint (pset s) (pset s') := by
  rw [Finset.disjoint_left]; intro i hi hi'; rw [mem_pset] at hi hi'; omega

theorem pset_cover : pset 0 ∪ (pset 1 ∪ (pset 2 ∪ pset 3)) = Finset.univ := by
  ext i; simp only [Finset.mem_union, mem_pset, Finset.mem_univ, iff_true]
  have := (i 0).isLt; change (i 0).val < 4 at this; omega

/-! ## Contents -/

/-- Device `c`'s block of the input, as its staging buffer holds it. -/
def xstg (c : Dev nD) : (cc0_stg0_0 : Ref sig .tc).ty.Contents (Elt F) :=
  (win0_0.blk (0 : Fin 1)).view.read (Elt F) (m ((c : Thread nD τ).loc main_arg0))
/-- Device `c`'s copy of the weight, as its staging buffer holds it. -/
def wstg (c : Dev nD) : (cc0_stg1_0 : Ref sig .tc).ty.Contents (Elt F) :=
  (win0_1.blk (0 : Fin 1)).view.read (Elt F) (m ((c : Thread nD τ).loc main_arg1))

/-- What the exchange buffer of device `c` ends holding: part `s` is the statistics of device `c + s`. -/
def G (c : Dev nD) : (cc0_scratch0 : Ref sig .tc).ty.Contents (Elt F) := fun i =>
  k0_pay2 (F := F) (xstg m (sh c (i 0).val)) (ValueIdx.ix3 (0 : Fin 1) (i 1) (i 2))

/-! ## The schedule -/

/-- Part `s` of device `c`'s exchange buffer at share `q`, holding `f` there. -/
def partPts (c : Dev nD) (s : ℕ) (q : PosShare TreeShare) (f : Buf (Elt F) ((c : Thread nD τ).loc cc0_scratch0)) : sProp 𝕄 :=
  ((c : Thread nD τ).loc cc0_scratch0) ↦[pset s]{q} f

omit [FloatOps F] in
instance partPts_storable (c : Dev nD) (s : ℕ) (q) (f) : BI.Storable (upEmb : UEmb _ 𝕄) (partPts (F := F) c s q f) := by unfold partPts; infer_instance

/-- The share of part 0 each of the three copies reads. -/
def shr : Fin 3 → PosShare TreeShare := ![fullShare.left, fullShare.right.left, fullShare.right.right]

abbrev N : ℕ := (part1M : Memref sig .tc .vmem S4x64 .f32).view.dmaCredit
theorem N_pos : 0 < N := View.dmaCredit_pos _ (by decide)

def rcvIx (sm : SemLoc sig) : Option (Fin 3) :=
  if sm = .dma rcv0 then some 0 else if sm = .dma rcv1 then some 1 else if sm = .dma rcv2 then some 2 else none
def sndIx (sm : SemLoc sig) : Option (Fin 3) :=
  if sm = .dma snd0 then some 0 else if sm = .dma snd1 then some 1 else if sm = .dma snd2 then some 2 else none

theorem rcvIx_rcv (k : Fin 3) : rcvIx (.dma (![rcv0, rcv1, rcv2] k)) = some k := by fin_cases k <;> decide
theorem sndIx_snd (k : Fin 3) : sndIx (.dma (![snd0, snd1, snd2] k)) = some k := by fin_cases k <;> decide
theorem rcvIx_snd (k : Fin 3) : rcvIx (.dma (![snd0, snd1, snd2] k)) = none := by fin_cases k <;> decide
theorem rcvIx_bar : rcvIx (.reg barS) = none := by decide
theorem sndIx_bar : sndIx (.reg barS) = none := by decide
theorem dma_ne_bar (q : DmaSem sig) : (SemLoc.dma q : SemLoc sig) ≠ .reg barS := fun h => by cases h

/-- What the signal of device `c + (3 - d)` hands `c`: that device's part `d + 1`, and that its arrival cell `d` is at its round. -/
def barPay (c : Dev nD) (d : Fin 3) : sProp 𝕄 :=
  iprop((∃ f, partPts (sh c (3 - d.val)) (d.val + 1) fullShare f) ∗ reached ER (rcvCell (sh c (3 - d.val)) d) 0)
/-- What a landing in part `j + 1` hands `c`: the part, holding the sender's statistics. -/
def rcvPay (c : Dev nD) (j : Fin 3) : sProp 𝕄 := partPts c (j.val + 1) fullShare (G m c)
/-- What the departure of copy `k` hands back: the share of part 0 it was reading. -/
def sndPay (c : Dev nD) (k : Fin 3) : sProp 𝕄 := partPts c 0 (shr k) (G m c)

abbrev IsBar (g : GSem nD τ sig) : Prop := g.1.2 = .tc ∧ g.2 = .reg barS
abbrev IsXfer (g : GSem nD τ sig) : Prop := g.1.2 = .tc ∧ ((rcvIx g.2).isSome = true ∨ (sndIx g.2).isSome = true)

/-- One round, round 0: an entry cell has three duties of one unit each; a departure or arrival cell the one duty `0`
    of a part's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match rcvIx g.2 with
      | some j => rcvPay m g.1.1 j
      | none => match sndIx g.2 with
        | some k => sndPay m g.1.1 k
        | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m).payload g r d) := by
  show BI.Storable upEmb (if g.2 = .reg barS then barPay g.1.1 d
    else match rcvIx g.2 with
      | some j => rcvPay m g.1.1 j
      | none => match sndIx g.2 with
        | some k => sndPay m g.1.1 k
        | none => iprop(emp))
  unfold barPay rcvPay sndPay
  (repeat' split) <;> infer_instance

section Sched
variable (c : Dev nD) (k : Fin 3)

theorem duties_bar : (Rd (F := F) m).duties (barCell c) 0 = Finset.univ := by dsimp only [Rd]; exact if_pos ⟨rfl, rfl, rfl⟩
theorem duties_snd : (Rd (F := F) m).duties (sndCell c k) 0 = {0} := by
  dsimp only [Rd]; rw [if_neg (fun h => dma_ne_bar _ h.2.2)]; exact if_pos ⟨rfl, rfl, .inr (by rw [sndIx_snd]; rfl)⟩
theorem duties_rcv : (Rd (F := F) m).duties (rcvCell c k) 0 = {0} := by
  dsimp only [Rd]; rw [if_neg (fun h => dma_ne_bar _ h.2.2)]; exact if_pos ⟨rfl, rfl, .inl (by rw [rcvIx_rcv]; rfl)⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 3) : (Rd (F := F) m).amount (barCell c) 0 d = 1 := by dsimp only [Rd]; exact if_pos rfl
theorem amount_snd (d : Fin 3) : (Rd (F := F) m).amount (sndCell c k) 0 d = N := by dsimp only [Rd]; exact if_neg (dma_ne_bar _)
theorem amount_rcv (d : Fin 3) : (Rd (F := F) m).amount (rcvCell c k) 0 d = N := by dsimp only [Rd]; exact if_neg (dma_ne_bar _)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_snd : (Rd (F := F) m).expect (sndCell c k) 0 = N := by
  unfold Schedule.expect Schedule.amountOf; rw [duties_snd, Finset.sum_singleton, amount_snd]
theorem expect_rcv : (Rd (F := F) m).expect (rcvCell c k) 0 = N := by
  unfold Schedule.expect Schedule.amountOf; rw [duties_rcv, Finset.sum_singleton, amount_rcv]

theorem payload_bar (d : Fin 3) : (Rd (F := F) m).payload (barCell c) 0 d = barPay c d := by dsimp only [Rd]; rw [if_pos rfl]
theorem payload_snd (d : Fin 3) : (Rd (F := F) m).payload (sndCell c k) 0 d = sndPay m c k := by
  dsimp only [Rd]; rw [if_neg (dma_ne_bar _)]; simp only [rcvIx_snd, sndIx_snd]
theorem payload_rcv (d : Fin 3) : (Rd (F := F) m).payload (rcvCell c k) 0 d = rcvPay m c k := by
  dsimp only [Rd]; rw [if_neg (dma_ne_bar _)]; simp only [rcvIx_rcv]

/-- The rest of the entry cell's round, no duty taken: the three peers' parts. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_snd : bigSep ((Rd (F := F) m).duties (sndCell c k) 0 \ ∅) (fun d => (Rd (F := F) m).payload (sndCell c k) 0 d) = sndPay m c k := by
  rw [Finset.sdiff_empty, duties_snd, bigSep_singleton, payload_snd]
theorem rest_rcv : bigSep ((Rd (F := F) m).duties (rcvCell c k) 0 \ ∅) (fun d => (Rd (F := F) m).payload (rcvCell c k) 0 d) = rcvPay m c k := by
  rw [Finset.sdiff_empty, duties_rcv, bigSep_singleton, payload_rcv]

end Sched

end Cert.KernelIdeal.Proto

end
-- ==== Proof.KData.lean ====
/-
  What each device owes at launch, the levels that order the waits, and the proof data of the one grid point:
  what every window's staging buffer holds after the body, and the exchange's ghost state before and after it.
-/
import proofs.«900350_g7700000000000351_dist_diff_noisepred_hshard_i_b2_h64_w64_c64_v7x_i4_f32_1_alg».proof.Proof.KProto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch: the three landings, then the three signals, peeled from the right -/

def Oc (c : Dev nD) : CellTallies nD τ sig Unit := tallyAt (rcvCell (sh c 3) 0) () N
def Ob (c : Dev nD) : CellTallies nD τ sig Unit := Oc c + tallyAt (rcvCell (sh c 1) 2) () N
def Oa (c : Dev nD) : CellTallies nD τ sig Unit := Ob c + tallyAt (rcvCell (sh c 2) 1) () N
def O3 (c : Dev nD) : CellTallies nD τ sig Unit := Oa c + tallyAt (barCell (sh c 3)) () 1
def O2 (c : Dev nD) : CellTallies nD τ sig Unit := O3 c + tallyAt (barCell (sh c 2)) () 1
def O₀ (c : Dev nD) : CellTallies nD τ sig Unit := O2 c + tallyAt (barCell (sh c 1)) () 1

def L (g : GSem nD τ sig) : Finset Unit := if g.1.2 = .tc then {()} else ∅
/-- Entry cells at 1, arrival cells at 2, everything else (staging, departure) at 0. -/
def lv (g : GSem nD τ sig) (_ : Unit) : ℕ := if g.2 = .reg barS then 1 else if (rcvIx g.2).isSome = true then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rcv (c : Dev nD) (k : Fin 3) (u : Unit) : lv (rcvCell c k) u = 2 := by
  dsimp only [lv]; rw [if_neg (dma_ne_bar _), if_pos (by rw [rcvIx_rcv]; rfl)]

theorem Oa_pos {c : Dev nD} {g : GSem nD τ sig} {u : Unit} (h : 0 < Oa c g u) :
    g = rcvCell (sh c 3) 0 ∨ g = rcvCell (sh c 1) 2 ∨ g = rcvCell (sh c 2) 1 := by
  unfold Oa Ob Oc at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem O₀_pos {c : Dev nD} {g : GSem nD τ sig} {u : Unit} (h : 0 < O₀ c g u) :
    (g = rcvCell (sh c 3) 0 ∨ g = rcvCell (sh c 1) 2 ∨ g = rcvCell (sh c 2) 1) ∨ g = barCell (sh c 3) ∨ g = barCell (sh c 2) ∨ g = barCell (sh c 1) := by
  unfold O₀ O2 O3 at h
  rw [Pi.add_apply, Finsupp.add_apply, Pi.add_apply, Finsupp.add_apply, Pi.add_apply, Finsupp.add_apply, tallyAt_apply, tallyAt_apply, tallyAt_apply] at h
  by_contra hn
  simp only [not_or] at hn
  rw [if_neg (fun h' => hn.2.1 h'.1), if_neg (fun h' => hn.2.2.1 h'.1), if_neg (fun h' => hn.2.2.2 h'.1)] at h
  rcases Oa_pos h with h1 | h1 | h1
  · exact hn.1.1 h1
  · exact hn.1.2.1 h1
  · exact hn.1.2.2 h1

omit [FloatOps F] in
theorem mayWait_stage (c : Dev nD) (q : DmaSem sig) (hq : rcvIx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl | rfl) | rfl | rfl | rfl <;> exact Finset.mem_singleton_self _)
      (fun p hp => by rw [Finset.mem_singleton.mp hp]; dsimp only [lv]; rw [if_neg (fun h => by cases h), hq]; decide)
      (fun g u hg => by
        rcases O₀_pos hg with (rfl | rfl | rfl) | rfl | rfl | rfl
        · rw [lv_rcv]; decide
        · rw [lv_rcv]; decide
        · rw [lv_rcv]; decide
        · rw [lv_bar]; decide
        · rw [lv_bar]; decide
        · rw [lv_bar]; decide)
  · rw [MayWait_zero]; iintro -; iempintro

omit [FloatOps F] in
/-- At its entry wait a device owes the three landings only: arrival cells, above its entry cell. -/
theorem mayWait_bar (c : Dev nD) :
    (levAts L lv : sProp 𝕄) ⊢ MayWait (c : Thread nD τ) (.reg barS) () (Oa c) :=
  MayOwe.of_cut (L := L) (lev := lv) 1 (fun p hp => by rw [Finset.mem_singleton.mp hp, L_tc]; exact Finset.mem_singleton_self _)
    (fun g u hg => by rcases Oa_pos hg with rfl | rfl | rfl <;> exact Finset.mem_singleton_self _)
    (fun p hp => by rw [Finset.mem_singleton.mp hp]; exact (lv_bar c ()).le)
    (fun g u hg => by rcases Oa_pos hg with rfl | rfl | rfl <;> (rw [lv_rcv]; decide))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The statistics of the device `s` places after `c`, as the exchange buffer's part `s` is loaded. -/
def st (c : Dev nD) (s : ℕ) : FVec F S1x4x64 .f32 := k0_pay2 (F := F) (xstg m (sh c s))

/-- The kernel's result on device `c`. -/
def outAt (c : Dev nD) : (cc0_stg2_0 : Ref sig .tc).ty.Contents (Elt F) :=
  k0_pay3 (F := F) (k0_pay1 (F := F) (xstg m c)) (st m c 0) (st m c 1) (st m c 2) (st m c 3) (wstg m c)

/-- The cells' invariants device `c`'s body opens, under the names `K` the launch allocated them at: its own seven, the
    three peers' entry cells (its signals) and the three arrival cells its copies pay. Cells of a device are numbered
    0 (entry), 1–3 (departure), 4–6 (arrival). -/
def invs (K : Dev nD × Fin 7 → ℕ) (c : Dev nD) : sProp 𝕄 :=
  iprop(cellInv ER (Rd m) (K (c, 0)) (barCell c)
    ∗ cellInv ER (Rd m) (K (c, 1)) (sndCell c 0) ∗ cellInv ER (Rd m) (K (c, 2)) (sndCell c 1) ∗ cellInv ER (Rd m) (K (c, 3)) (sndCell c 2)
    ∗ cellInv ER (Rd m) (K (c, 4)) (rcvCell c 0) ∗ cellInv ER (Rd m) (K (c, 5)) (rcvCell c 1) ∗ cellInv ER (Rd m) (K (c, 6)) (rcvCell c 2)
    ∗ cellInv ER (Rd m) (K (sh c 1, 0)) (barCell (sh c 1)) ∗ cellInv ER (Rd m) (K (sh c 2, 0)) (barCell (sh c 2)) ∗ cellInv ER (Rd m) (K (sh c 3, 0)) (barCell (sh c 3))
    ∗ cellInv ER (Rd m) (K (sh c 2, 5)) (rcvCell (sh c 2) 1) ∗ cellInv ER (Rd m) (K (sh c 1, 6)) (rcvCell (sh c 1) 2) ∗ cellInv ER (Rd m) (K (sh c 3, 4)) (rcvCell (sh c 3) 0))

instance invs_persistent (K : Dev nD × Fin 7 → ℕ) (c : Dev nD) : BI.Persistent (invs m K c) := by unfold invs; infer_instance

/-- The rounds a device knows reached: of the cells it pays, and of its own departure and arrival cells. -/
def reaches (c : Dev nD) : sProp 𝕄 :=
  iprop(reached ER (barCell (sh c 1)) 0 ∗ reached ER (barCell (sh c 2)) 0 ∗ reached ER (barCell (sh c 3)) 0
    ∗ reached ER (rcvCell (sh c 2) 1) 0 ∗ reached ER (rcvCell (sh c 1) 2) 0 ∗ reached ER (rcvCell (sh c 3) 0) 0
    ∗ reached ER (sndCell c 0) 0 ∗ reached ER (sndCell c 1) 0 ∗ reached ER (sndCell c 2) 0
    ∗ reached ER (rcvCell c 0) 0 ∗ reached ER (rcvCell c 1) 0 ∗ reached ER (rcvCell c 2) 0)

instance reaches_persistent (c : Dev nD) : BI.Persistent (reaches (F := F) c) := by unfold reaches; infer_instance

/-- A device's positions: round 0 of its seven cells, nothing taken. -/
def poss (c : Dev nD) : sProp 𝕄 :=
  iprop(atPos ER (barCell c) 0 ∅ 0
    ∗ atPos ER (sndCell c 0) 0 ∅ 0 ∗ atPos ER (sndCell c 1) 0 ∅ 0 ∗ atPos ER (sndCell c 2) 0 ∅ 0
    ∗ atPos ER (rcvCell c 0) 0 ∅ 0 ∗ atPos ER (rcvCell c 1) 0 ∅ 0 ∗ atPos ER (rcvCell c 2) 0 ∅ 0)

/-- The tokens of the nine duties a device pays: the three signals, the three landings, its own three departures. -/
def payToks (c : Dev nD) : sProp 𝕄 :=
  iprop(dutyTok ER (barCell (sh c 1)) 0 (0 : Fin 3) ∗ dutyTok ER (barCell (sh c 2)) 0 (1 : Fin 3) ∗ dutyTok ER (barCell (sh c 3)) 0 (2 : Fin 3)
    ∗ dutyTok ER (rcvCell (sh c 2) 1) 0 (0 : Fin 3) ∗ dutyTok ER (rcvCell (sh c 1) 2) 0 (0 : Fin 3) ∗ dutyTok ER (rcvCell (sh c 3) 0) 0 (0 : Fin 3)
    ∗ dutyTok ER (sndCell c 0) 0 (0 : Fin 3) ∗ dutyTok ER (sndCell c 1) 0 (0 : Fin 3) ∗ dutyTok ER (sndCell c 2) 0 (0 : Fin 3))

/-- The exchange's ghost state device `c` starts from. -/
def ghost (K : Dev nD × Fin 7 → ℕ) (c : Dev nD) : sProp 𝕄 :=
  iprop(invs m K c ∗ reaches c ∗ poss c ∗ payToks c)

/-- What device `c`'s body starts from: that at some names, its credit tokens (its entry cell's three units, its three
    arrival cells' credits) and the level facts. -/
def start (c : Dev nD) : sProp 𝕄 :=
  iprop((∃ K, ghost m K c) ∗ cred (tallyAt (barCell c) () 3)
    ∗ cred (tallyAt (rcvCell c 0) () N) ∗ cred (tallyAt (rcvCell c 1) () N) ∗ cred (tallyAt (rcvCell c 2) () N) ∗ levAts L lv)

def Φ₀ (c : Dev nD) : sProp 𝕄 := iprop(start m c ∗ ∃ f, ((c : Thread nD τ).loc cc0_scratch0) ↦{fullShare} f)
/-- After the point: the exchange buffer holding the four devices' statistics, the six own cells at zero, closed. -/
def Φ₁ (c : Dev nD) : sProp 𝕄 :=
  iprop((((c : Thread nD τ).loc cc0_scratch0) ↦{fullShare} G m c)
    ∗ semVal (sndCell c 0) 0 ∗ semVal (sndCell c 1) 0 ∗ semVal (sndCell c 2) 0
    ∗ semVal (rcvCell c 0) 0 ∗ semVal (rcvCell c 1) 0 ∗ semVal (rcvCell c 2) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.KValConsts.lean ====
/-
  The three float literals of the computation, evaluated once as extended reals: the number of positions a statistic
  is taken over is 16384, the one is 1, and the small constant added to the variance is a positive real.
-/
import proofs.«900350_g7700000000000351_dist_diff_noisepred_hshard_i_b2_h64_w64_c64_v7x_i4_f32_1_alg».proof.Proof.Spec

namespace Cert.KernelIdeal.KValue

open Idealize.ShloMosaic Cert.StatsNorm

/-- The count of positions, 256 · 64. -/
theorem cnt_eq : cnt = ((16384 : ℝ) : EReal) := by
  unfold cnt
  simp [Ideal.ofBits, Ideal.ieee]
  norm_cast
  norm_num

/-- The literal one is the extended real 1. -/
theorem one_eq : one = (1 : EReal) := by
  unfold one
  simp [Ideal.ofBits, Ideal.ieee]
  norm_cast
  norm_num

/-- The small constant is a positive real. -/
theorem eps_pos : ∃ e : ℝ, 0 < e ∧ eps = (e : EReal) := by
  unfold eps
  refine ⟨_, ?_, by simp [Ideal.ofBits, Ideal.ieee]; rfl⟩
  positivity

end Cert.KernelIdeal.KValue
-- ==== Proof.KValAlg.lean ====
/-
  The arithmetic of one element, from two totals, on the extended reals.

  For a batch entry and a channel let `T1` be the sum of the input over all 256 · 64 positions and `T2` the sum of its
  squares. From an element `x` and the two totals one may form the mean `T1 / n`, the variance `T2 / n − (T1 / n)²`, the
  element `t = (x − mean) · rsqrt (variance + small constant)` and `t · logistic t` (`kact`). When every input is a real
  number this is the specification's activation: the variance above is the mean of the squared centred elements
  (expand the square; the cross term is twice the mean squared), it is not negative, so adding the positive constant gives
  a positive real whose reciprocal square root multiplies as its square root divides, and `t · (1 / (1 + e^(−t)))` is
  `t / (1 + e^(−t))`.
-/
import proofs.«900350_g7700000000000351_dist_diff_noisepred_hshard_i_b2_h64_w64_c64_v7x_i4_f32_1_alg».proof.Proof.Spec
import proofs.«900350_g7700000000000351_dist_diff_noisepred_hshard_i_b2_h64_w64_c64_v7x_i4_f32_1_alg».proof.Proof.KValConsts

noncomputable section

open scoped BigOperators

namespace Cert.KernelIdeal.KValue

open Idealize.ShloMosaic Idealize.ShloMosaic.ValueIdx Cert.StatsNorm

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a real by the count of positions. -/
theorem div_cnt (a : ℝ) : Ideal.div (a : EReal) cnt = ((a / 16384 : ℝ) : EReal) := by
  rw [cnt_eq, Ideal.div_coe (by norm_num : (16384 : ℝ) ≠ 0), ← EReal.coe_mul, mul_one_div]

/-- The mean of the squares less the square of the mean is the mean of the squared centred elements. -/
theorem var_identity (y : Fin 256 → Fin 64 → ℝ) :
    (∑ h, ∑ w, y h w * y h w) / 16384 - (∑ h, ∑ w, y h w) / 16384 * ((∑ h, ∑ w, y h w) / 16384)
      = (∑ h, ∑ w, (y h w - (∑ h, ∑ w, y h w) / 16384) * (y h w - (∑ h, ∑ w, y h w) / 16384)) / 16384 := by
  generalize hm : (∑ h, ∑ w, y h w) / 16384 = m
  have hs : (∑ h, ∑ w, y h w) = 16384 * m := by rw [← hm]; ring
  have e : ∀ h w, (y h w - m) * (y h w - m) = y h w * y h w - 2 * m * y h w + m * m := fun h w => by ring
  simp only [e, Finset.sum_add_distrib, Finset.sum_sub_distrib, ← Finset.mul_sum, Finset.sum_const, Finset.card_univ,
    Fintype.card_fin, nsmul_eq_mul]
  rw [hs]
  push_cast
  ring

/-- `t · logistic t` is `t / (1 + e^(−t))` at a real `t`. -/
theorem mul_logistic_eq (t : ℝ) :
    (t : EReal) * Ideal.logistic (t : EReal) = Ideal.div (t : EReal) (one + Ideal.exp (-(t : EReal))) := by
  have hne : (1 + Real.exp (-t)) ≠ 0 := by positivity
  rw [one_eq, Ideal.logistic_coe, ← EReal.coe_neg, Ideal.exp_coe, ← EReal.coe_one, ← EReal.coe_add, Ideal.div_coe hne,
    one_div]

/-- The sum of channel `k` of batch entry `b` over all positions. -/
def S1 (X : SX.Idx → EReal) (b : Fin 2) (k : Fin 64) : EReal := ∑ h : Fin 256, ∑ w : Fin 64, X (ix4 b h w k)

/-- The sum of the squares of channel `k` of batch entry `b` over all positions. -/
def S2 (X : SX.Idx → EReal) (b : Fin 2) (k : Fin 64) : EReal :=
  ∑ h : Fin 256, ∑ w : Fin 64, X (ix4 b h w k) * X (ix4 b h w k)

/-- One element's activation from the element and the two totals of its channel: mean and mean of squares by division
    by the count, the variance as their difference, the reciprocal square root, the logistic function. -/
def kact (x T1 T2 : EReal) : EReal :=
  (x - Ideal.div T1 cnt) * Ideal.rsqrt (Ideal.div T2 cnt - Ideal.div T1 cnt * Ideal.div T1 cnt + eps)
    * Ideal.logistic
        ((x - Ideal.div T1 cnt) * Ideal.rsqrt (Ideal.div T2 cnt - Ideal.div T1 cnt * Ideal.div T1 cnt + eps))

/-- With real inputs, the activation from the totals is the specification's. -/
theorem kact_eq_act (X : SX.Idx → EReal) (hX : ∀ i, ∃ r : ℝ, X i = (r : EReal)) (b : Fin 2) (h : Fin 256) (w : Fin 64)
    (k : Fin 64) : kact (X (ix4 b h w k)) (S1 X b k) (S2 X b k) = act X b h w k := by
  obtain ⟨x, rfl⟩ : ∃ x : SX.Idx → ℝ, X = fun i => (x i : EReal) :=
    ⟨fun i => (hX i).choose, funext fun i => (hX i).choose_spec⟩
  obtain ⟨e, he, heps⟩ := eps_pos
  -- the channel as a real function of the position, its mean and its centred variance
  obtain ⟨y, hy⟩ : ∃ y : Fin 256 → Fin 64 → ℝ, ∀ h w, y h w = x (ix4 b h w k) := ⟨fun h w => x (ix4 b h w k), fun _ _ => rfl⟩
  obtain ⟨m, hm⟩ : ∃ m : ℝ, m = (∑ h, ∑ w, y h w) / 16384 := ⟨_, rfl⟩
  obtain ⟨v, hv⟩ : ∃ v : ℝ, v = (∑ h, ∑ w, (y h w - m) * (y h w - m)) / 16384 := ⟨_, rfl⟩
  have hT1 : S1 (fun i => (x i : EReal)) b k = ((∑ h, ∑ w, y h w : ℝ) : EReal) := by
    unfold S1
    simp only [← hy, ← coe_sum]
  have hT2 : S2 (fun i => (x i : EReal)) b k = ((∑ h, ∑ w, y h w * y h w : ℝ) : EReal) := by
    unfold S2
    simp only [← hy, ← EReal.coe_mul, ← coe_sum]
  have hM : Ideal.div (S1 (fun i => (x i : EReal)) b k) cnt = (m : EReal) := by rw [hT1, div_cnt, hm]
  have hmean : mean (fun i => (x i : EReal)) b k = (m : EReal) := hM
  have hcen : ∀ h' w', centred (fun i => (x i : EReal)) b h' w' k = ((y h' w' - m : ℝ) : EReal) := fun h' w' => by
    unfold centred
    rw [hmean, hy, ← EReal.coe_sub]
  have hvar : var (fun i => (x i : EReal)) b k = (v : EReal) := by
    unfold var
    simp only [hcen, ← EReal.coe_mul, ← coe_sum]
    rw [div_cnt, hv]
  have hv0 : 0 ≤ v := by
    rw [hv]
    exact div_nonneg (Finset.sum_nonneg fun _ _ => Finset.sum_nonneg fun _ _ => mul_self_nonneg _) (by norm_num)
  have hve : 0 < v + e := by linarith
  have hsq : Real.sqrt (v + e) ≠ 0 := (Real.sqrt_pos.mpr hve).ne'
  have hkv : Ideal.div (S2 (fun i => (x i : EReal)) b k) cnt
      - Ideal.div (S1 (fun i => (x i : EReal)) b k) cnt * Ideal.div (S1 (fun i => (x i : EReal)) b k) cnt + eps
        = ((v + e : ℝ) : EReal) := by
    rw [hM, hT2, div_cnt, heps, ← EReal.coe_mul, ← EReal.coe_sub, ← EReal.coe_add, hv, hm, var_identity y]
  have hk : ((x (ix4 b h w k) : ℝ) : EReal) - Ideal.div (S1 (fun i => (x i : EReal)) b k) cnt
      = ((y h w - m : ℝ) : EReal) := by rw [hM, hy, ← EReal.coe_sub]
  have hnorm : normed (fun i => (x i : EReal)) b h w k = (((y h w - m) * (Real.sqrt (v + e))⁻¹ : ℝ) : EReal) := by
    unfold normed
    rw [hcen, hvar, heps, ← EReal.coe_add, Ideal.sqrt_coe, if_neg (not_lt.mpr hve.le), Ideal.div_coe hsq, one_div,
      ← EReal.coe_mul]
  unfold kact act
  rw [hkv, hk, hnorm, Ideal.rsqrt_coe, if_neg (not_lt.mpr hve.le), if_neg hve.ne', ← EReal.coe_mul]
  exact mul_logistic_eq _

end Cert.KernelIdeal.KValue

end
-- ==== Proof.KValReduce.lean ====
/-
  A sum over the two middle axes of a `[2, 64, 64, 64]` array, read at an index.

  Reducing axes 1 and 2 of `x : [2, 64, 64, 64]` with `add` gives, at `(r, k)`, the sum of the entries whose first and
  last coordinates are `r` and `k`; these are the entries `(r, a, b, k)`, one for each pair `(a, b)`, so the sum is the
  double sum over `a` and `b`.
-/
import Idealize.ShloMosaic.PureOps.Ideal
import Idealize.ShloMosaic.PureOps.Ideal.Laws
import Idealize.ShloMosaic.Lib.ValueIdx

noncomputable section

open scoped BigOperators

namespace Cert.KernelIdeal.KValue

open Idealize.ShloMosaic Idealize.ShloMosaic.ValueIdx

/-- Dropping the two middle coordinates of `(r, a, b, k)` leaves `(r, k)`. -/
theorem drop12_ix4 (h : (⟨4, ![2, 64, 64, 64]⟩ : Shape).Reduces [1, 2] ⟨2, ![2, 64]⟩) (r : Fin 2) (a b : Fin 64) (k : Fin 64) :
    h.drop (ix4 r a b k) = ix2 r k := by
  funext c
  match c with
  | ⟨0, _⟩ => exact Fin.ext rfl
  | ⟨1, _⟩ => exact Fin.ext rfl

/-- An index whose two outer coordinates are `(r, k)` is `(r, a, b, k)` for its own middle coordinates. -/
theorem eq_ix4_of_drop12 (h : (⟨4, ![2, 64, 64, 64]⟩ : Shape).Reduces [1, 2] ⟨2, ![2, 64]⟩) (r : Fin 2) (k : Fin 64)
    (i : (⟨4, ![2, 64, 64, 64]⟩ : Shape).Idx) (hi : h.drop i = ix2 r k) : ix4 r (i 1) (i 2) k = i := by
  have h0 : (i 0).val = r.val := congrArg (fun j : (⟨2, ![2, 64]⟩ : Shape).Idx => (j 0).val) hi
  have h3 : (i 3).val = k.val := congrArg (fun j : (⟨2, ![2, 64]⟩ : Shape).Idx => (j 1).val) hi
  funext c
  match c with
  | ⟨0, _⟩ => exact Fin.ext h0.symm
  | ⟨1, _⟩ => rfl
  | ⟨2, _⟩ => rfl
  | ⟨3, _⟩ => exact Fin.ext h3.symm

/-- The sum over axes 1 and 2 at `(r, k)` is the double sum over the two middle coordinates. -/
theorem reduceAdd_12_apply (x : (⟨4, ![2, 64, 64, 64]⟩ : Shape).Idx → EReal)
    (h : (⟨4, ![2, 64, 64, 64]⟩ : Shape).Reduces [1, 2] ⟨2, ![2, 64]⟩) (r : Fin 2) (k : Fin 64) :
    Ideal.reduceAdd h x (ix2 r k) = ∑ a : Fin 64, ∑ b : Fin 64, x (ix4 r a b k) := by
  unfold Ideal.reduceAdd
  rw [← Fintype.sum_prod_type' (f := fun (a b : Fin 64) => x (ix4 r a b k))]
  refine Finset.sum_nbij' (fun i => ((i 1 : Fin 64), (i 2 : Fin 64))) (fun p => ix4 r p.1 p.2 k) ?_ ?_ ?_ ?_ ?_
  · intro i _; exact Finset.mem_univ _
  · intro p _; exact Finset.mem_filter.2 ⟨Finset.mem_univ _, drop12_ix4 h r p.1 p.2 k⟩
  · intro i hi; exact eq_ix4_of_drop12 h r k i (Finset.mem_filter.1 hi).2
  · intro p _; rfl
  · intro i hi; exact congrArg x (eq_ix4_of_drop12 h r k i (Finset.mem_filter.1 hi).2).symm

/-- So a float `multi_reduction <add>` over those axes, read at the ideal values, is that double sum. -/
theorem multiReduction_add_12_apply (src : FVec Ideal ⟨4, ![2, 64, 64, 64]⟩ .f32)
    (h : (⟨4, ![2, 64, 64, 64]⟩ : Shape).Reduces [1, 2] ⟨2, ![2, 64]⟩) (hφ : FKind.Formats .f32)
    (hacc : (0x00000000#32 : BitVec 32) = FKind.add.neutral .f32 hφ) (r : Fin 2) (k : Fin 64) :
    multiReduction .add [1, 2] ⟨2, ![2, 64]⟩ src 0x00000000#32 h hφ hacc (ix2 r k)
      = ∑ a : Fin 64, ∑ b : Fin 64, src (ix4 r a b k) :=
  reduceAdd_12_apply src h r k

end Cert.KernelIdeal.KValue

end
-- ==== Proof.KValStats.lean ====
/-
  What a device puts in its exchange slot, read at an index.

  From its block `x : [2, 64, 64, 64]` a device forms the sums over axes 1 and 2 of `x` and of `x · x`, two `[2, 64]`
  arrays, and stacks them into `[1, 4, 64]`: rows 0 and 1 hold the sums of the two batch entries, rows 2 and 3 the sums of
  their squares. So the slot at `(0, q, k)` is, for `q = r < 2`, the double sum over the block's positions of channel `k` of
  batch entry `r`, and for `q = 2 + r` the double sum of the squares.
-/
import proofs.«900350_g7700000000000351_dist_diff_noisepred_hshard_i_b2_h64_w64_c64_v7x_i4_f32_1_alg».proof.Proof.Gen.KernelIdeal.Skeleton
import proofs.«900350_g7700000000000351_dist_diff_noisepred_hshard_i_b2_h64_w64_c64_v7x_i4_f32_1_alg».proof.Proof.KValReduce
import Idealize.ShloMosaic.Lib.Pipeline.Value
import Idealize.ShloMosaic.Lib.ValueLayout

noncomputable section

open scoped BigOperators

namespace Cert.KernelIdeal.KValue

open Idealize.ShloMosaic Idealize.ShloMosaic.ValueIdx

/-- The loaded block passes through a cast to its own shape unchanged. -/
theorem pay1_eq (x : S2x64x64x64.Idx → EReal) : Gen.k0_pay1 (F := Ideal) x = x := by
  unfold Gen.k0_pay1
  exact shapeCast_self x _

/-- Rows 0 and 1 of the slot: the block's sums. -/
theorem pay2_sum (x : S2x64x64x64.Idx → EReal) (q : Fin 4) (r : Fin 2) (k : Fin 64) (hq : q.val = r.val) :
    Gen.k0_pay2 (F := Ideal) x (ix3 (0 : Fin 1) q k) = ∑ a : Fin 64, ∑ b : Fin 64, x (ix4 r a b k) := by
  unfold Gen.k0_pay2
  dsimp only
  refine (shapeCast_ab_1ab_apply _ _ (0 : Fin 1) q k).trans ?_
  refine (concatenate_pair_apply_left (t := S4x64) (s₁ := S2x64) (s₂ := S2x64) (0 : Fin 2) _ _ _ (ix2 q k) rfl (ix2 r k)
    (fun c => ?_)).trans ?_
  · match c with
    | ⟨0, _⟩ => exact hq.symm
    | ⟨1, _⟩ => rfl
  refine (multiReduction_add_12_apply _ _ _ _ r k).trans ?_
  rw [pay1_eq]

/-- Rows 2 and 3 of the slot: the block's sums of squares. -/
theorem pay2_sumsq (x : S2x64x64x64.Idx → EReal) (q : Fin 4) (r : Fin 2) (k : Fin 64) (hq : q.val = 2 + r.val) :
    Gen.k0_pay2 (F := Ideal) x (ix3 (0 : Fin 1) q k)
      = ∑ a : Fin 64, ∑ b : Fin 64, x (ix4 r a b k) * x (ix4 r a b k) := by
  unfold Gen.k0_pay2
  dsimp only
  refine (shapeCast_ab_1ab_apply _ _ (0 : Fin 1) q k).trans ?_
  refine (concatenate_pair_apply_right (t := S4x64) (s₁ := S2x64) (s₂ := S2x64) (0 : Fin 2) _ _ _ (ix2 q k) rfl rfl (ix2 r k)
    (fun c hc => ?_) ?_).trans ?_
  · match c with
    | ⟨0, _⟩ => exact absurd rfl hc
    | ⟨1, _⟩ => rfl
  · show r.val + 2 = q.val
    omega
  refine (multiReduction_add_12_apply _ _ _ _ r k).trans ?_
  rw [pay1_eq]
  rfl

end Cert.KernelIdeal.KValue

end
-- ==== Proof.KValTotal.lean ====
/-
  The four exchanged statistics add up to the statistics of the whole array.

  Device `d` holds block `d` of the input: rows `64 · d … 64 · d + 63` of axis 1. Device `c` adds what it computed to
  what the devices one, two and three steps further along the ring of four computed: these are the four blocks, each once,
  in some order, and addition on the extended reals is commutative and associative, so the total is the sum over all four
  blocks; and a sum over four blocks of 64 rows is the sum over the 256 rows.
-/
import proofs.«900350_g7700000000000351_dist_diff_noisepred_hshard_i_b2_h64_w64_c64_v7x_i4_f32_1_alg».proof.Proof.Spec
import proofs.«900350_g7700000000000351_dist_diff_noisepred_hshard_i_b2_h64_w64_c64_v7x_i4_f32_1_alg».proof.Proof.KValAlg
import proofs.«900350_g7700000000000351_dist_diff_noisepred_hshard_i_b2_h64_w64_c64_v7x_i4_f32_1_alg».proof.KernelIdeal
import Idealize.ShloMosaic.Lib.Layout

noncomputable section

open scoped BigOperators

namespace Cert.KernelIdeal.KValue

open Idealize.ShloMosaic Idealize.ShloMosaic.ValueIdx Cert.StatsNorm

/-- Block `d` of the whole input: rows `64 · d` to `64 · d + 63` of axis 1. -/
abbrev blk (X : SX.Idx → EReal) (d : Fin 4) : Cert.KernelIdeal.S2x64x64x64.Idx → EReal :=
  Layout.block ⟨4, ![2, 64, 64, 64]⟩ ⟨4, ![2, 256, 64, 64]⟩ 1 4 d X

/-- Row `h` of block `d` is row `64 · d + h` of the whole. -/
theorem blk_ix4 (X : SX.Idx → EReal) (d : Fin 4) (b : Fin 2) (h : Fin 64) (w : Fin 64) (k : Fin 64) :
    blk X d (ix4 b h w k)
      = X (ix4 b (⟨d.val * 64 + h.val, by have := d.isLt; have := h.isLt; omega⟩ : Fin 256) w k) := by
  show X _ = X _
  refine congrArg X (funext fun a => Fin.ext ?_)
  match a with
  | ⟨0, _⟩ => rfl
  | ⟨1, _⟩ => rfl
  | ⟨2, _⟩ => rfl
  | ⟨3, _⟩ => rfl

/-- Starting anywhere on the ring of four and taking the next three positions visits every position once. -/
theorem sum_ring {M : Type*} [AddCommMonoid M] (f : Fin 4 → M) (c : Fin 4) :
    f c + f (sh c 1) + f (sh c 2) + f (sh c 3) = ∑ d : Fin 4, f d := by
  rw [Fin.sum_univ_four]
  have hc : ∀ c : Fin 4, (c = 0 ∧ sh c 1 = 1 ∧ sh c 2 = 2 ∧ sh c 3 = 3) ∨ (c = 1 ∧ sh c 1 = 2 ∧ sh c 2 = 3 ∧ sh c 3 = 0)
      ∨ (c = 2 ∧ sh c 1 = 3 ∧ sh c 2 = 0 ∧ sh c 3 = 1) ∨ (c = 3 ∧ sh c 1 = 0 ∧ sh c 2 = 1 ∧ sh c 3 = 2) := by decide
  rcases hc c with ⟨rfl, e1, e2, e3⟩ | ⟨rfl, e1, e2, e3⟩ | ⟨rfl, e1, e2, e3⟩ | ⟨rfl, e1, e2, e3⟩ <;> rw [e1, e2, e3] <;> ac_rfl

/-- A sum over four blocks of 64 rows is the sum over the 256 rows. -/
theorem sum_blocks {M : Type*} [AddCommMonoid M] (g : Fin 256 → M) :
    ∑ d : Fin 4, ∑ h : Fin 64, g ⟨d.val * 64 + h.val, by have := d.isLt; have := h.isLt; omega⟩ = ∑ h : Fin 256, g h := by
  rw [← Fintype.sum_prod_type'
    (f := fun (d : Fin 4) (h : Fin 64) => g ⟨d.val * 64 + h.val, by have := d.isLt; have := h.isLt; omega⟩)]
  refine Fintype.sum_equiv (finProdFinEquiv (m := 4) (n := 64)) _ _ fun p => congrArg g (Fin.ext ?_)
  show p.1.val * 64 + p.2.val = p.2.val + 64 * p.1.val
  omega

/-- The four devices' sums, from device `c` round the ring, add up to the sum over the whole array. -/
theorem total_S1 (X : SX.Idx → EReal) (c : Fin 4) (b : Fin 2) (k : Fin 64) :
    (∑ a : Fin 64, ∑ w : Fin 64, blk X c (ix4 b a w k))
        + (∑ a : Fin 64, ∑ w : Fin 64, blk X (sh c 1) (ix4 b a w k))
        + (∑ a : Fin 64, ∑ w : Fin 64, blk X (sh c 2) (ix4 b a w k))
        + (∑ a : Fin 64, ∑ w : Fin 64, blk X (sh c 3) (ix4 b a w k))
      = S1 X b k := by
  refine (sum_ring (fun d => ∑ a : Fin 64, ∑ w : Fin 64, blk X d (ix4 b a w k)) c).trans ?_
  simp only [blk_ix4]
  exact sum_blocks (fun h => ∑ w : Fin 64, X (ix4 b h w k))

/-- The same for the sums of squares. -/
theorem total_S2 (X : SX.Idx → EReal) (c : Fin 4) (b : Fin 2) (k : Fin 64) :
    (∑ a : Fin 64, ∑ w : Fin 64, blk X c (ix4 b a w k) * blk X c (ix4 b a w k))
        + (∑ a : Fin 64, ∑ w : Fin 64, blk X (sh c 1) (ix4 b a w k) * blk X (sh c 1) (ix4 b a w k))
        + (∑ a : Fin 64, ∑ w : Fin 64, blk X (sh c 2) (ix4 b a w k) * blk X (sh c 2) (ix4 b a w k))
        + (∑ a : Fin 64, ∑ w : Fin 64, blk X (sh c 3) (ix4 b a w k) * blk X (sh c 3) (ix4 b a w k))
      = S2 X b k := by
  refine (sum_ring (fun d => ∑ a : Fin 64, ∑ w : Fin 64, blk X d (ix4 b a w k) * blk X d (ix4 b a w k)) c).trans ?_
  simp only [blk_ix4]
  exact sum_blocks (fun h => ∑ w : Fin 64, X (ix4 b h w k) * X (ix4 b h w k))

end Cert.KernelIdeal.KValue

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«900350_g7700000000000351_dist_diff_noisepred_hshard_i_b2_h64_w64_c64_v7x_i4_f32_1_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand;
* a block of rows of a product is the product of that block of rows (`mmRows_rows`).
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.KValBody.lean ====
/-
  The device's output, read at an index, from its block, the four exchange slots and the weight.

  The four slots are added entry by entry; rows 0, 1 of the total are the sums of the two batch entries and rows 2, 3 the
  sums of their squares. Each element of the block is turned into its activation from the two totals of its batch entry and
  channel (`kact`); the `[2, 64, 64, 64]` activations are laid out as `8192` rows of `64` channels (row-major: position
  `(b, h, w)` is row `(64 b + h) · 64 + w`), multiplied by the weight, and the `8192` rows of `128` are laid back as
  `[2, 64, 64, 128]`. So the output at `(b, h, w, n)` is the sum over the channels of the activation at `(b, h, w, k)` times
  the weight at `(k, n)`.
-/
import proofs.«900350_g7700000000000351_dist_diff_noisepred_hshard_i_b2_h64_w64_c64_v7x_i4_f32_1_alg».proof.Proof.Gen.KernelIdeal.Skeleton
import proofs.«900350_g7700000000000351_dist_diff_noisepred_hshard_i_b2_h64_w64_c64_v7x_i4_f32_1_alg».proof.Proof.KValAlg
import proofs.«900350_g7700000000000351_dist_diff_noisepred_hshard_i_b2_h64_w64_c64_v7x_i4_f32_1_alg».proof.Proof.LibMatmulRows
import Idealize.ShloMosaic.Lib.Pipeline.Value
import Idealize.ShloMosaic.Lib.ValueLayout

noncomputable section

open scoped BigOperators

namespace Cert.KernelIdeal.KValue

open Idealize.ShloMosaic Idealize.ShloMosaic.ValueIdx Cert.StatsNorm Cert.LibMatmulRows

/-- A per-channel statistic `[2, 64]` placed as `[2, 1, 1, 64]` and spread over the positions reads, at `(b, h, w, k)`,
    the statistic at `(b, k)`. -/
theorem bcast_stat (u : S2x64.Idx → EReal) (hc : S2x64.ShapeCasts S2x1x1x64) (hb : S2x1x1x64.Broadcasts S2x64x64x64)
    (b : Fin 2) (h w k : Fin 64) :
    broadcastTo S2x64x64x64 (shapeCast S2x1x1x64 u hc) hb (ix4 b h w k) = u (ix2 b k) := by
  refine (broadcastTo_apply _ hb (ix4 b h w k) (ix4 b (0 : Fin 1) (0 : Fin 1) k) fun a => ?_).trans ?_
  · match a with
    | ⟨0, _⟩ => rfl
    | ⟨1, _⟩ => rfl
    | ⟨2, _⟩ => rfl
    | ⟨3, _⟩ => rfl
  · refine shapeCast_apply u hc _ (ix2 b k) ?_
    rw [Shape.rowMajor_val_two, Shape.rowMajor_val_four]
    show b.val * 64 + k.val = ((b.val * 1 + 0) * 1 + 0) * 64 + k.val
    omega

/-- A reciprocal square root of a vector reads, at an index, the element's. -/
theorem rsqrt_apply {s : Shape} {φ : FTy} (a : FVec Ideal s φ) (i : s.Idx) : rsqrt a i = Ideal.rsqrt (a i) := rfl

/-- The logistic function of a vector reads, at an index, the element's. -/
theorem logistic_apply {s : Shape} {φ : FTy} (a : FVec Ideal s φ) (i : s.Idx) : logistic a i = Ideal.logistic (a i) := rfl

/-- The four slots added, at row `q` and channel `k`. -/
def tot (p0 p1 p2 p3 : S1x4x64.Idx → EReal) (q : Fin 4) (k : Fin 64) : EReal :=
  p0 (ix3 (0 : Fin 1) q k) + p1 (ix3 (0 : Fin 1) q k) + p2 (ix3 (0 : Fin 1) q k) + p3 (ix3 (0 : Fin 1) q k)

/-- The output at `(b, h, w, n)`: the activations of position `(b, h, w)` against column `n` of the weight; `q1`, `q2` name
    the rows of the total that hold batch entry `b`'s sum and sum of squares. -/
theorem pay3_apply (x : S2x64x64x64.Idx → EReal) (p0 p1 p2 p3 : S1x4x64.Idx → EReal) (W : S64x128.Idx → EReal)
    (b : Fin 2) (h w : Fin 64) (n : Fin 128) (q1 q2 : Fin 4) (hq1 : q1.val = 0 + b.val) (hq2 : q2.val = 2 + b.val) :
    Gen.k0_pay3 (F := Ideal) x p0 p1 p2 p3 W (ix4 b h w n)
      = ∑ k : Fin 64, kact (x (ix4 b h w k)) (tot p0 p1 p2 p3 q1 k) (tot p0 p1 p2 p3 q2 k) * W (ix2 k n) := by
  unfold Gen.k0_pay3
  refine (shapeCast_apply _ _ (ix4 b h w n)
    (ix2 (⟨(b.val * 64 + h.val) * 64 + w.val, by have := b.isLt; have := h.isLt; have := w.isLt; omega⟩ : Fin 8192) n) ?_).trans ?_
  · rw [Shape.rowMajor_val_two, Shape.rowMajor_val_four]
    rfl
  refine (congrFun (matmulRows_eq (N := 8192) (K := 64) (M := 128)
    Facts₀.dot_S8192x64_S64x128_S8192x128_1_0_0_1_n_n_wf none _ _) _).trans ?_
  refine (mmRows_apply _ _ _ _).trans ?_
  refine Finset.sum_congr rfl fun k _ => ?_
  refine congrArg₂ (· * ·) ?_ (congrFun (shapeCast_self W _) _)
  refine (shapeCast_apply _ _ _ (ix4 b h w k) ?_).trans ?_
  · rw [Shape.rowMajor_val_two, Shape.rowMajor_val_four]
    rfl
  simp only [mulf_apply, subf_apply, addf_apply, divf_apply, rsqrt_apply, logistic_apply, bcast_stat, broadcast_apply,
    slice2_axis0_apply 0 _ _ b k q1 hq1, slice2_axis0_apply 2 _ _ b k q2 hq2, shapeCast_1ab_ab_apply]
  rfl

end Cert.KernelIdeal.KValue

end
-- ==== Proof.KValSpec.lean ====
/-
  The device's output is its block of the specified result; finiteness of the inputs.

  (a) Device `c` of the ring of four holds block `c` of the input, rows `64 c … 64 c + 63` of axis 1. Its exchange slots
  hold the block statistics of devices `c`, `c + 1`, `c + 2`, `c + 3` (mod 4), which add up to the statistics of the whole
  array; from them each element's activation is the specification's, when every input is a real number; and row `h` of
  the block is row `64 c + h` of the whole. So what the device computes is block `c` of the specified result.
  (b) The precondition says that the absolute value of every input entry is below +∞: every entry is a real number.
  (c) Every index of the whole input lies in one of the four blocks (row `r` in block `r / 64`, at row `r % 64`), so if
  every block's entries are real so are the whole array's.
-/
import proofs.«900350_g7700000000000351_dist_diff_noisepred_hshard_i_b2_h64_w64_c64_v7x_i4_f32_1_alg».proof.Proof.Spec
import proofs.«900350_g7700000000000351_dist_diff_noisepred_hshard_i_b2_h64_w64_c64_v7x_i4_f32_1_alg».proof.Proof.KValAlg
import proofs.«900350_g7700000000000351_dist_diff_noisepred_hshard_i_b2_h64_w64_c64_v7x_i4_f32_1_alg».proof.Proof.KValStats
import proofs.«900350_g7700000000000351_dist_diff_noisepred_hshard_i_b2_h64_w64_c64_v7x_i4_f32_1_alg».proof.Proof.KValTotal
import proofs.«900350_g7700000000000351_dist_diff_noisepred_hshard_i_b2_h64_w64_c64_v7x_i4_f32_1_alg».proof.Proof.KValBody
import proofs.«900350_g7700000000000351_dist_diff_noisepred_hshard_i_b2_h64_w64_c64_v7x_i4_f32_1_alg».proof.Proof.Gen.KernelIdeal.Skeleton
import proofs.«900350_g7700000000000351_dist_diff_noisepred_hshard_i_b2_h64_w64_c64_v7x_i4_f32_1_alg».proof.Proof.Gen.Pre_finite_inputs_Kernel
import Idealize.ShloMosaic.Lib.Layout
import Idealize.ShloMosaic.Lib.ReduceAll
import Idealize.ShloMosaic.Lib.ValueIdx

noncomputable section

open scoped BigOperators

namespace Cert.KernelIdeal.KValue

open Idealize.ShloMosaic Idealize.ShloMosaic.ValueIdx Cert.StatsNorm

/-- (a) What device `c` computes from its block, the four block statistics as its exchange slots hold them and the weight
    is block `c` of the specified result. -/
theorem pay_eq_block (X : SX.Idx → EReal) (W : SW.Idx → EReal) (hX : ∀ i, ∃ r : ℝ, X i = (r : EReal))
    (hW : ∀ i, ∃ r : ℝ, W i = (r : EReal)) (c : Fin 4) :
    Cert.KernelIdeal.Gen.k0_pay3 (F := Ideal) (Cert.KernelIdeal.Gen.k0_pay1 (F := Ideal) (blk X c))
        (Cert.KernelIdeal.Gen.k0_pay2 (F := Ideal) (blk X c)) (Cert.KernelIdeal.Gen.k0_pay2 (F := Ideal) (blk X (sh c 1)))
        (Cert.KernelIdeal.Gen.k0_pay2 (F := Ideal) (blk X (sh c 2))) (Cert.KernelIdeal.Gen.k0_pay2 (F := Ideal) (blk X (sh c 3))) W
      = Layout.block ⟨4, ![2, 64, 64, 128]⟩ ⟨4, ![2, 256, 64, 128]⟩ 1 4 c (Cert.StatsNorm.out X W) := by
  funext j
  obtain ⟨b, h, w, n, rfl⟩ : ∃ (b : Fin 2) (h w : Fin 64) (n : Fin 128), j = ix4 b h w n :=
    ⟨j 0, j 1, j 2, j 3, eq_ix4 j⟩
  obtain ⟨q1, hq1⟩ : ∃ q : Fin 4, q.val = b.val := ⟨⟨b.val, by have := b.isLt; omega⟩, rfl⟩
  obtain ⟨q2, hq2⟩ : ∃ q : Fin 4, q.val = 2 + b.val := ⟨⟨2 + b.val, by have := b.isLt; omega⟩, rfl⟩
  rw [pay1_eq]
  refine (pay3_apply (blk X c) _ _ _ _ W b h w n q1 q2 (hq1.trans (Nat.zero_add _).symm) hq2).trans ?_
  -- the block of the result at `(b, h, w, n)` is the result at row `64 c + h`
  have hidx : Layout.block ⟨4, ![2, 64, 64, 128]⟩ ⟨4, ![2, 256, 64, 128]⟩ 1 4 c (out X W) (by decide) (ix4 b h w n)
      = outAt X W b (⟨c.val * 64 + h.val, by have := c.isLt; have := h.isLt; omega⟩ : Fin 256) w n := by
    rw [← out_ix4]
    show out X W _ = out X W _
    refine congrArg (out X W) (funext fun a => Fin.ext ?_)
    match a with
    | ⟨0, _⟩ => rfl
    | ⟨1, _⟩ => rfl
    | ⟨2, _⟩ => rfl
    | ⟨3, _⟩ => rfl
  refine Eq.trans ?_ hidx.symm
  unfold outAt
  refine Finset.sum_congr rfl fun k _ => ?_
  refine congrArg (· * W (ix2 k n)) ?_
  -- the totals of the four slots are the sums over the whole array
  have t1 : tot (Gen.k0_pay2 (F := Ideal) (blk X c)) (Gen.k0_pay2 (F := Ideal) (blk X (sh c 1)))
      (Gen.k0_pay2 (F := Ideal) (blk X (sh c 2))) (Gen.k0_pay2 (F := Ideal) (blk X (sh c 3))) q1 k = S1 X b k := by
    unfold tot
    rw [pay2_sum (blk X c) q1 b k hq1, pay2_sum (blk X (sh c 1)) q1 b k hq1, pay2_sum (blk X (sh c 2)) q1 b k hq1,
      pay2_sum (blk X (sh c 3)) q1 b k hq1]
    exact total_S1 X c b k
  have t2 : tot (Gen.k0_pay2 (F := Ideal) (blk X c)) (Gen.k0_pay2 (F := Ideal) (blk X (sh c 1)))
      (Gen.k0_pay2 (F := Ideal) (blk X (sh c 2))) (Gen.k0_pay2 (F := Ideal) (blk X (sh c 3))) q2 k = S2 X b k := by
    unfold tot
    rw [pay2_sumsq (blk X c) q2 b k hq2, pay2_sumsq (blk X (sh c 1)) q2 b k hq2, pay2_sumsq (blk X (sh c 2)) q2 b k hq2,
      pay2_sumsq (blk X (sh c 3)) q2 b k hq2]
    exact total_S2 X c b k
  rw [t1, t2, blk_ix4]
  exact kact_eq_act X hX b _ w k

/-- An extended real whose absolute value is below the f32 pattern of +∞ is a real number. -/
theorem real_of_abs_lt_inf (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => exfalso; revert h; simp [Ideal.cmp]
  | top => exfalso; revert h; simp [Ideal.cmp]
  | coe r => exact ⟨r, rfl⟩

/-- The scalar shape has one index. -/
instance : Subsingleton Cert.Pre_finite_inputs_Kernel.S_.Idx := ⟨fun _ _ => funext fun d => d.elim0⟩

/-- (b) Under the precondition every entry of both inputs is a real number. -/
theorem finite_of_pre [Cert.Pre_finite_inputs_Kernel.Facts] (x : Cert.Pre_finite_inputs_Kernel.S2x64x64x64.Idx → EReal)
    (w : Cert.Pre_finite_inputs_Kernel.S64x128.Idx → EReal)
    (h : Cert.Pre_finite_inputs_Kernel.fn (F := Ideal) x w = fun _ => 1#1) :
    (∀ i, ∃ r : ℝ, x i = (r : EReal)) ∧ (∀ i, ∃ r : ℝ, w i = (r : EReal)) := by
  have h0 := congrFun h ValueIdx.ix0
  dsimp only [Cert.Pre_finite_inputs_Kernel.fn] at h0
  obtain ⟨hx, hw⟩ := IntOp.andi_eq_one.1 h0
  refine ⟨fun i => ?_, fun i => ?_⟩
  · exact real_of_abs_lt_inf (x i) (Host.reduce_andi_all _ _ _ _ _ hx i)
  · exact real_of_abs_lt_inf (w i) (Host.reduce_andi_all _ _ _ _ _ hw i)

/-- (c) If every entry of every block is a real number, so is every entry of the whole input. -/
theorem whole_finite (X : SX.Idx → EReal)
    (h : ∀ (d : Fin 4) (i : Cert.KernelIdeal.S2x64x64x64.Idx), ∃ r : ℝ, blk X d i = (r : EReal)) :
    ∀ j, ∃ r : ℝ, X j = (r : EReal) := by
  intro j
  obtain ⟨b, r, w, k, rfl⟩ : ∃ (b : Fin 2) (r : Fin 256) (w k : Fin 64), j = ix4 b r w k :=
    ⟨j 0, j 1, j 2, j 3, eq_ix4 j⟩
  obtain ⟨q, hq⟩ := h ⟨r.val / 64, by have := r.isLt; omega⟩ (ix4 b ⟨r.val % 64, Nat.mod_lt _ (by decide)⟩ w k)
  refine ⟨q, ?_⟩
  rw [← hq, blk_ix4]
  refine congrArg X (congrArg (fun r' : Fin 256 => ix4 b r' w k) (Fin.ext ?_))
  show r.val = r.val / 64 * 64 + r.val % 64
  omega

end Cert.KernelIdeal.KValue

end
-- ==== Proof.RefRun.lean ====
/-
  The reference program's run.  Its entry function is a straight line of host operations, one of which is a call
  of the variance subroutine, which in turn calls the selection subroutine; with the two subroutines' bodies written at their call
  sites over the calls' own buffers the whole program is ONE list of forty-seven operations, and its run leaves every
  buffer at the fold of those operations over the launch contents.
-/
import proofs.«900350_g7700000000000351_dist_diff_noisepred_hshard_i_b2_h64_w64_c64_v7x_i4_f32_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's forty-seven operations, in order: seven of the entry function (the sum, its division by the
    count: the mean; the integer zero), the variance subroutine's twenty-one over its call's buffers (the mean again, the
    centred squares, their sum, the count less the correction, the quotient, the comparison of that count with zero),
    the selection subroutine's three (the not-a-number word broadcast, the selection by the comparison), and the entry
    function's remaining sixteen (centre, add the small constant, root, divide, the activation, the reshape to rows,
    the product with the weight, the reshape back). -/
abbrev ops : List (HloOp τ sig (Elt F)) :=
  [ nullary main_cst (constant S_ .f32 0x00000000#32),
    binary main_arg0 main_cst main_v0 ((fun x v => Host.reduceAdd x v reducesTo_S2x256x64x64_S2x64_d1_2 h_S_) : (⟨S2x256x64x64, .f32⟩ : BufTy).Contents (Elt F) → (⟨S_, .f32⟩ : BufTy).Contents (Elt F) → (⟨S2x64, .f32⟩ : BufTy).Contents (Elt F)),
    unary main_v0 main_v1 (broadcastInDim S2x1x1x64 ![0, 3] bcast_S2x64_S2x1x1x64_0_3 : (⟨S2x64, .f32⟩ : BufTy).Contents (Elt F) → (⟨S2x1x1x64, .f32⟩ : BufTy).Contents (Elt F)),
    nullary main_cst_0 (constant S_ .f32 0x46800000#32),
    unary main_cst_0 main_v2 (broadcastInDim S2x1x1x64 ![] bcast_S_S2x1x1x64 : (⟨S_, .f32⟩ : BufTy).Contents (Elt F) → (⟨S2x1x1x64, .f32⟩ : BufTy).Contents (Elt F)),
    binary main_v1 main_v2 main_v3 (Host.divf : (⟨S2x1x1x64, .f32⟩ : BufTy).Contents (Elt F) → (⟨S2x1x1x64, .f32⟩ : BufTy).Contents (Elt F) → (⟨S2x1x1x64, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S2x256x64x64_S2x64_d1_2 h_S_),
    TRef.unary main_call0.v0 main_call0.v1 (broadcastInDim S2x1x1x64 ![0, 3] bcast_S2x64_S2x1x1x64_0_3),
    TRef.nullary main_call0.cst_0 (constant S_ .f32 0x46800000#32),
    TRef.unary main_call0.cst_0 main_call0.v2 (broadcastInDim S2x1x1x64 ![] bcast_S_S2x1x1x64),
    TRef.binary main_call0.v1 main_call0.v2 main_call0.v3 Host.divf,
    TRef.unary main_call0.v3 main_call0.v4 (broadcastInDim S2x256x64x64 ![0, 1, 2, 3] bcast_S2x1x1x64_S2x256x64x64_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x256x64x64_S2x64_d1_2 h_S_),
    TRef.unary main_call0.v9 main_call0.v10 (broadcastInDim S2x1x1x64 ![0, 3] bcast_S2x64_S2x1x1x64_0_3),
    TRef.unary main_call0.v8 main_call0.v11 (broadcastInDim S2x1x1x64 ![] bcast_S_S2x1x1x64),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x1x1x64 ![] bcast_S_S2x1x1x64),
    TRef.ternary main_call0.v13 main_call0.v12 main_call0.call0.v1 main_call0.call0.v2 (fun p a b => select (broadcastInDim S2x1x1x64 ![] bcast_S_S2x1x1x64 p) a b),
    unary main_v3 main_v5 (broadcastInDim S2x256x64x64 ![0, 1, 2, 3] bcast_S2x1x1x64_S2x256x64x64_0_1_2_3 : (⟨S2x1x1x64, .f32⟩ : BufTy).Contents (Elt F) → (⟨S2x256x64x64, .f32⟩ : BufTy).Contents (Elt F)),
    binary main_arg0 main_v5 main_v6 (subf : (⟨S2x256x64x64, .f32⟩ : BufTy).Contents (Elt F) → (⟨S2x256x64x64, .f32⟩ : BufTy).Contents (Elt F) → (⟨S2x256x64x64, .f32⟩ : BufTy).Contents (Elt F)),
    nullary main_cst_1 (constant S_ .f32 0x3727C5AC#32),
    unary main_cst_1 main_v7 (broadcastInDim S2x1x1x64 ![] bcast_S_S2x1x1x64 : (⟨S_, .f32⟩ : BufTy).Contents (Elt F) → (⟨S2x1x1x64, .f32⟩ : BufTy).Contents (Elt F)),
    binary main_v4 main_v7 main_v8 (addf : (⟨S2x1x1x64, .f32⟩ : BufTy).Contents (Elt F) → (⟨S2x1x1x64, .f32⟩ : BufTy).Contents (Elt F) → (⟨S2x1x1x64, .f32⟩ : BufTy).Contents (Elt F)),
    unary main_v8 main_v9 (Host.sqrt : (⟨S2x1x1x64, .f32⟩ : BufTy).Contents (Elt F) → (⟨S2x1x1x64, .f32⟩ : BufTy).Contents (Elt F)),
    unary main_v9 main_v10 (broadcastInDim S2x256x64x64 ![0, 1, 2, 3] bcast_S2x1x1x64_S2x256x64x64_0_1_2_3 : (⟨S2x1x1x64, .f32⟩ : BufTy).Contents (Elt F) → (⟨S2x256x64x64, .f32⟩ : BufTy).Contents (Elt F)),
    binary main_v6 main_v10 main_v11 (Host.divf : (⟨S2x256x64x64, .f32⟩ : BufTy).Contents (Elt F) → (⟨S2x256x64x64, .f32⟩ : BufTy).Contents (Elt F) → (⟨S2x256x64x64, .f32⟩ : BufTy).Contents (Elt F)),
    unary main_v11 main_v12 (Host.negf : (⟨S2x256x64x64, .f32⟩ : BufTy).Contents (Elt F) → (⟨S2x256x64x64, .f32⟩ : BufTy).Contents (Elt F)),
    unary main_v12 main_v13 (Host.exp : (⟨S2x256x64x64, .f32⟩ : BufTy).Contents (Elt F) → (⟨S2x256x64x64, .f32⟩ : BufTy).Contents (Elt F)),
    nullary main_cst_2 (constant S_ .f32 0x3F800000#32),
    unary main_cst_2 main_v14 (broadcastInDim S2x256x64x64 ![] bcast_S_S2x256x64x64 : (⟨S_, .f32⟩ : BufTy).Contents (Elt F) → (⟨S2x256x64x64, .f32⟩ : BufTy).Contents (Elt F)),
    binary main_v14 main_v13 main_v15 (addf : (⟨S2x256x64x64, .f32⟩ : BufTy).Contents (Elt F) → (⟨S2x256x64x64, .f32⟩ : BufTy).Contents (Elt F) → (⟨S2x256x64x64, .f32⟩ : BufTy).Contents (Elt F)),
    binary main_v11 main_v15 main_v16 (Host.divf : (⟨S2x256x64x64, .f32⟩ : BufTy).Contents (Elt F) → (⟨S2x256x64x64, .f32⟩ : BufTy).Contents (Elt F) → (⟨S2x256x64x64, .f32⟩ : BufTy).Contents (Elt F)),
    reshape main_v16 main_v17 rfl shapeCasts_S2x256x64x64_S32768x64,
    binary main_v17 main_arg1 main_v18 ((fun l r => Host.dotGeneral dot_S32768x64_S64x128_S32768x128_1_0_0_1_n_n none l r) : (⟨S32768x64, .f32⟩ : BufTy).Contents (Elt F) → (⟨S64x128, .f32⟩ : BufTy).Contents (Elt F) → (⟨S32768x128, .f32⟩ : BufTy).Contents (Elt F)),
    reshape main_v18 main_v19 rfl shapeCasts_S32768x128_S2x256x64x128 ]

-- forty-seven binds re-associated, one level of the rewrite per statement
set_option maxRecDepth 2048 in
/-- The entry function is that straight line: the two subroutines' definitions unfolded at their calls, and the
    sequencing re-associated, both sides are one chain of steps. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., binary_bufs_sub .., reshape_bufs_sub .., binary_bufs_sub .., reshape_bufs_sub ..⟩

/-- On the one device, for any float values, from any memory with zero counters: every weakly fair execution of the
    entry function terminates, and every buffer ends at the fold of the forty-seven operations over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference's result as a composition of named stages, each a pure function of the whole input array (and, for
  the last, of the weight): the channel sums, the mean, the centred array, the variance as the subroutine computes it
  (a quotient selected against a not-a-number word by the sign of the divisor), the normalised array, the
  activation, and the product with the weight between two reshapes.  The fold of the forty-seven operations at the
  result buffer IS that composition, and the two argument buffers are untouched.
-/
import proofs.«900350_g7700000000000351_dist_diff_noisepred_hshard_i_b2_h64_w64_c64_v7x_i4_f32_1_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Per batch entry and channel, the zero word plus the sum of an array over its two middle axes. -/
def sumT (Y : FVec F S2x256x64x64 .f32) : FVec F S2x64 .f32 :=
  Host.reduceAdd Y (constant S_ .f32 0x00000000#32) reducesTo_S2x256x64x64_S2x64_d1_2 h_S_

/-- The count word at the statistics' shape. -/
def cntT : FVec F S2x1x1x64 .f32 :=
  broadcastInDim S2x1x1x64 ![] bcast_S_S2x1x1x64 (constant S_ .f32 0x46800000#32)

/-- The mean: the sums, at the statistics' shape, divided by the count. -/
def meanT (X : FVec F S2x256x64x64 .f32) : FVec F S2x1x1x64 .f32 :=
  Host.divf (broadcastInDim S2x1x1x64 ![0, 3] bcast_S2x64_S2x1x1x64_0_3 (sumT X)) cntT

/-- The centred array: every element less its channel's mean. -/
def cenT (X : FVec F S2x256x64x64 .f32) : FVec F S2x256x64x64 .f32 :=
  subf X (broadcastInDim S2x256x64x64 ![0, 1, 2, 3] bcast_S2x1x1x64_S2x256x64x64_0_1_2_3 (meanT X))

/-- The variance subroutine's divisor: the count less the correction, the integer zero made a float. -/
def dofT : FVec F S_ .f32 :=
  subf (constant S_ .f32 0x46800000#32) (sitofp .f32 (constantI S_ 32 0#32))

/-- The variance as the subroutine computes it: where the divisor is positive the sum of the centred squares over
    the divisor, elsewhere the not-a-number word. -/
def varT (X : FVec F S2x256x64x64 .f32) : FVec F S2x1x1x64 .f32 :=
  select (broadcastInDim S2x1x1x64 ![] bcast_S_S2x1x1x64 (cmpf .ogt (dofT (F := F)) (constant S_ .f32 0x00000000#32)))
    (Host.divf (broadcastInDim S2x1x1x64 ![0, 3] bcast_S2x64_S2x1x1x64_0_3 (sumT (mulf (cenT X) (cenT X))))
      (broadcastInDim S2x1x1x64 ![] bcast_S_S2x1x1x64 (dofT (F := F))))
    (broadcastInDim S2x1x1x64 ![] bcast_S_S2x1x1x64 (id (constant S_ .f32 0x7FC00000#32)))

/-- The normalised array: the centred array over the root of the variance plus the small constant. -/
def normT (X : FVec F S2x256x64x64 .f32) : FVec F S2x256x64x64 .f32 :=
  Host.divf (cenT X) (broadcastInDim S2x256x64x64 ![0, 1, 2, 3] bcast_S2x1x1x64_S2x256x64x64_0_1_2_3
    (Host.sqrt (addf (varT X) (broadcastInDim S2x1x1x64 ![] bcast_S_S2x1x1x64 (constant S_ .f32 0x3727C5AC#32)))))

/-- The activation: the normalised array over one plus the exponential of its negation. -/
def actT (X : FVec F S2x256x64x64 .f32) : FVec F S2x256x64x64 .f32 :=
  Host.divf (normT X) (addf (broadcastInDim S2x256x64x64 ![] bcast_S_S2x256x64x64 (constant S_ .f32 0x3F800000#32))
    (Host.exp (Host.negf (normT X))))

/-- The product: the activation's rows against the weight. -/
def prodT (X : FVec F S2x256x64x64 .f32) (W : FVec F S64x128 .f32) : FVec F S32768x128 .f32 :=
  Host.dotGeneral dot_S32768x64_S64x128_S32768x128_1_0_0_1_n_n none
    (shapeCast S32768x64 (actT X) shapeCasts_S2x256x64x64_S32768x64) W

/-- The result: the product at the result's shape. -/
def resT (X : FVec F S2x256x64x64 .f32) (W : FVec F S64x128 .f32) : FVec F S2x256x64x128 .f32 :=
  shapeCast S2x256x64x128 (prodT X W) shapeCasts_S32768x128_S2x256x64x128

/-- The fold at the result buffer is the composition of the stages at the two argument buffers. -/
theorem after_result (V : Valuation τ sig (Elt F)) :
    after ops V (main_v19 : DevRef τ sig) = resT (V (main_arg0 : DevRef τ sig)) (V (main_arg1 : DevRef τ sig)) := by
  after_results_simp
  rfl

theorem after_arg0 (V : Valuation τ sig (Elt F)) :
    after ops V (main_arg0 : DevRef τ sig) = V (main_arg0 : DevRef τ sig) := by
  after_results_simp

theorem after_arg1 (V : Valuation τ sig (Elt F)) :
    after ops V (main_arg1 : DevRef τ sig) = V (main_arg1 : DevRef τ sig) := by
  after_results_simp

/-- The run with the result named: every weakly fair execution terminates with the result buffer at the stages'
    composition of the launch contents of the two arguments, and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = resT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (after_result _),
      (h c main_arg0).trans (after_arg0 _),
      (h c main_arg1).trans (after_arg1 _)⟩)
    (run_fold m ρ)

end Cert.ReferenceIdeal.RefValue

end
-- ==== Proof.RefSum.lean ====
/-
  The host's sum over the two middle axes of a four-axis array, read at a batch entry and a channel.

  The sum is stated over the set of the array's indices whose first and last coordinates are the given pair.  Such an
  index is determined by its two middle coordinates, so that set is in bijection with the pairs of a row and a
  column, and the sum over it is the nested sum over rows and columns — whatever function is summed.
-/
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx

/-- Dropping the two middle coordinates keeps the first … -/
theorem drop_val_first (h : (⟨4, ![2, 256, 64, 64]⟩ : Shape).ReducesTo [1, 2] ⟨2, ![2, 64]⟩)
    (i : (⟨4, ![2, 256, 64, 64]⟩ : Shape).Idx) : (h.drop i 0 : Nat) = (i 0 : Nat) :=
  Shape.ReducesTo.drop_apply_val_of_eq h i 0 0

/-- … and the last. -/
theorem drop_val_last (h : (⟨4, ![2, 256, 64, 64]⟩ : Shape).ReducesTo [1, 2] ⟨2, ![2, 64]⟩)
    (i : (⟨4, ![2, 256, 64, 64]⟩ : Shape).Idx) : (h.drop i 1 : Nat) = (i 3 : Nat) :=
  Shape.ReducesTo.drop_apply_val_of_eq h i 1 3

/-- The index built from four coordinates drops to the pair of its first and last. -/
theorem drop_ix4 (h : (⟨4, ![2, 256, 64, 64]⟩ : Shape).ReducesTo [1, 2] ⟨2, ![2, 64]⟩)
    (b : Fin 2) (r : Fin 256) (w : Fin 64) (k : Fin 64) : h.drop (ix4 b r w k) = ix2 b k := by
  funext a
  match a with
  | ⟨0, _⟩ => exact Fin.ext (drop_val_first h (ix4 b r w k))
  | ⟨1, _⟩ => exact Fin.ext (drop_val_last h (ix4 b r w k))

/-- An index that drops to the pair `(b, k)` is the one built from `b`, its own middle coordinates, and `k`. -/
theorem ix4_of_drop (h : (⟨4, ![2, 256, 64, 64]⟩ : Shape).ReducesTo [1, 2] ⟨2, ![2, 64]⟩)
    (b : Fin 2) (k : Fin 64) (i : (⟨4, ![2, 256, 64, 64]⟩ : Shape).Idx) (hi : h.drop i = ix2 b k) :
    ix4 b (i 1) (i 2) k = i := by
  have h0 : (i 0 : Fin 2) = b :=
    Fin.ext ((drop_val_first h i).symm.trans (congrArg (fun j : (⟨2, ![2, 64]⟩ : Shape).Idx => ((j 0 : Fin 2) : Nat)) hi))
  have h3 : (i 3 : Fin 64) = k :=
    Fin.ext ((drop_val_last h i).symm.trans (congrArg (fun j : (⟨2, ![2, 64]⟩ : Shape).Idx => ((j 1 : Fin 64) : Nat)) hi))
  subst h0
  subst h3
  exact (eq_ix4 i).symm

/-- The sum over the indices that drop to `(b, k)` is the nested sum over the two middle coordinates. -/
theorem sum_filter_drop (h : (⟨4, ![2, 256, 64, 64]⟩ : Shape).ReducesTo [1, 2] ⟨2, ![2, 64]⟩)
    (x : (⟨4, ![2, 256, 64, 64]⟩ : Shape).Idx → EReal) (b : Fin 2) (k : Fin 64) :
    ∑ i ∈ Finset.univ.filter (fun i => h.drop i = ix2 b k), x i = ∑ r : Fin 256, ∑ w : Fin 64, x (ix4 b r w k) := by
  rw [← Fintype.sum_prod_type' (f := fun (r : Fin 256) (w : Fin 64) => x (ix4 b r w k))]
  exact Finset.sum_nbij' (fun i => ((i 1 : Fin 256), (i 2 : Fin 64))) (fun p => ix4 b p.1 p.2 k)
    (fun _ _ => Finset.mem_univ _)
    (fun p _ => Finset.mem_filter.mpr ⟨Finset.mem_univ _, drop_ix4 h b p.1 p.2 k⟩)
    (fun i hi => ix4_of_drop h b k i (Finset.mem_filter.mp hi).2)
    (fun _ _ => rfl)
    (fun i hi => congrArg x (ix4_of_drop h b k i (Finset.mem_filter.mp hi).2).symm)

/-- So the host's sum from the zero word, read on the extended reals at `(b, k)`, is that nested sum. -/
theorem hostSum_apply (h : (⟨4, ![2, 256, 64, 64]⟩ : Shape).ReducesTo [1, 2] ⟨2, ![2, 64]⟩)
    (hu : 0 < (⟨0, ![]⟩ : Shape).numel) (Y : FVec Ideal ⟨4, ![2, 256, 64, 64]⟩ .f32) (b : Fin 2) (k : Fin 64) :
    Host.reduceAdd (F := Ideal) Y (constant (F := Ideal) ⟨0, ![]⟩ .f32 0x00000000#32) h hu (ix2 b k)
      = ∑ r : Fin 256, ∑ w : Fin 64, Y (ix4 b r w k) := by
  show Ideal.ofBits .f32 0x00000000#32 + ∑ i ∈ Finset.univ.filter (fun i => h.drop i = ix2 b k), Y i = _
  rw [Ideal.ofBits_zero_f32, zero_add, sum_filter_drop]

end Cert.ReferenceIdeal.RefValue

end
-- ==== Proof.RefStats.lean ====
/-
  The reference's stages read at coordinates, on the extended reals.

  Each stage of the reference's result term, read at an index built from its coordinates, is the specification's
  function of those coordinates: the channel sum is the nested sum over the positions, the mean that sum over the
  count, the centred array the element less the mean; the variance subroutine divides the sum of the centred squares by
  the count less a zero correction, and selects that quotient because the divisor is positive; then the element is
  normalised by the root of the variance plus the small constant and passed through the activation.
-/
import proofs.«900350_g7700000000000351_dist_diff_noisepred_hshard_i_b2_h64_w64_c64_v7x_i4_f32_1_alg».proof.Proof.RefTerm
import proofs.«900350_g7700000000000351_dist_diff_noisepred_hshard_i_b2_h64_w64_c64_v7x_i4_f32_1_alg».proof.Proof.RefSum
import proofs.«900350_g7700000000000351_dist_diff_noisepred_hshard_i_b2_h64_w64_c64_v7x_i4_f32_1_alg».proof.Proof.Spec
import Idealize.ShloMosaic.Lib.Pipeline.Value
import Idealize.ShloMosaic.Lib.ValueIdx

noncomputable section

open scoped BigOperators

namespace Cert.ReferenceIdeal.RefValue

open Cert Cert.ReferenceIdeal Cert.ReferenceIdeal.Gen Idealize.ShloMosaic Idealize.ShloMosaic.ValueIdx

/-! ## The broadcasts at an index -/

section Layout
variable {α : Type}

/-- A `[2, 64]` array placed on the first and last axes of `[2, 1, 1, 64]` reads, at `(b, u, v, k)`, the array at
    `(b, k)`. -/
theorem bcastStat_apply (f : S2x64.Idx → α) (b : Fin 2) (u v : Fin 1) (k : Fin 64) :
    broadcastInDim S2x1x1x64 ![0, 3] bcast_S2x64_S2x1x1x64_0_3 f (ix4 b u v k) = f (ix2 b k) :=
  broadcastInDim_apply _ _ f (ix4 b u v k) (ix2 b k) fun a => by
    match a with
    | ⟨0, _⟩ => rfl
    | ⟨1, _⟩ => rfl

/-- A `[2, 1, 1, 64]` array placed on the four axes of `[2, 256, 64, 64]` reads, at `(b, r, w, k)`, the array at
    `(b, 0, 0, k)`: the two middle axes have one coordinate. -/
theorem bcastFull_apply (g : S2x1x1x64.Idx → α) (b : Fin 2) (r : Fin 256) (w : Fin 64) (k : Fin 64) :
    broadcastInDim S2x256x64x64 ![0, 1, 2, 3] bcast_S2x1x1x64_S2x256x64x64_0_1_2_3 g (ix4 b r w k)
      = g (ix4 b (0 : Fin 1) (0 : Fin 1) k) :=
  broadcastInDim_apply _ _ g (ix4 b r w k) (ix4 b (0 : Fin 1) (0 : Fin 1) k) fun a => by
    match a with
    | ⟨0, _⟩ => rfl
    | ⟨1, _⟩ => rfl
    | ⟨2, _⟩ => rfl
    | ⟨3, _⟩ => rfl

/-- A scalar broadcast to any shape reads, everywhere, the scalar's one element. -/
theorem bcastScalar_apply {t : Shape} (h : S_.BroadcastsInDim t (![] : Fin 0 → Fin t.rank)) (v : S_.Idx → α) (j : t.Idx) :
    broadcastInDim t ![] h v j = v ix0 := by
  unfold broadcastInDim
  exact congrArg v (funext fun a => a.elim0)

end Layout

/-! ## The host's pointwise operations at an index (definitional) -/

section Pointwise
variable {s : Shape} {φ : FTy}

theorem hostDivf_apply (a b : FVec Ideal s φ) (i : s.Idx) : Host.divf a b i = Ideal.div (a i) (b i) := rfl
theorem hostSqrt_apply (a : FVec Ideal s φ) (i : s.Idx) : Host.sqrt a i = Ideal.sqrt (a i) := rfl
theorem hostExp_apply (a : FVec Ideal s φ) (i : s.Idx) : Host.exp a i = Ideal.exp (a i) := rfl
theorem hostNegf_apply (a : FVec Ideal s φ) (i : s.Idx) : Host.negf a i = -(a i) := rfl

end Pointwise

/-! ## The count -/

/-- The count word denotes 16384. -/
theorem cnt_eq : StatsNorm.cnt = ((16384 : ℝ) : EReal) := by
  unfold StatsNorm.cnt
  simp [Ideal.ofBits, Ideal.ieee]
  rw [← EReal.coe_mul]
  norm_num

/-- The count is positive. -/
theorem cnt_pos : (0 : EReal) < StatsNorm.cnt := by
  rw [cnt_eq]
  exact EReal.coe_pos.mpr (by norm_num)

/-- The subroutine's divisor, the count less the integer zero made a float, is the count. -/
theorem dofT_apply (j : S_.Idx) : dofT (F := Ideal) j = StatsNorm.cnt := by
  show Ideal.ofBits .f32 0x46800000#32 - (((0#32 : BitVec 32).toInt : ℝ) : EReal) = StatsNorm.cnt
  simp [StatsNorm.cnt]

/-- The subroutine's comparison of its divisor with the zero word answers yes. -/
theorem sel_one : cmpf .ogt (dofT (F := Ideal)) (constant (F := Ideal) S_ .f32 0x00000000#32) ix0 = 1#1 := by
  show Ideal.cmp .ogt (dofT (F := Ideal) ix0) (Ideal.ofBits .f32 0x00000000#32) = 1#1
  rw [dofT_apply, Ideal.ofBits_zero_f32]
  show BitVec.ofBool (decide ((0 : EReal) < StatsNorm.cnt)) = 1#1
  rw [decide_eq_true cnt_pos]
  rfl

/-! ## The stages at coordinates -/

variable (X : FVec Ideal S2x256x64x64 .f32)

/-- The count at the statistics' shape is the count. -/
theorem cntT_apply (j : S2x1x1x64.Idx) : cntT (F := Ideal) j = StatsNorm.cnt := by
  unfold cntT
  rw [bcastScalar_apply]
  rfl

/-- The channel sums. -/
theorem sumT_apply (Y : FVec Ideal S2x256x64x64 .f32) (b : Fin 2) (k : Fin 64) :
    sumT Y (ix2 b k) = ∑ r : Fin 256, ∑ w : Fin 64, Y (ix4 b r w k) := by
  unfold sumT
  exact hostSum_apply _ _ Y b k

/-- The mean. -/
theorem meanT_apply (b : Fin 2) (u v : Fin 1) (k : Fin 64) : meanT X (ix4 b u v k) = StatsNorm.mean X b k := by
  unfold meanT
  rw [hostDivf_apply, bcastStat_apply, sumT_apply, cntT_apply]
  rfl

/-- The centred array. -/
theorem cenT_apply (b : Fin 2) (r : Fin 256) (w : Fin 64) (k : Fin 64) :
    cenT X (ix4 b r w k) = StatsNorm.centred X b r w k := by
  unfold cenT
  rw [subf_apply, bcastFull_apply, meanT_apply]
  rfl

/-- The variance: the selection keeps the quotient, and the quotient's divisor is the count. -/
theorem varT_apply (b : Fin 2) (u v : Fin 1) (k : Fin 64) : varT X (ix4 b u v k) = StatsNorm.var X b k := by
  unfold varT
  rw [select_apply, bcastScalar_apply, sel_one, select_one, hostDivf_apply, bcastStat_apply, bcastScalar_apply, dofT_apply,
    sumT_apply]
  unfold StatsNorm.var
  refine congrArg (fun t => Ideal.div t StatsNorm.cnt) ?_
  refine Finset.sum_congr rfl fun r _ => Finset.sum_congr rfl fun w _ => ?_
  rw [mulf_apply, cenT_apply]

/-- The normalised array. -/
theorem normT_apply (b : Fin 2) (r : Fin 256) (w : Fin 64) (k : Fin 64) :
    normT X (ix4 b r w k) = StatsNorm.normed X b r w k := by
  unfold normT
  rw [hostDivf_apply, cenT_apply, bcastFull_apply, hostSqrt_apply, addf_apply, varT_apply, bcastScalar_apply]
  rfl

/-- The activation. -/
theorem actT_apply (b : Fin 2) (r : Fin 256) (w : Fin 64) (k : Fin 64) :
    actT X (ix4 b r w k) = StatsNorm.act X b r w k := by
  unfold actT
  rw [hostDivf_apply, addf_apply, bcastScalar_apply, hostExp_apply, hostNegf_apply, normT_apply]
  rfl

end Cert.ReferenceIdeal.RefValue

end
-- ==== Proof.RefProd.lean ====
/-
  The reference's last three operations read at coordinates: the activation reshaped to rows, multiplied by the
  weight, and reshaped back.

  Position `(b, r, w)` of the four-axis array is row `(b · 256 + r) · 64 + w` of the row matrix: both reshapes keep the
  row-major order, so the result at `(b, r, w, n)` is entry `(row, n)` of the product, which is the sum over the
  channels of the activation at `(b, r, w, k)` times the weight at `(k, n)`.
-/
import proofs.«900350_g7700000000000351_dist_diff_noisepred_hshard_i_b2_h64_w64_c64_v7x_i4_f32_1_alg».proof.Proof.RefStats
import proofs.«900350_g7700000000000351_dist_diff_noisepred_hshard_i_b2_h64_w64_c64_v7x_i4_f32_1_alg».proof.Proof.LibMatmulRows
import Idealize.ShloMosaic.Lib.Pipeline.Value

noncomputable section

open scoped BigOperators

namespace Cert.ReferenceIdeal.RefValue

open Cert Cert.ReferenceIdeal Cert.ReferenceIdeal.Gen Idealize.ShloMosaic Idealize.ShloMosaic.ValueIdx

/-- The row of the row matrix that holds position `(b, r, w)`. -/
def rowOf (b : Fin 2) (r : Fin 256) (w : Fin 64) : Fin 32768 :=
  ⟨(b.val * 256 + r.val) * 64 + w.val, by have := b.isLt; have := r.isLt; have := w.isLt; omega⟩

theorem rowOf_val (b : Fin 2) (r : Fin 256) (w : Fin 64) : (rowOf b r w).val = (b.val * 256 + r.val) * 64 + w.val := rfl

section Layout
variable {α : Type}

/-- The four-axis array reshaped to rows reads, at `(row, k)`, the array at `(b, r, w, k)`. -/
theorem toRows_apply (A : S2x256x64x64.Idx → α) (b : Fin 2) (r : Fin 256) (w : Fin 64) (k : Fin 64) :
    shapeCast S32768x64 A shapeCasts_S2x256x64x64_S32768x64 (ix2 (rowOf b r w) k) = A (ix4 b r w k) :=
  shapeCast_apply A _ (ix2 (rowOf b r w) k) (ix4 b r w k) (by
    rw [Shape.rowMajor_val_four, Shape.rowMajor_val_two]
    show ((b.val * 256 + r.val) * 64 + w.val) * 64 + k.val = (rowOf b r w).val * 64 + k.val
    rw [rowOf_val])

/-- The row matrix reshaped to four axes reads, at `(b, r, w, n)`, the matrix at `(row, n)`. -/
theorem ofRows_apply (P : S32768x128.Idx → α) (b : Fin 2) (r : Fin 256) (w : Fin 64) (n : Fin 128) :
    shapeCast S2x256x64x128 P shapeCasts_S32768x128_S2x256x64x128 (ix4 b r w n) = P (ix2 (rowOf b r w) n) :=
  shapeCast_apply P _ (ix4 b r w n) (ix2 (rowOf b r w) n) (by
    rw [Shape.rowMajor_val_four, Shape.rowMajor_val_two]
    show (rowOf b r w).val * 128 + n.val = ((b.val * 256 + r.val) * 64 + w.val) * 128 + n.val
    rw [rowOf_val])

end Layout

variable (X : FVec Ideal S2x256x64x64 .f32) (W : FVec Ideal S64x128 .f32)

/-- The host's product is the rows-by-columns product of its operands. -/
theorem prodT_eq :
    prodT X W = LibMatmulRows.mmRows (shapeCast S32768x64 (actT X) shapeCasts_S2x256x64x64_S32768x64) W := by
  unfold prodT
  exact LibMatmulRows.dotGeneralRows_eq (N := 32768) (K := 64) (M := 128)
    dot_S32768x64_S64x128_S32768x128_1_0_0_1_n_n_wf none .single _ W

/-- The result at coordinates is the specification's. -/
theorem resT_apply (b : Fin 2) (r : Fin 256) (w : Fin 64) (n : Fin 128) :
    resT X W (ix4 b r w n) = StatsNorm.outAt X W b r w n := by
  unfold resT
  rw [ofRows_apply, prodT_eq, LibMatmulRows.mmRows_apply]
  unfold StatsNorm.outAt
  refine Finset.sum_congr rfl fun k _ => ?_
  rw [toRows_apply, actT_apply]

/-- The reference's result term is the specification. -/
theorem resT_eq : resT X W = StatsNorm.out X W := by
  funext j
  obtain ⟨b, r, w, n, rfl⟩ : ∃ (b : Fin 2) (r : Fin 256) (w : Fin 64) (n : Fin 128), j = ix4 b r w n :=
    ⟨j 0, j 1, j 2, j 3, eq_ix4 j⟩
  exact resT_apply X W b r w n

end Cert.ReferenceIdeal.RefValue

end
-- ==== Proof.RefRunSpec.lean ====
/-
  The reference's run against the specification: every weakly fair execution of the reference program terminates
  with the result buffer holding the specification's function of the launch contents of its two arguments, and with
  the two arguments unchanged.  The run leaves the result at the composition of the program's stages; that composition
  is the specification, coordinate by coordinate.
-/
import proofs.«900350_g7700000000000351_dist_diff_noisepred_hshard_i_b2_h64_w64_c64_v7x_i4_f32_1_alg».proof.Proof.RefProd

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run_spec (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v19)
            = Cert.StatsNorm.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (resT_eq _ _), (h c).2⟩)
    (run_term (F := Ideal) m' g')

end Cert.ReferenceIdeal.RefValue

end
-- ==== Proof.Assemble.lean ====
/-
  The claim from the two programs' runs.

  The kernel runs on a ring of four devices, device `c` holding block `c` of the input (64 of the 256 rows of axis 1)
  and a copy of the weight; the reference runs on one device over the whole arrays.  Each of the kernel's windows is
  its whole array at block index zero, so what a device's staging buffer holds is the argument array itself.  With
  the arguments agreeing as the claim says, the four devices' blocks are the four blocks of the reference's input, and
  what device `c` computes from its block, the four exchanged statistics and the weight is block `c` of the
  specified result — which is what the reference leaves in its result buffer.  Every input entry is a real number
  under the precondition, which is what the law joining the two sides asks.

  The kernel's own runs are taken here as hypotheses: the idealized kernel's with its result named, the word-level
  kernel's with the arguments unchanged.
-/
import proofs.«900350_g7700000000000351_dist_diff_noisepred_hshard_i_b2_h64_w64_c64_v7x_i4_f32_1_alg».proof.Defs
import proofs.«900350_g7700000000000351_dist_diff_noisepred_hshard_i_b2_h64_w64_c64_v7x_i4_f32_1_alg».proof.Proof.KData
import proofs.«900350_g7700000000000351_dist_diff_noisepred_hshard_i_b2_h64_w64_c64_v7x_i4_f32_1_alg».proof.Proof.KValSpec
import proofs.«900350_g7700000000000351_dist_diff_noisepred_hshard_i_b2_h64_w64_c64_v7x_i4_f32_1_alg».proof.Proof.RefRunSpec
import proofs.«900350_g7700000000000351_dist_diff_noisepred_hshard_i_b2_h64_w64_c64_v7x_i4_f32_1_alg».proof.Proof.Gen.Kernel
import proofs.«900350_g7700000000000351_dist_diff_noisepred_hshard_i_b2_h64_w64_c64_v7x_i4_f32_1_alg».proof.Proof.Gen.KernelIdeal
import proofs.«900350_g7700000000000351_dist_diff_noisepred_hshard_i_b2_h64_w64_c64_v7x_i4_f32_1_alg».proof.Proof.Gen.ReferenceIdeal
import proofs.«900350_g7700000000000351_dist_diff_noisepred_hshard_i_b2_h64_w64_c64_v7x_i4_f32_1_alg».proof.Proof.Gen.Pre_finite_inputs_Kernel
import proofs.«900350_g7700000000000351_dist_diff_noisepred_hshard_i_b2_h64_w64_c64_v7x_i4_f32_1_alg».proof.Proof.Gen.Pre_finite_inputs_ReferenceIdeal

noncomputable section

namespace Cert.Proof.Assemble

open Idealize.ShloMosaic Idealize.ShloMosaic.TcCoe Idealize.SL.Sem

/-! ## A whole-array window's block is the array -/

section Windows
variable {F : FTy → Type} [FloatOps F]

/-- Device `c`'s input block as its staging buffer holds it is its argument array: the window is the whole array
    at block index zero. -/
theorem xstg_eq (m : (ℓ : Loc Cert.KernelIdeal.nD Cert.KernelIdeal.τ Cert.KernelIdeal.sig) → Buf (Elt F) ℓ) (c : Dev Cert.KernelIdeal.nD) :
    Cert.KernelIdeal.Proto.xstg (F := F) m c = m ((c.tc : Thread Cert.KernelIdeal.nD Cert.KernelIdeal.τ).loc Cert.KernelIdeal.main_arg0) := by
  unfold Cert.KernelIdeal.Proto.xstg
  exact Memref.read_access_unit_zero (Elt F) Cert.KernelIdeal.main_arg0 (funext fun _ => Nat.zero_mul _) _ _

/-- Likewise its copy of the weight. -/
theorem wstg_eq (m : (ℓ : Loc Cert.KernelIdeal.nD Cert.KernelIdeal.τ Cert.KernelIdeal.sig) → Buf (Elt F) ℓ) (c : Dev Cert.KernelIdeal.nD) :
    Cert.KernelIdeal.Proto.wstg (F := F) m c = m ((c.tc : Thread Cert.KernelIdeal.nD Cert.KernelIdeal.τ).loc Cert.KernelIdeal.main_arg1) := by
  unfold Cert.KernelIdeal.Proto.wstg
  exact Memref.read_access_unit_zero (Elt F) Cert.KernelIdeal.main_arg1 (funext fun _ => Nat.zero_mul _) _ _

end Windows

/-! ## The runs taken as hypotheses -/

/-- The idealized kernel's run with its result named: every weakly fair execution terminates with each device's
    result buffer at the kernel's function of the launch memory, the arguments unchanged. -/
abbrev KRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1) = Cert.KernelIdeal.Proto.outAt m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

/-- The word-level kernel's run: every weakly fair execution terminates with the arguments unchanged. -/
abbrev KRunBits : Prop :=
  ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

/-! ## The kernel's result is its block of the specification -/

/-- With the arguments agreeing and every input entry real, what device `c` computes is block `c` of the specified
    result over the reference's arrays. -/
theorem outAt_eq_block (m : (ℓ : Loc Cert.KernelIdeal.nD Cert.KernelIdeal.τ Cert.KernelIdeal.sig) → Buf (Elt Ideal) ℓ)
    (X : Cert.StatsNorm.SX.Idx → EReal) (W : Cert.StatsNorm.SW.Idx → EReal)
    (hx : ∀ c : Dev Cert.KernelIdeal.nD, m ((c.tc : Thread Cert.KernelIdeal.nD Cert.KernelIdeal.τ).loc Cert.KernelIdeal.main_arg0) = Cert.KernelIdeal.KValue.blk X c)
    (hw : ∀ c : Dev Cert.KernelIdeal.nD, m ((c.tc : Thread Cert.KernelIdeal.nD Cert.KernelIdeal.τ).loc Cert.KernelIdeal.main_arg1) = W)
    (hX : ∀ i, ∃ r : ℝ, X i = (r : EReal)) (hW : ∀ i, ∃ r : ℝ, W i = (r : EReal)) (c : Dev Cert.KernelIdeal.nD) :
    Cert.KernelIdeal.Proto.outAt (F := Ideal) m c
      = Layout.block ⟨4, ![2, 64, 64, 128]⟩ ⟨4, ![2, 256, 64, 128]⟩ 1 4 c (Cert.StatsNorm.out X W) := by
  have ex : ∀ d : Dev Cert.KernelIdeal.nD, Cert.KernelIdeal.Proto.xstg (F := Ideal) m d = Cert.KernelIdeal.KValue.blk X d :=
    fun d => (xstg_eq m d).trans (hx d)
  have ew : Cert.KernelIdeal.Proto.wstg (F := Ideal) m c = W := (wstg_eq m c).trans (hw c)
  unfold Cert.KernelIdeal.Proto.outAt Cert.KernelIdeal.Proto.st
  rw [ex c, ex (Cert.StatsNorm.sh c 0), ex (Cert.StatsNorm.sh c 1), ex (Cert.StatsNorm.sh c 2), ex (Cert.StatsNorm.sh c 3), ew,
    Cert.KernelIdeal.Proto.sh_zero c]
  exact Cert.KernelIdeal.KValue.pay_eq_block X W hX hW c

/-! ## The five conjuncts -/

theorem frame_Kernel (hK' : KRunBits) : Cert.frame_Kernel := fun m g _ => hK' m g

theorem frame_KernelIdeal (hK : KRun) : Cert.frame_KernelIdeal :=
  fun m g _ => (θ_run (Cert.KernelIdeal.defs (F := Ideal)) _ _).mono (fun _ h c => (h c).2) (hK m g)

theorem frame_ReferenceIdeal : Cert.frame_ReferenceIdeal :=
  fun m g _ => (θ_run (Cert.ReferenceIdeal.defs (F := Ideal)) _ _).mono (fun _ h c => (h c).2) (Cert.ReferenceIdeal.RefValue.run_spec m g)

theorem preserves : Cert.preserves_Kernel_KernelIdeal := trivial

theorem algebraic (hK : KRun) : Cert.algebraic_KernelIdeal_ReferenceIdeal := by
  intro m g m' g' hpre hagree
  have hfin := fun c : Dev Cert.KernelIdeal.nD => Cert.KernelIdeal.KValue.finite_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (hpre c)
  have hX : ∀ i, ∃ r : ℝ, (m' (((0 : Dev Cert.ReferenceIdeal.nD).tc : Thread Cert.ReferenceIdeal.nD Cert.ReferenceIdeal.τ).loc Cert.ReferenceIdeal.main_arg0) : Cert.StatsNorm.SX.Idx → EReal) i = (r : EReal) :=
    Cert.KernelIdeal.KValue.whole_finite _ fun d i => by
      have e := congrFun (hagree d).1 i
      obtain ⟨r, hr⟩ := (hfin d).1 i
      exact ⟨r, e.symm.trans hr⟩
  have hW : ∀ i, ∃ r : ℝ, (m' (((0 : Dev Cert.ReferenceIdeal.nD).tc : Thread Cert.ReferenceIdeal.nD Cert.ReferenceIdeal.τ).loc Cert.ReferenceIdeal.main_arg1) : Cert.StatsNorm.SW.Idx → EReal) i = (r : EReal) := fun i => by
    have e := congrFun (hagree 0).2 i
    obtain ⟨r, hr⟩ := (hfin 0).2 i
    exact ⟨r, e.symm.trans hr⟩
  refine ⟨Cert.StatsNorm.out (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun _ h c => ⟨(h c).1.trans (outAt_eq_block m _ _ (fun d => (hagree d).1) (fun d => (hagree d).2) hX hW c), (h c).2⟩)
      (hK m g)
  · exact (θ_run (Cert.ReferenceIdeal.defs (F := Ideal)) _ _).mono (fun _ h => h 0) (Cert.ReferenceIdeal.RefValue.run_spec m' g')

/-- The claim, from the kernel's two runs. -/
theorem claim_of (hK : KRun) (hK' : KRunBits) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel hK', frame_KernelIdeal hK, frame_ReferenceIdeal, preserves, algebraic hK⟩

end Cert.Proof.Assemble

end
-- ==== Proof.KParts.lean ====
/-
  The exchange buffer by parts: splitting and rejoining its ownership, and what its loads, the local store and the
  landings of the peers' copies read and write, against the one function `G c`.
-/
import proofs.«900350_g7700000000000351_dist_diff_noisepred_hshard_i_b2_h64_w64_c64_v7x_i4_f32_1_alg».proof.Proof.KData

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

/-! ## Ownership by parts -/

omit [FloatOps F] in
/-- Ownership of a part only depends on the contents there. -/
theorem partPts_congr (c : Dev nD) (s : ℕ) (q : PosShare TreeShare) {f g : Buf (Elt F) ((c : Thread nD τ).loc cc0_scratch0)}
    (h : ∀ i ∈ pset s, f i = g i) : partPts (F := F) c s q f = partPts c s q g := by
  unfold partPts; exact BI.Region.is_congr h

omit [FloatOps F] in
/-- The whole buffer is its four parts. -/
theorem scr_split (c : Dev nD) (q : PosShare TreeShare) (f : Buf (Elt F) ((c : Thread nD τ).loc cc0_scratch0)) :
    ((((c : Thread nD τ).loc cc0_scratch0) ↦{q} f : sProp 𝕄)) ⊣⊢ iprop(partPts c 0 q f ∗ partPts c 1 q f ∗ partPts c 2 q f ∗ partPts c 3 q f) := by
  unfold partPts
  have h23 : Disjoint (pset 2) (pset 3) := pset_disjoint (by decide)
  have h1 : Disjoint (pset 1) (pset 2 ∪ pset 3) := Finset.disjoint_union_right.mpr ⟨pset_disjoint (by decide), pset_disjoint (by decide)⟩
  have h0 : Disjoint (pset 0) (pset 1 ∪ (pset 2 ∪ pset 3)) :=
    Finset.disjoint_union_right.mpr ⟨pset_disjoint (by decide), Finset.disjoint_union_right.mpr ⟨pset_disjoint (by decide), pset_disjoint (by decide)⟩⟩
  have e0 := pointsTo_union (Val := Elt F) (Ix := Unit) (Name := ℕ) (U := UU) (Lvl := ℕ) (ℓ := (c : Thread nD τ).loc cc0_scratch0) (q := q) (f := f) h0
  have e1 := pointsTo_union (Val := Elt F) (Ix := Unit) (Name := ℕ) (U := UU) (Lvl := ℕ) (ℓ := (c : Thread nD τ).loc cc0_scratch0) (q := q) (f := f) h1
  have e2 := pointsTo_union (Val := Elt F) (Ix := Unit) (Name := ℕ) (U := UU) (Lvl := ℕ) (ℓ := (c : Thread nD τ).loc cc0_scratch0) (q := q) (f := f) h23
  rw [pset_cover] at e0
  constructor
  · refine e0.1.trans (sep_mono_right (e1.1.trans (sep_mono_right e2.1)))
  · exact (sep_mono_right ((sep_mono_right e2.2).trans e1.2)).trans e0.2

/-! ## Reads and writes -/

omit [FloatOps F] in
theorem hz4 : (![0, 0, 0, 0] : Fin 4 → Nat) = fun _ => 0 := funext fun a => by fin_cases a <;> rfl
omit [FloatOps F] in
theorem hz2 : (![0, 0] : Fin 2 → Nat) = fun _ => 0 := funext fun a => by fin_cases a <;> rfl

abbrev rx : Rect S2x64x64x64 := Rect.unit (s := S2x64x64x64) ![0, 0, 0, 0] S2x64x64x64.size inb_S2x64x64x64_S2x64x64x64_0_0_0_0
abbrev rw_ : Rect S64x128 := Rect.unit (s := S64x128) ![0, 0] S64x128.size inb_S64x128_S64x128_0_0
abbrev ro : Rect S2x64x64x128 := Rect.unit (s := S2x64x64x128) ![0, 0, 0, 0] S2x64x64x128.size inb_S2x64x64x128_S2x64x64x128_0_0_0_0

omit [FloatOps F] in
theorem read_x (f : (cc0_stg0_0 : Ref sig .tc).ty.Contents (Elt F)) : (xM : Memref sig .tc .vmem S2x64x64x64 .f32).view.readAt (Elt F) rx.toLoadRect f = f :=
  Memref.readAt_unit_zero (Elt F) cc0_stg0_0 hz4 _ f
omit [FloatOps F] in
theorem read_w (f : (cc0_stg1_0 : Ref sig .tc).ty.Contents (Elt F)) : (wM : Memref sig .tc .vmem S64x128 .f32).view.readAt (Elt F) rw_.toLoadRect f = f :=
  Memref.readAt_unit_zero (Elt F) cc0_stg1_0 hz2 _ f
omit [FloatOps F] in
theorem write_out (f w : (cc0_stg2_0 : Ref sig .tc).ty.Contents (Elt F)) :
    ((oM : Memref sig .tc .vmem S2x64x64x128 .f32).access ro : View sig .tc _ _ _).write (Elt F) f w Finset.univ = w :=
  Memref.write_access_unit_zero_univ (Elt F) cc0_stg2_0 hz4 _ f w

/-- A load of part `s` of a buffer holding `G c` reads the statistics of device `c + s`. -/
theorem read_part_aux (c : Dev nD) (s : ℕ) (hs : s < 4) (inb) :
    (scrM : Memref sig .tc .vmem S4x4x64 .f32).view.readAt (Elt F) (Rect.unit (s := S4x4x64) ![s, 0, 0] S1x4x64.size inb).toLoadRect (G m c) = st m c s := by
  funext i
  rw [View.readAt_apply, View.read_apply]
  show G m c (scrM.view.emb ((Rect.unit (s := S4x4x64) ![s, 0, 0] S1x4x64.size inb).idx i)) = _
  have key : ∀ (a : ℕ) (j : S1x4x64.Idx), a = s → j = i →
      k0_pay2 (F := F) (xstg m (sh c a)) j = k0_pay2 (F := F) (xstg m (sh c s)) i := by
    intro a j ha hj; subst ha hj; rfl
  unfold G st
  refine key _ _ ?_ ?_
  · show s + 1 * (i 0).val = s
    have := (i 0).isLt; change (i 0).val < 1 at this; omega
  · funext a
    match a with
    | ⟨0, _⟩ => apply Fin.ext; show 0 = (i 0).val; have := (i 0).isLt; change (i 0).val < 1 at this; omega
    | ⟨1, _⟩ => apply Fin.ext; show 0 + 1 * (i 1).val = (i 1).val; omega
    | ⟨2, _⟩ => apply Fin.ext; show 0 + 1 * (i 2).val = (i 2).val; omega

/-- `G c` under an index of part `s`. -/
theorem G_emb (c : Dev nD) (s : ℕ) (inb) (i : S1x4x64.Idx) :
    G m c ((Rect.unit (s := S4x4x64) ![s, 0, 0] S1x4x64.size inb).emb i) = k0_pay2 (F := F) (xstg m (sh c s)) i := by
  have key : ∀ (a : ℕ) (j : S1x4x64.Idx), a = s → j = i →
      k0_pay2 (F := F) (xstg m (sh c a)) j = k0_pay2 (F := F) (xstg m (sh c s)) i := by
    intro a j ha hj; subst ha hj; rfl
  unfold G
  refine key _ _ ?_ ?_
  · show s + 1 * (i 0).val = s
    have := (i 0).isLt; change (i 0).val < 1 at this; omega
  · funext a
    match a with
    | ⟨0, _⟩ => apply Fin.ext; show 0 = (i 0).val; have := (i 0).isLt; change (i 0).val < 1 at this; omega
    | ⟨1, _⟩ => apply Fin.ext; show 0 + 1 * (i 1).val = (i 1).val; omega
    | ⟨2, _⟩ => apply Fin.ext; show 0 + 1 * (i 2).val = (i 2).val; omega

/-- Entry `(a, b)` of a part seen as a `[4, 64]` array is entry `(0, a, b)` of the part. -/
def p3 (y : S4x64.Idx) : S1x4x64.Idx :=
  ValueIdx.ix3 (0 : Fin 1) (⟨(y 0).val, (y 0).isLt⟩ : Fin 4) (⟨(y 1).val, (y 1).isLt⟩ : Fin 64)

omit [FloatOps F] in
theorem reshape_idx (h : S4x64.numel = S1x4x64.numel) (y : S4x64.Idx) :
    Shape.reshapeEquiv h y = p3 y := by
  apply S1x4x64.rowMajor.injective
  apply Fin.ext
  rw [Shape.rowMajor_reshapeEquiv, Shape.rowMajor_val_two, Shape.rowMajor_val_three]
  show (y 0).val * 64 + (y 1).val = ((0 * 4) + (y 0).val) * 64 + (y 1).val
  omega

/-- `G c` under an index of part `s` seen as a `[4, 64]` array. -/
theorem G_part (c : Dev nD) (s : ℕ) (inb) (hr) (y : S4x64.Idx) :
    G m c ((((scrM : Memref sig .tc .vmem S4x4x64 .f32).slice (Rect.unit (s := S4x4x64) ![s, 0, 0] S1x4x64.size inb) hr).squeeze S4x64 squeezes_S1x4x64_S4x64).view.emb y)
      = k0_pay2 (F := F) (xstg m (sh c s)) (p3 y) := by
  show G m c ((Rect.unit (s := S4x4x64) ![s, 0, 0] S1x4x64.size inb).emb (Shape.reshapeEquiv _ y)) = _
  rw [reshape_idx, G_emb]

theorem read_part0 (c : Dev nD) : (scrM : Memref sig .tc .vmem S4x4x64 .f32).view.readAt (Elt F) rc0.toLoadRect (G m c) = st m c 0 := read_part_aux m c 0 (by decide) _
theorem read_part1 (c : Dev nD) : (scrM : Memref sig .tc .vmem S4x4x64 .f32).view.readAt (Elt F) rc1.toLoadRect (G m c) = st m c 1 := read_part_aux m c 1 (by decide) _
theorem read_part2 (c : Dev nD) : (scrM : Memref sig .tc .vmem S4x4x64 .f32).view.readAt (Elt F) rc2.toLoadRect (G m c) = st m c 2 := read_part_aux m c 2 (by decide) _
theorem read_part3 (c : Dev nD) : (scrM : Memref sig .tc .vmem S4x4x64 .f32).view.readAt (Elt F) rc3.toLoadRect (G m c) = st m c 3 := read_part_aux m c 3 (by decide) _

/-- The local store of a device's own statistics into part 0 makes part 0 what `G c` says. -/
theorem store_part0 (c : Dev nD) (f : Buf (Elt F) ((c : Thread nD τ).loc cc0_scratch0)) (x : (cc0_stg0_0 : Ref sig .tc).ty.Contents (Elt F)) (hx : x = xstg m c) :
    ∀ i ∈ pset 0, ((scrM : Memref sig .tc .vmem S4x4x64 .f32).access rc0 : View sig .tc _ _ _).write (Elt F) f (k0_pay2 (F := F) x) Finset.univ i = G m c i := by
  intro i hi
  subst hx
  have hmem : i ∈ ((scrM : Memref sig .tc .vmem S4x4x64 .f32).access rc0 : View sig .tc _ _ _).set := by
    rw [View.set_slice_whole, rc0_set]; exact hi
  obtain ⟨y, -, rfl⟩ := Finset.mem_map.mp hmem
  rw [View.write_emb_of_mem _ _ (Finset.mem_univ y)]
  show k0_pay2 (F := F) (xstg m c) y = G m c (rc0.emb y)
  rw [G_emb m c 0 _ y, sh_zero]

/-- A copy of device `c`'s part 0 landing in part `s` of the device `e` with `e + s = c` makes that part what `G e` says. -/
theorem land_part_aux (c e : Dev nD) (s : ℕ) (hes : sh e s = c) (inb) (hr) (fd : Buf (Elt F) ((e : Thread nD τ).loc cc0_scratch0)) :
    ∀ i ∈ pset s, (((scrM : Memref sig .tc .vmem S4x4x64 .f32).slice (Rect.unit (s := S4x4x64) ![s, 0, 0] S1x4x64.size inb) hr).squeeze S4x64 squeezes_S1x4x64_S4x64).view.write (Elt F) fd
        ((part0M : Memref sig .tc .vmem S4x64 .f32).view.read (Elt F) (G m c)) Finset.univ i = G m e i := by
  intro i hi
  have hmem : i ∈ (((scrM : Memref sig .tc .vmem S4x4x64 .f32).slice (Rect.unit (s := S4x4x64) ![s, 0, 0] S1x4x64.size inb) hr).squeeze S4x64 squeezes_S1x4x64_S4x64).view.set := by
    have hs4 : s < 4 := by rw [mem_pset] at hi; have := (i 0).isLt; change (i 0).val < 4 at this; omega
    have hset : (((scrM : Memref sig .tc .vmem S4x4x64 .f32).slice (Rect.unit (s := S4x4x64) ![s, 0, 0] S1x4x64.size inb) hr).squeeze S4x64 squeezes_S1x4x64_S4x64).view.set = pset s :=
      (View.set_reshape _ _).trans ((View.set_slice_whole cc0_scratch0 _).trans (rc_set_aux s hs4 inb))
    rw [hset]; exact hi
  obtain ⟨y, -, rfl⟩ := Finset.mem_map.mp hmem
  rw [View.write_emb_of_mem _ _ (Finset.mem_univ y), View.read_apply]
  show G m c ((part0M : Memref sig .tc .vmem S4x64 .f32).view.emb y) = G m e _
  rw [G_part m c 0, G_part m e s, hes, sh_zero]

end Cert.KernelIdeal.Proto

end
-- ==== Proof.KSend.lean ====
/-
  The three copies of a device's statistics to its peers, each as one rule over the schedule's cells.
-/
import proofs.«900350_g7700000000000351_dist_diff_noisepred_hshard_i_b2_h64_w64_c64_v7x_i4_f32_1_alg».proof.Proof.KParts

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

variable (K : Dev nD × Fin 7 → ℕ)

omit [FloatOps F] in
theorem part0_pts (c : Dev nD) (q : PosShare TreeShare) (f : Buf (Elt F) ((c : Thread nD τ).loc cc0_scratch0)) :
    ((part0M : Memref sig .tc .vmem S4x64 .f32).view.loc (c : Thread nD τ) ↦[(part0M : Memref sig .tc .vmem S4x64 .f32).view.set]{q} f : sProp 𝕄) = partPts c 0 q f := by
  unfold partPts; rw [part0_set]
omit [FloatOps F] in
theorem part1_pts (c : Dev nD) (q : PosShare TreeShare) (f : Buf (Elt F) ((c : Thread nD τ).loc cc0_scratch0)) :
    ((part1M : Memref sig .tc .vmem S4x64 .f32).view.loc (c : Thread nD τ) ↦[(part1M : Memref sig .tc .vmem S4x64 .f32).view.set]{q} f : sProp 𝕄) = partPts c 1 q f := by
  unfold partPts; rw [part1_set]
omit [FloatOps F] in
theorem part2_pts (c : Dev nD) (q : PosShare TreeShare) (f : Buf (Elt F) ((c : Thread nD τ).loc cc0_scratch0)) :
    ((part2M : Memref sig .tc .vmem S4x64 .f32).view.loc (c : Thread nD τ) ↦[(part2M : Memref sig .tc .vmem S4x64 .f32).view.set]{q} f : sProp 𝕄) = partPts c 2 q f := by
  unfold partPts; rw [part2_set]
omit [FloatOps F] in
theorem part3_pts (c : Dev nD) (q : PosShare TreeShare) (f : Buf (Elt F) ((c : Thread nD τ).loc cc0_scratch0)) :
    ((part3M : Memref sig .tc .vmem S4x64 .f32).view.loc (c : Thread nD τ) ↦[(part3M : Memref sig .tc .vmem S4x64 .f32).view.set]{q} f : sProp 𝕄) = partPts c 3 q f := by
  unfold partPts; rw [part3_set]

/-- The copy to the device `c + 2`: part 0 of `c` lands in part 2 there, paying that device's arrival cell 1 and `c`'s
    departure cell 1. -/
theorem wp_send_A (c n : Dev nD) (hn : n = sh c 2)
    {hsc : (part2M : Memref sig (Dev.tc n : Thread nD τ).2.kind .vmem S4x64 .f32).view.ref.isScScratch = false}
    {hsrc : (part0M : Memref sig .tc .vmem S4x64 .f32).view.WordExact} {hdst : (part2M : Memref sig .tc .vmem S4x64 .f32).view.WordExact}
    {hsem : DmaTarget.Typed .vmem (.dma rcv1) (.remote (Dev.tc n : Thread nD τ) (part2M : Memref sig .tc .vmem S4x64 .f32) (.dma snd1) hsc)}
    {α : Type} {Q : α → sProp 𝕄} {k : PUnit → Prog (TpuEff nD τ sig (Elt F) Λ₀ .tc) α}
    (fn : Buf (Elt F) ((sh c 2 : Thread nD τ).loc cc0_scratch0)) (W : Waits sig Unit) :
    iprop(cellInv ER (Rd m) (K (c, 2)) (sndCell c 1) ∗ cellInv ER (Rd m) (K (sh c 2, 5)) (rcvCell (sh c 2) 1)
        ∗ partPts c 0 (shr 1) (G m c) ∗ partPts (sh c 2) 2 fullShare fn
        ∗ owes (c : Thread nD τ) (Oa c) W
        ∗ dutyTok ER (sndCell c 1) 0 (0 : Fin 3) ∗ reached ER (sndCell c 1) 0
        ∗ dutyTok ER (rcvCell (sh c 2) 1) 0 (0 : Fin 3) ∗ reached ER (rcvCell (sh c 2) 1) 0)
      ⊢ iprop(((cred (tallyAt (sndCell c 1) () N) ∗ owes (c : Thread nD τ) (Ob c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma part0M (.remote (Dev.tc n : Thread nD τ) part2M (.dma snd1) hsc) (.dma rcv1) hsrc hdst hsem) k) Q) := by
  subst hn
  rw [← part0_pts, ← part2_pts]
  exact Rounds.wp_send_pointsTo 𝒱₀ ER (Rd m) (c : Thread nD τ) none (κ₁ := K (c, 2)) (κ₂ := K (sh c 2, 5))
    (c' := (sh c 2 : Thread nD τ)) (src := part0M) (dst := part2M) (sS := .dma snd1) (sem := .dma rcv1)
    (r₁ := 0) (r₂ := 0) (d₁ := (0 : Fin 3)) (d₂ := (0 : Fin 3)) (fd := fn) (q := shr 1) (fs := G m c)
    (show (0 : Fin 3) ∈ (Rd m).duties (sndCell c 1) 0 by rw [duties_snd]; exact Finset.mem_singleton_self _)
    (show (0 : Fin 3) ∈ (Rd m).duties (rcvCell (sh c 2) 1) 0 by rw [duties_rcv]; exact Finset.mem_singleton_self _)
    () () N rfl (amount_snd m c 1 0) (amount_rcv m (sh c 2) 1 0) (Ob c) rfl (W := W)
    (show _ ⊢ (Rd m).payload (sndCell c 1) 0 0 by rw [payload_snd]; unfold sndPay; rw [part0_pts])
    (show _ ⊢ (Rd m).payload (rcvCell (sh c 2) 1) 0 0 by
      rw [payload_rcv]; unfold rcvPay; rw [part2_pts]
      exact Entails.of_eq (partPts_congr _ _ _ (land_part_aux m c (sh c 2) 2 (sh_sh c 2 2 (by decide)) _ _ fn)))

/-- The copy to the device `c + 1`: part 0 of `c` lands in part 3 there, paying that device's arrival cell 2 and `c`'s
    departure cell 0. -/
theorem wp_send_B (c n : Dev nD) (hn : n = sh c 1)
    {hsc : (part3M : Memref sig (Dev.tc n : Thread nD τ).2.kind .vmem S4x64 .f32).view.ref.isScScratch = false}
    {hsrc : (part0M : Memref sig .tc .vmem S4x64 .f32).view.WordExact} {hdst : (part3M : Memref sig .tc .vmem S4x64 .f32).view.WordExact}
    {hsem : DmaTarget.Typed .vmem (.dma rcv2) (.remote (Dev.tc n : Thread nD τ) (part3M : Memref sig .tc .vmem S4x64 .f32) (.dma snd0) hsc)}
    {α : Type} {Q : α → sProp 𝕄} {k : PUnit → Prog (TpuEff nD τ sig (Elt F) Λ₀ .tc) α}
    (fn : Buf (Elt F) ((sh c 1 : Thread nD τ).loc cc0_scratch0)) (W : Waits sig Unit) :
    iprop(cellInv ER (Rd m) (K (c, 1)) (sndCell c 0) ∗ cellInv ER (Rd m) (K (sh c 1, 6)) (rcvCell (sh c 1) 2)
        ∗ partPts c 0 (shr 0) (G m c) ∗ partPts (sh c 1) 3 fullShare fn
        ∗ owes (c : Thread nD τ) (Ob c) W
        ∗ dutyTok ER (sndCell c 0) 0 (0 : Fin 3) ∗ reached ER (sndCell c 0) 0
        ∗ dutyTok ER (rcvCell (sh c 1) 2) 0 (0 : Fin 3) ∗ reached ER (rcvCell (sh c 1) 2) 0)
      ⊢ iprop(((cred (tallyAt (sndCell c 0) () N) ∗ owes (c : Thread nD τ) (Oc c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma part0M (.remote (Dev.tc n : Thread nD τ) part3M (.dma snd0) hsc) (.dma rcv2) hsrc hdst hsem) k) Q) := by
  subst hn
  rw [← part0_pts, ← part3_pts]
  exact Rounds.wp_send_pointsTo 𝒱₀ ER (Rd m) (c : Thread nD τ) none (κ₁ := K (c, 1)) (κ₂ := K (sh c 1, 6))
    (c' := (sh c 1 : Thread nD τ)) (src := part0M) (dst := part3M) (sS := .dma snd0) (sem := .dma rcv2)
    (r₁ := 0) (r₂ := 0) (d₁ := (0 : Fin 3)) (d₂ := (0 : Fin 3)) (fd := fn) (q := shr 0) (fs := G m c)
    (show (0 : Fin 3) ∈ (Rd m).duties (sndCell c 0) 0 by rw [duties_snd]; exact Finset.mem_singleton_self _)
    (show (0 : Fin 3) ∈ (Rd m).duties (rcvCell (sh c 1) 2) 0 by rw [duties_rcv]; exact Finset.mem_singleton_self _)
    () () N rfl (amount_snd m c 0 0) (amount_rcv m (sh c 1) 2 0) (Oc c) rfl (W := W)
    (show _ ⊢ (Rd m).payload (sndCell c 0) 0 0 by rw [payload_snd]; unfold sndPay; rw [part0_pts])
    (show _ ⊢ (Rd m).payload (rcvCell (sh c 1) 2) 0 0 by
      rw [payload_rcv]; unfold rcvPay; rw [part3_pts]
      exact Entails.of_eq (partPts_congr _ _ _ (land_part_aux m c (sh c 1) 3 (sh_sh c 1 3 (by decide)) _ _ fn)))

/-- The copy to the device `c + 3`: part 0 of `c` lands in part 1 there, paying that device's arrival cell 0 and `c`'s
    departure cell 2. -/
theorem wp_send_C (c n : Dev nD) (hn : n = sh c 3)
    {hsc : (part1M : Memref sig (Dev.tc n : Thread nD τ).2.kind .vmem S4x64 .f32).view.ref.isScScratch = false}
    {hsrc : (part0M : Memref sig .tc .vmem S4x64 .f32).view.WordExact} {hdst : (part1M : Memref sig .tc .vmem S4x64 .f32).view.WordExact}
    {hsem : DmaTarget.Typed .vmem (.dma rcv0) (.remote (Dev.tc n : Thread nD τ) (part1M : Memref sig .tc .vmem S4x64 .f32) (.dma snd2) hsc)}
    {α : Type} {Q : α → sProp 𝕄} {k : PUnit → Prog (TpuEff nD τ sig (Elt F) Λ₀ .tc) α}
    (fn : Buf (Elt F) ((sh c 3 : Thread nD τ).loc cc0_scratch0)) (W : Waits sig Unit) :
    iprop(cellInv ER (Rd m) (K (c, 3)) (sndCell c 2) ∗ cellInv ER (Rd m) (K (sh c 3, 4)) (rcvCell (sh c 3) 0)
        ∗ partPts c 0 (shr 2) (G m c) ∗ partPts (sh c 3) 1 fullShare fn
        ∗ owes (c : Thread nD τ) (Oc c) W
        ∗ dutyTok ER (sndCell c 2) 0 (0 : Fin 3) ∗ reached ER (sndCell c 2) 0
        ∗ dutyTok ER (rcvCell (sh c 3) 0) 0 (0 : Fin 3) ∗ reached ER (rcvCell (sh c 3) 0) 0)
      ⊢ iprop(((cred (tallyAt (sndCell c 2) () N) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma part0M (.remote (Dev.tc n : Thread nD τ) part1M (.dma snd2) hsc) (.dma rcv0) hsrc hdst hsem) k) Q) := by
  subst hn
  rw [← part0_pts, ← part1_pts]
  exact Rounds.wp_send_pointsTo 𝒱₀ ER (Rd m) (c : Thread nD τ) none (κ₁ := K (c, 3)) (κ₂ := K (sh c 3, 4))
    (c' := (sh c 3 : Thread nD τ)) (src := part0M) (dst := part1M) (sS := .dma snd2) (sem := .dma rcv0)
    (r₁ := 0) (r₂ := 0) (d₁ := (0 : Fin 3)) (d₂ := (0 : Fin 3)) (fd := fn) (q := shr 2) (fs := G m c)
    (show (0 : Fin 3) ∈ (Rd m).duties (sndCell c 2) 0 by rw [duties_snd]; exact Finset.mem_singleton_self _)
    (show (0 : Fin 3) ∈ (Rd m).duties (rcvCell (sh c 3) 0) 0 by rw [duties_rcv]; exact Finset.mem_singleton_self _)
    () () N rfl (amount_snd m c 2 0) (amount_rcv m (sh c 3) 0 0) (0) (zero_add _).symm (W := W)
    (show _ ⊢ (Rd m).payload (sndCell c 2) 0 0 by rw [payload_snd]; unfold sndPay; rw [part0_pts])
    (show _ ⊢ (Rd m).payload (rcvCell (sh c 3) 0) 0 0 by
      rw [payload_rcv]; unfold rcvPay; rw [part1_pts]
      exact Entails.of_eq (partPts_congr _ _ _ (land_part_aux m c (sh c 3) 1 (sh_sh c 3 1 (by decide)) _ _ fn)))

/-! ## The loads and the store of the exchange buffer's parts touch their part only -/

omit [FloatOps F] in
theorem scr_setOn_aux (s : ℕ) (hs : s < 4) (inb) :
    (scrM : Memref sig .tc .vmem S4x4x64 .f32).view.setOn (Rect.unit (s := S4x4x64) ![s, 0, 0] S1x4x64.size inb).toLoadRect.set ⊆ pset s := by
  show Finset.map (Function.Embedding.refl _) (Rect.unit (s := S4x4x64) ![s, 0, 0] S1x4x64.size inb).set ⊆ pset s
  rw [Finset.map_refl, rc_set_aux s hs inb]
omit [FloatOps F] in
theorem scr_setOn0 : (scrM : Memref sig .tc .vmem S4x4x64 .f32).view.setOn rc0.toLoadRect.set ⊆ pset 0 := scr_setOn_aux 0 (by decide) _
omit [FloatOps F] in
theorem scr_setOn1 : (scrM : Memref sig .tc .vmem S4x4x64 .f32).view.setOn rc1.toLoadRect.set ⊆ pset 1 := scr_setOn_aux 1 (by decide) _
omit [FloatOps F] in
theorem scr_setOn2 : (scrM : Memref sig .tc .vmem S4x4x64 .f32).view.setOn rc2.toLoadRect.set ⊆ pset 2 := scr_setOn_aux 2 (by decide) _
omit [FloatOps F] in
theorem scr_setOn3 : (scrM : Memref sig .tc .vmem S4x4x64 .f32).view.setOn rc3.toLoadRect.set ⊆ pset 3 := scr_setOn_aux 3 (by decide) _
omit [FloatOps F] in
theorem scr_store0 : ((scrM : Memref sig .tc .vmem S4x4x64 .f32).access rc0 : View sig .tc _ _ _).setOn Finset.univ ⊆ pset 0 := by
  rw [View.setOn_univ, View.set_slice_whole, rc0_set]

omit [FloatOps F] in
theorem credit_part0 : (part0M : Memref sig .tc .vmem S4x64 .f32).view.dmaCredit = N := rfl
omit [FloatOps F] in
theorem credit_part2 : (part2M : Memref sig .tc .vmem S4x64 .f32).view.dmaCredit = N := rfl
omit [FloatOps F] in
theorem credit_part3 : (part3M : Memref sig .tc .vmem S4x64 .f32).view.dmaCredit = N := rfl

/-- What each signal hands its peer: the signaller's own part of that number, and that its arrival cell is at its round. -/
theorem barPay_sig1 (c : Dev nD) : barPay (F := F) (sh c 1) 0 = iprop((∃ f, partPts c 1 fullShare f) ∗ reached ER (rcvCell c 0) 0) := by
  unfold barPay; rw [show sh (sh c 1) (3 - (0 : Fin 3).val) = c from sh_sh c 1 3 (by decide)]; rfl
theorem barPay_sig2 (c : Dev nD) : barPay (F := F) (sh c 2) 1 = iprop((∃ f, partPts c 2 fullShare f) ∗ reached ER (rcvCell c 1) 0) := by
  unfold barPay; rw [show sh (sh c 2) (3 - (1 : Fin 3).val) = c from sh_sh c 2 2 (by decide)]; rfl
theorem barPay_sig3 (c : Dev nD) : barPay (F := F) (sh c 3) 2 = iprop((∃ f, partPts c 3 fullShare f) ∗ reached ER (rcvCell c 2) 0) := by
  unfold barPay; rw [show sh (sh c 3) (3 - (2 : Fin 3).val) = c from sh_sh c 3 1 (by decide)]; rfl

end Cert.KernelIdeal.Proto

end
-- ==== Proof.KBodyDefs.lean ====
/-
  The body's pre- and postcondition at the one grid point, over the exchange's ghost state at names `K`.
-/
import proofs.«900350_g7700000000000351_dist_diff_noisepred_hshard_i_b2_h64_w64_c64_v7x_i4_f32_1_alg».proof.Proof.KData

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

variable (K : Dev nD × Fin 7 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 3)
      ∗ cred (tallyAt (rcvCell c 0) () N) ∗ cred (tallyAt (rcvCell c 1) () N) ∗ cred (tallyAt (rcvCell c 2) () N) ∗ levAts L lv
      ∗ ∃ f, ((c : Thread nD τ).loc cc0_scratch0) ↦{fullShare} f)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ m c ∗ (dats m 0 c).owesAt () t₀.succ ∗ stg c cc0_stg0_0 (xstg m c) ∗ stg c cc0_stg1_0 (wstg m c) ∗ stg c cc0_stg2_0 (outAt m c))

/-- The body, run from `bodyPre` at any names, ends in `bodyPost`. -/
def SoundBody : Prop :=
  ∀ (K : Dev nD × Fin 7 → ℕ) (c : Dev nD) (Kt : PUnit → sProp 𝕄),
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) cc0_scratch1 cc0_scratch2) Kt

end Cert.KernelIdeal.Proto

end
-- ==== Proof.KBody.lean ====
/-
  The body of one device, stepped rule by rule from its precondition to its postcondition: the three signals, the
  statistics stored in part 0, the entry wait, the three copies, the six waits, and the result computed from the four parts.
-/
import proofs.«900350_g7700000000000351_dist_diff_noisepred_hshard_i_b2_h64_w64_c64_v7x_i4_f32_1_alg».proof.Proof.KSend
import proofs.«900350_g7700000000000351_dist_diff_noisepred_hshard_i_b2_h64_w64_c64_v7x_i4_f32_1_alg».proof.Proof.KBodyDefs

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

/-- After the local store, part 0 is owned holding what `G c` says. -/
theorem store_pts (c : Dev nD) (f : Buf (Elt F) ((c : Thread nD τ).loc cc0_scratch0)) :
    ((((scrM : Memref sig .tc .vmem S4x4x64 .f32).access rc0 : View sig .tc _ _ _).loc (c : Thread nD τ))
        ↦[pset 0]{fullShare} (((scrM : Memref sig .tc .vmem S4x4x64 .f32).access rc0 : View sig .tc _ _ _).write (Elt F) f (k0_pay2 (F := F) (xstg m c)) Finset.univ) : sProp 𝕄)
      = partPts c 0 fullShare (G m c) :=
  partPts_congr c 0 fullShare (store_part0 m c f (xstg m c) rfl)

omit [FloatOps F] in
/-- Part 0 at the full share is its three shares, one per copy. -/
theorem part0_shares (c : Dev nD) (f : Buf (Elt F) ((c : Thread nD τ).loc cc0_scratch0)) :
    (partPts (F := F) c 0 fullShare f) ⊣⊢ iprop(partPts c 0 (shr 0) f ∗ partPts c 0 (shr 1) f ∗ partPts c 0 (shr 2) f) := by
  unfold partPts
  have e1 := pointsTo_share (Val := Elt F) (Ix := Unit) (Name := ℕ) (U := UU) (Lvl := ℕ) (ℓ := (c : Thread nD τ).loc cc0_scratch0) (I := pset 0) (f := f)
    (PosShare.mem_left_op_right fullShare)
  have e2 := pointsTo_share (Val := Elt F) (Ix := Unit) (Name := ℕ) (U := UU) (Lvl := ℕ) (ℓ := (c : Thread nD τ).loc cc0_scratch0) (I := pset 0) (f := f)
    (PosShare.mem_left_op_right fullShare.right)
  constructor
  · exact e1.1.trans (sep_mono_right e2.1)
  · exact (sep_mono_right e2.2).trans e1.2

set_option maxHeartbeats 4000000 in
theorem sound_body : SoundBody (F := F) m := by
  intro K c Kt
  unfold bodyPre ghost invs reaches poss payToks
  iintro ⟨⟨⟨⟨⟨#HI0, #HIs0, #HIs1, #HIs2, #HIr0, #HIr1, #HIr2, #HIb1, #HIb2, #HIb3, #HIp2, #HIp1, #HIp3⟩,
      ⟨#Hrb1, #Hrb2, #Hrb3, #Hrp2, #Hrp1, #Hrp3, #Hrs0, #Hrs1, #Hrs2, #Hrr0, #Hrr1, #Hrr2⟩,
      ⟨HaB, HaS0, HaS1, HaS2, HaR0, HaR1, HaR2⟩,
      ⟨Htb1, Htb2, Htb3, Htp2, Htp1, Htp3, Hts0, Hts1, Hts2⟩⟩, HcB, HcR0, HcR1, HcR2, #Hlev, ⟨%f0, Hscr⟩⟩,
    Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch0_0 t₀)]; rfl
  have hw : g1 = wstg m c := by rw [hg1]; unfold Dat.before; rw [if_pos (fetch0_1 t₀)]; rfl
  subst hx; subst hw
  unfold Dat.owesAt Pipeline.owesWithin
  icases Ho with ⟨%W, %hW, HO⟩
  rw [show (dats m 0 c).owed t₀.castSucc = O₀ c from rfl]
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  simp only [dev1_eq c, dev2_eq c, dev3_eq c]
  -- the exchange buffer by parts
  ihave Hsp := (scr_split c fullShare f0).1 $$ Hscr
  icases Hsp with ⟨Hp0, Hp1, Hp2, Hp3⟩
  -- the three signals: each hands the peer one part of this device's buffer
  iapply (Rounds.wp_signal 𝒱₀ ER (Rd m) (c : Thread nD τ) none (dst := (sh c 1 : Thread nD τ)) (κ := K (sh c 1, 0))
      (d := (0 : Fin 3)) (by rw [duties_bar]; exact Finset.mem_univ _) ((amount_bar m (sh c 1) 0).trans (by decide)) () (O2 c) rfl)
    $$ [HO Htb1 Hp1]
  · isplitr; · iexact HIb1
    isplitl [HO]; · iexact HO
    isplitl [Htb1]; · iexact Htb1
    isplitl [Hp1]
    · rw [payload_bar, barPay_sig1]
      isplitl [Hp1]; · iexists f0; iexact Hp1
      iexact Hrr0
    · iexact Hrb1
  iintro HO
  iapply (Rounds.wp_signal 𝒱₀ ER (Rd m) (c : Thread nD τ) none (dst := (sh c 2 : Thread nD τ)) (κ := K (sh c 2, 0))
      (d := (1 : Fin 3)) (by rw [duties_bar]; exact Finset.mem_univ _) ((amount_bar m (sh c 2) 1).trans (by decide)) () (O3 c) rfl)
    $$ [HO Htb2 Hp2]
  · isplitr; · iexact HIb2
    isplitl [HO]; · iexact HO
    isplitl [Htb2]; · iexact Htb2
    isplitl [Hp2]
    · rw [payload_bar, barPay_sig2]
      isplitl [Hp2]; · iexists f0; iexact Hp2
      iexact Hrr1
    · iexact Hrb2
  iintro HO
  iapply (Rounds.wp_signal 𝒱₀ ER (Rd m) (c : Thread nD τ) none (dst := (sh c 3 : Thread nD τ)) (κ := K (sh c 3, 0))
      (d := (2 : Fin 3)) (by rw [duties_bar]; exact Finset.mem_univ _) ((amount_bar m (sh c 3) 2).trans (by decide)) () (Oa c) rfl)
    $$ [HO Htb3 Hp3]
  · isplitr; · iexact HIb3
    isplitl [HO]; · iexact HO
    isplitl [Htb3]; · iexact Htb3
    isplitl [Hp3]
    · rw [payload_bar, barPay_sig3]
      isplitl [Hp3]; · iexists f0; iexact Hp3
      iexact Hrr2
    · iexact Hrb3
  iintro HO
  -- the block is loaded, its statistics stored in part 0
  iapply (wp_load 𝒱₀ (c : Thread nD τ) none Set.univ (m := xM) (Finset.subset_univ _)) $$ Hx; iintro Hx
  rw [read_x]
  unfold partPts
  iapply (wp_load 𝒱₀ (c : Thread nD τ) none Set.univ (m := scrM) (r := rc0.toLoadRect) (S := pset 0) scr_setOn0) $$ Hp0; iintro Hp0
  iapply (wp_store 𝒱₀ (c : Thread nD τ) none Set.univ (m := scrM) (r := rc0) (Mk := Finset.univ) (S := pset 0) scr_store0) $$ Hp0; iintro Hp0
  ihave Hp0 := (Entails.of_eq (store_pts m c f0)) $$ Hp0
  -- the entry wait: the three peers' parts come with it
  iapply (Rounds.wp_wait_rest_token 𝒱₀ ER (Rd m) (c : Thread nD τ) none (κ := K (c, 0))
      (wpE_semWait_eq 𝒱₀ (c : Thread nD τ) none Set.univ) (Set.mem_univ _) () (O := Oa c) (W := W) (R := 0) (m := 0) (T := ∅)
      (by rw [expect_bar]; decide)) $$ [HcB HO HaB]
  · isplitr; · iexact HI0
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay
  icases Hp with ⟨⟨⟨%fC, HpC⟩, -⟩, ⟨⟨%fA, HpA⟩, -⟩, ⟨%fB, HpB⟩, -⟩
  -- part 0 by shares, one per copy
  ihave Hs := (part0_shares c (G m c)).1 $$ Hp0
  icases Hs with ⟨Hq0, Hq1, Hq2⟩
  -- the three copies
  iapply (wp_send_A m K c _ (dev4_eq c) fA _) $$ [Hq1 HpA HO Hts1 Htp2]
  · isplitr; · iexact HIs1
    isplitr; · iexact HIp2
    isplitl [Hq1]; · iexact Hq1
    isplitl [HpA]; · iexact HpA
    isplitl [HO]; · iexact HO
    isplitl [Hts1]; · iexact Hts1
    isplitr; · iexact Hrs1
    isplitl [Htp2]; · iexact Htp2
    iexact Hrp2
  iintro ⟨HcS1, HO⟩
  iapply (wp_send_B m K c _ (dev5_eq c) fB _) $$ [Hq0 HpB HO Hts0 Htp1]
  · isplitr; · iexact HIs0
    isplitr; · iexact HIp1
    isplitl [Hq0]; · iexact Hq0
    isplitl [HpB]; · iexact HpB
    isplitl [HO]; · iexact HO
    isplitl [Hts0]; · iexact Hts0
    isplitr; · iexact Hrs0
    isplitl [Htp1]; · iexact Htp1
    iexact Hrp1
  iintro ⟨HcS0, HO⟩
  iapply (wp_send_C m K c _ (dev6_eq c) fC _) $$ [Hq2 HpC HO Hts2 Htp3]
  · isplitr; · iexact HIs2
    isplitr; · iexact HIp3
    isplitl [Hq2]; · iexact Hq2
    isplitl [HpC]; · iexact HpC
    isplitl [HO]; · iexact HO
    isplitl [Hts2]; · iexact Hts2
    isplitr; · iexact Hrs2
    isplitl [Htp3]; · iexact Htp3
    iexact Hrp3
  iintro ⟨HcS2, HO⟩
  -- the three arrivals: parts 1, 2, 3 come back holding the peers' statistics
  iapply (Rounds.wp_wait_rest_token 𝒱₀ ER (Rd m) (c : Thread nD τ) none (κ := K (c, 4)) (sm := (rcvCell c 0).2)
      (wpE_waitDma2_eq 𝒱₀ (c : Thread nD τ) none Set.univ) (Set.mem_univ _) () (O := 0) (R := 0) (m := 0) (T := ∅)
      (by rw [Nat.zero_add]; exact (expect_rcv m c 0).symm)) $$ [HcR0 HO HaR0]
  · isplitr; · iexact HIr0
    isplitl [HcR0]; · iexact HcR0
    isplitl [HO]; · iexact HO
    isplitr; · rw [MayWait_zero]; iempintro
    iexact HaR0
  iintro ⟨HO, HaR0, -, Hpay⟩
  ihave Hr1 := (Entails.of_eq (show _ = partPts c 1 fullShare (G m c) from rest_rcv m c 0)) $$ Hpay
  iapply (Rounds.wp_wait_rest_token 𝒱₀ ER (Rd m) (c : Thread nD τ) none (κ := K (c, 5)) (sm := (rcvCell c 1).2)
      (wpE_waitDma2_eq 𝒱₀ (c : Thread nD τ) none Set.univ) (Set.mem_univ _) () (O := 0) (R := 0) (m := 0) (T := ∅)
      (by rw [Nat.zero_add, credit_part2]; exact (expect_rcv m c 1).symm)) $$ [HcR1 HO HaR1]
  · isplitr; · iexact HIr1
    isplitl [HcR1]; · iexact HcR1
    isplitl [HO]; · iexact HO
    isplitr; · rw [MayWait_zero]; iempintro
    iexact HaR1
  iintro ⟨HO, HaR1, -, Hpay⟩
  ihave Hr2 := (Entails.of_eq (show _ = partPts c 2 fullShare (G m c) from rest_rcv m c 1)) $$ Hpay
  iapply (Rounds.wp_wait_rest_token 𝒱₀ ER (Rd m) (c : Thread nD τ) none (κ := K (c, 6)) (sm := (rcvCell c 2).2)
      (wpE_waitDma2_eq 𝒱₀ (c : Thread nD τ) none Set.univ) (Set.mem_univ _) () (O := 0) (R := 0) (m := 0) (T := ∅)
      (by rw [Nat.zero_add, credit_part3]; exact (expect_rcv m c 2).symm)) $$ [HcR2 HO HaR2]
  · isplitr; · iexact HIr2
    isplitl [HcR2]; · iexact HcR2
    isplitl [HO]; · iexact HO
    isplitr; · rw [MayWait_zero]; iempintro
    iexact HaR2
  iintro ⟨HO, HaR2, -, Hpay⟩
  ihave Hr3 := (Entails.of_eq (show _ = partPts c 3 fullShare (G m c) from rest_rcv m c 2)) $$ Hpay
  -- the three departures: the shares of part 0 come back
  iapply (Rounds.wp_wait_rest_token 𝒱₀ ER (Rd m) (c : Thread nD τ) none (κ := K (c, 2)) (sm := (sndCell c 1).2)
      (wpE_waitDma2_eq 𝒱₀ (c : Thread nD τ) none Set.univ) (Set.mem_univ _) () (O := 0) (R := 0) (m := 0) (T := ∅)
      (by rw [Nat.zero_add, credit_part0]; exact (expect_snd m c 1).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Hq1 := (Entails.of_eq (show _ = partPts c 0 (shr 1) (G m c) from rest_snd m c 1)) $$ Hpay
  iapply (Rounds.wp_wait_rest_token 𝒱₀ ER (Rd m) (c : Thread nD τ) none (κ := K (c, 1)) (sm := (sndCell c 0).2)
      (wpE_waitDma2_eq 𝒱₀ (c : Thread nD τ) none Set.univ) (Set.mem_univ _) () (O := 0) (R := 0) (m := 0) (T := ∅)
      (by rw [Nat.zero_add, credit_part0]; exact (expect_snd m c 0).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Hq0 := (Entails.of_eq (show _ = partPts c 0 (shr 0) (G m c) from rest_snd m c 0)) $$ Hpay
  iapply (Rounds.wp_wait_rest_token 𝒱₀ ER (Rd m) (c : Thread nD τ) none (κ := K (c, 3)) (sm := (sndCell c 2).2)
      (wpE_waitDma2_eq 𝒱₀ (c : Thread nD τ) none Set.univ) (Set.mem_univ _) () (O := 0) (R := 0) (m := 0) (T := ∅)
      (by rw [Nat.zero_add, credit_part0]; exact (expect_snd m c 2).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Hq2 := (Entails.of_eq (show _ = partPts c 0 (shr 2) (G m c) from rest_snd m c 2)) $$ Hpay
  -- the six own cells close
  imod (Rounds.cell_close ER (Rd m) (Set.mem_univ (K (c, 1))) (fun h => h) (R := 0 + 1) (duties_later m (sndCell c 0))) $$ [HaS0] with HzS0
  · isplitr; · iexact HIs0
    iexact HaS0
  imod (Rounds.cell_close ER (Rd m) (Set.mem_univ (K (c, 2))) (fun h => h) (R := 0 + 1) (duties_later m (sndCell c 1))) $$ [HaS1] with HzS1
  · isplitr; · iexact HIs1
    iexact HaS1
  imod (Rounds.cell_close ER (Rd m) (Set.mem_univ (K (c, 3))) (fun h => h) (R := 0 + 1) (duties_later m (sndCell c 2))) $$ [HaS2] with HzS2
  · isplitr; · iexact HIs2
    iexact HaS2
  imod (Rounds.cell_close ER (Rd m) (Set.mem_univ (K (c, 4))) (fun h => h) (R := 0 + 1) (duties_later m (rcvCell c 0))) $$ [HaR0] with HzR0
  · isplitr; · iexact HIr0
    iexact HaR0
  imod (Rounds.cell_close ER (Rd m) (Set.mem_univ (K (c, 5))) (fun h => h) (R := 0 + 1) (duties_later m (rcvCell c 1))) $$ [HaR1] with HzR1
  · isplitr; · iexact HIr1
    iexact HaR1
  imod (Rounds.cell_close ER (Rd m) (Set.mem_univ (K (c, 6))) (fun h => h) (R := 0 + 1) (duties_later m (rcvCell c 2))) $$ [HaR2] with HzR2
  · isplitr; · iexact HIr2
    iexact HaR2
  -- part 0 whole again
  ihave Hp0 := (part0_shares c (G m c)).2 $$ [Hq0 Hq1 Hq2]
  · isplitl [Hq0]; · iexact Hq0
    isplitl [Hq1] <;> iassumption
  unfold partPts
  -- the four parts and the weight are loaded, the result stored
  iapply (wp_load 𝒱₀ (c : Thread nD τ) none Set.univ (m := scrM) (r := rc0.toLoadRect) (S := pset 0) scr_setOn0) $$ Hp0; iintro Hp0
  rw [read_part0]
  iapply (wp_load 𝒱₀ (c : Thread nD τ) none Set.univ (m := scrM) (r := rc1.toLoadRect) (S := pset 1) scr_setOn1) $$ Hr1; iintro Hr1
  rw [read_part1]
  iapply (wp_load 𝒱₀ (c : Thread nD τ) none Set.univ (m := scrM) (r := rc2.toLoadRect) (S := pset 2) scr_setOn2) $$ Hr2; iintro Hr2
  rw [read_part2]
  iapply (wp_load 𝒱₀ (c : Thread nD τ) none Set.univ (m := scrM) (r := rc3.toLoadRect) (S := pset 3) scr_setOn3) $$ Hr3; iintro Hr3
  rw [read_part3]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out, wp_ret]; imodintro
  iapply Hk
  unfold bodyPost Φ₁ Dat.owesAt Pipeline.owesWithin
  rw [show (dats m 0 c).owed t₀.succ = 0 from rfl]
  isplitl [Hp0 Hr1 Hr2 Hr3 HzS0 HzS1 HzS2 HzR0 HzR1 HzR2]
  · isplitl [Hp0 Hr1 Hr2 Hr3]
    · iapply (scr_split c fullShare (G m c)).2
      unfold partPts
      isplitl [Hp0]; · iexact Hp0
      isplitl [Hr1]; · iexact Hr1
      isplitl [Hr2]; · iexact Hr2
      iexact Hr3
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert ((sndCell c 2).2, ()) (insert ((sndCell c 0).2, ()) (insert ((sndCell c 1).2, ()) (insert ((rcvCell c 2).2, ())
      (insert ((rcvCell c 1).2, ()) (insert ((rcvCell c 0).2, ()) (insert (SemLoc.reg barS, ()) W)))))))
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

end Cert.KernelIdeal.Proto

end
-- ==== Proof.KOblig.lean ====
/-
  The library's body obligation on a device, from the body's run.

  The pipeline hands the body, at its one grid point, the invariant before the point, what the device owes, and each
  of the three windows' staging buffers whole at what it then holds; it asks them back at the invariant after the
  point, what the device then owes, and each staging buffer at what the body leaves.  A whole staging buffer owned at
  some contents is the buffer pointed to at those contents; with that, the obligation's precondition is the body's
  own precondition at some names of the cells' invariants, and its postcondition is the body's own.
-/
import proofs.«900350_g7700000000000351_dist_diff_noisepred_hshard_i_b2_h64_w64_c64_v7x_i4_f32_1_alg».proof.Proof.KBodyDefs

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.StatsNorm (sh)

variable {F : FTy → Type} [FloatOps F]

local notation "𝕄" => MT nD τ sig Unit (Elt F) ℕ UU ℕ

variable (m : (ℓ : Loc nD τ sig) → Buf (Elt F) ℓ)

omit [FloatOps F] in
/-- A whole buffer owned at contents `X` is the buffer pointed to, at the full share, at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition at the one grid point: the invariant before it, what the device owes, and the
    three staging buffers at what they hold. -/
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on device `c`, from the body's run. -/
theorem body_obligation_of (hsb : SoundBody (F := F) m) (c : Dev nD) :
    BodyObligation (dats (F := F) m 0 c) (defs₀ (F := F)) 𝒱₀ () Set.univ := fun t => by
  rw [fin_N t]
  rw [Gen.bigSep_W0, Gen.bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, H1, H2, H3, H4, Hlev⟩, Hscr⟩, Ho, Hx, Hw, Hout⟩
  iapply (hsb K c fun _ => bodyPost m c)
  unfold bodyPre
  isplitr []
  · isplitl [Hg H1 H2 H3 H4 Hlev Hscr]
    · isplitl [Hg]; · iexact Hg
      isplitl [H1]; · iexact H1
      isplitl [H2]; · iexact H2
      isplitl [H3]; · iexact H3
      isplitl [H4]; · iexact H4
      isplitl [Hlev]; · iexact Hlev
      iexact Hscr
    isplitl [Ho]; · iexact Ho
    isplitl [Hx]; · iexact Hx
    isplitl [Hw]; · iexact Hw
    iexact Hout
  · iintro H; iexact H

/-- The same in the form that asks each staging buffer back only on the part its transfers move. -/
theorem body_obligation_loose_of (hsb : SoundBody (F := F) m) (c : Dev nD) :
    BodyObligationLoose (dats (F := F) m 0 c) (defs₀ (F := F)) 𝒱₀ () Set.univ :=
  (body_obligation_of m hsb c).loose

end Cert.KernelIdeal.Proto

end
-- ==== Proof.KLaunchA.lean ====
/-
  The launch of the exchange, first half: the cells and duty tokens minted at launch, every device's semaphores at zero
  turned into the cells' invariants under one update, and the tokens dealt to the devices that pay the duties.

  A device has seven cells — its entry cell, three departure cells, three arrival cells — and nine duty tokens: the three
  duties of its entry cell and the one duty of each other cell. The token of duty `d` of device `c`'s entry cell goes to
  the device `3 - d` places after `c`, which signals it; the token of arrival cell `k` to the device `k + 1` places after
  `c`, whose copy lands there; the departure tokens stay. Seen from the payer: device `c` gets duty `δ - 1` of the entry
  cell of the device `δ` places after it, and the token of arrival cell `3 - δ` of that device, for `δ = 1, 2, 3`.
-/
import proofs.«900350_g7700000000000351_dist_diff_noisepred_hshard_i_b2_h64_w64_c64_v7x_i4_f32_1_alg».proof.Proof.KData

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own (scoped) semaphores: the three departure, then the three arrival ones. -/
abbrev osem : Fin 6 → SemLoc sig := fun
  | 0 => .dma (![snd0, snd1, snd2] 0) | 1 => .dma (![snd0, snd1, snd2] 1) | 2 => .dma (![snd0, snd1, snd2] 2)
  | 3 => .dma (![rcv0, rcv1, rcv2] 0) | 4 => .dma (![rcv0, rcv1, rcv2] 1) | 5 => .dma (![rcv0, rcv1, rcv2] 2)
/-- All seven of a device's cells: entry, departure 0–2, arrival 0–2. -/
abbrev csem : Fin 7 → SemLoc sig := fun
  | 0 => .reg barS
  | 1 => .dma (![snd0, snd1, snd2] 0) | 2 => .dma (![snd0, snd1, snd2] 1) | 3 => .dma (![snd0, snd1, snd2] 2)
  | 4 => .dma (![rcv0, rcv1, rcv2] 0) | 5 => .dma (![rcv0, rcv1, rcv2] 1) | 6 => .dma (![rcv0, rcv1, rcv2] 2)
abbrev kcell (ck : Dev nD × Fin 7) : GSem nD τ sig := ((ck.1 : Thread nD τ), csem ck.2)

theorem ownSemFacts : Pipeline.OwnSemFacts cfg0.spec osem := by decide

theorem csem_injective : Function.Injective csem := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def xCells : Finset (GSem nD τ sig) := Finset.univ.map ⟨kcell, kcell_injective⟩

/-- The cell and the duty of a device's `j`-th token: the entry cell's three duties, then duty 0 of the six others. -/
abbrev tokCell : Fin 9 → Fin 7 := ![0, 0, 0, 1, 2, 3, 4, 5, 6]
abbrev tokDuty : Fin 9 → Fin 3 := ![0, 1, 2, 0, 0, 0, 0, 0, 0]
theorem tokIx_injective : Function.Injective (fun j : Fin 9 => (tokCell j, tokDuty j)) := by decide

abbrev tokOf (cj : Dev nD × Fin 9) : GSem nD τ sig × ℕ × Fin 3 := (kcell (cj.1, tokCell cj.2), 0, tokDuty cj.2)
theorem tokOf_injective : Function.Injective (tokOf : Dev nD × Fin 9 → GSem nD τ sig × ℕ × Fin 3) := by
  rintro ⟨c, j⟩ ⟨c', j'⟩ h
  have h1 : (c, tokCell j) = (c', tokCell j') := kcell_injective (congrArg (fun x : GSem nD τ sig × ℕ × Fin 3 => x.1) h)
  have h2 : tokDuty j = tokDuty j' := congrArg (fun x : GSem nD τ sig × ℕ × Fin 3 => x.2.2) h
  have hc : c = c' := congrArg Prod.fst h1
  have hj : j = j' := tokIx_injective (Prod.ext (congrArg Prod.snd h1) h2)
  subst hc; subst hj; rfl
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sndCell c 0) 0 (0 : Fin 3) ∗ dutyTok ER (sndCell c 1) 0 (0 : Fin 3) ∗ dutyTok ER (sndCell c 2) 0 (0 : Fin 3)
    ∗ dutyTok ER (rcvCell c 0) 0 (0 : Fin 3) ∗ dutyTok ER (rcvCell c 1) 0 (0 : Fin 3) ∗ dutyTok ER (rcvCell c 2) 0 (0 : Fin 3))

/-- What the launch element deals device `c`. -/
def dealt (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

/-- What the global step makes of it. -/
def made (c : Dev nD) : sProp 𝕄 := iprop(∃ K, ghost m K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund : BI.own (ER (initOf xCells xToks)) ⊢ (|==> bigSep Finset.univ (dealt m) : sProp 𝕄) := by
  have hX (Φ : GSem nD τ sig → sProp 𝕄) :
      bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin9]; rfl
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The departure and arrival semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (sndCell c 2) 0
        ∗ semVal (rcvCell c 0) 0 ∗ semVal (rcvCell c 1) 0 ∗ semVal (rcvCell c 2) 0) := by
  rw [Pipeline.ownSems0_eq_of_list c osem [0, 1, 2, 3, 4, 5] (by decide) (by decide)]; rfl
/-- the collective's barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Cert.KernelIdeal.Proto

end
-- ==== Proof.KLaunchB.lean ====
/-
  The launch of the exchange, second half of the global step: from the cells' invariants of all devices and the tokens as
  minted, what each device's body starts from — the invariants of the thirteen cells it touches, the reached rounds, its
  positions, and the tokens of the nine duties it pays.
-/
import proofs.«900350_g7700000000000351_dist_diff_noisepred_hshard_i_b2_h64_w64_c64_v7x_i4_f32_1_alg».proof.Proof.KLaunchA

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ) (ρ : Dev nD → PrngReg)

/-- The invariants of all cells under the names `K`, and every cell's round 0 reached. -/
def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (Rd m) (K ck) (kcell ck) : sProp 𝕄)) ⊢ cellInv ER (Rd m) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- From the records, a device's positions and the tokens it pays with: its starting ghost state. -/
theorem ghost_intro (K : Dev nD × Fin 7 → ℕ) (c : Dev nD) : iprop(records m K ∗ (poss c ∗ payToks c)) ⊢ made m c := by
  unfold records made ghost invs reaches
  iintro ⟨⟨#HI, #HR⟩, HP, HT⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (sh c 1, 0)); iexact HI
    isplitr; · iapply (inv_at m K (sh c 2, 0)); iexact HI
    isplitr; · iapply (inv_at m K (sh c 3, 0)); iexact HI
    isplitr; · iapply (inv_at m K (sh c 2, 5)); iexact HI
    isplitr; · iapply (inv_at m K (sh c 1, 6)); iexact HI
    iapply (inv_at m K (sh c 3, 4)); iexact HI
  isplitr
  · isplitr; · iapply (reached_at (F := F) (sh c 1, 0)); iexact HR
    isplitr; · iapply (reached_at (F := F) (sh c 2, 0)); iexact HR
    isplitr; · iapply (reached_at (F := F) (sh c 3, 0)); iexact HR
    isplitr; · iapply (reached_at (F := F) (sh c 2, 5)); iexact HR
    isplitr; · iapply (reached_at (F := F) (sh c 1, 6)); iexact HR
    isplitr; · iapply (reached_at (F := F) (sh c 3, 4)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  isplitl [HP]; · iexact HP
  iexact HT

/-- The shifts of the ring as permutations of the devices. -/
def shE1 : Dev nD ≃ Dev nD := ⟨fun c => sh c 1, fun c => sh c 3, fun c => sh_sh c 1 3 rfl, fun c => sh_sh c 3 1 rfl⟩
def shE2 : Dev nD ≃ Dev nD := ⟨fun c => sh c 2, fun c => sh c 2, fun c => sh_sh c 2 2 rfl, fun c => sh_sh c 2 2 rfl⟩
def shE3 : Dev nD ≃ Dev nD := ⟨fun c => sh c 3, fun c => sh c 1, fun c => sh_sh c 3 1 rfl, fun c => sh_sh c 1 3 rfl⟩

/-- The tokens dealt round the ring: each token to the device that pays its duty. -/
theorem toks_around : (bigSep Finset.univ fun c : Dev nD => (toks c : sProp 𝕄)) ⊢ bigSep Finset.univ fun c : Dev nD => payToks c := by
  unfold toks payToks
  simp only [bigSep_sep']
  rw [bigSep_univ_equiv shE1 (fun c : Dev nD => (dutyTok ER (barCell c) 0 (0 : Fin 3) : sProp 𝕄)),
    bigSep_univ_equiv shE2 (fun c : Dev nD => (dutyTok ER (barCell c) 0 (1 : Fin 3) : sProp 𝕄)),
    bigSep_univ_equiv shE3 (fun c : Dev nD => (dutyTok ER (barCell c) 0 (2 : Fin 3) : sProp 𝕄)),
    bigSep_univ_equiv shE3 (fun c : Dev nD => (dutyTok ER (rcvCell c 0) 0 (0 : Fin 3) : sProp 𝕄)),
    bigSep_univ_equiv shE2 (fun c : Dev nD => (dutyTok ER (rcvCell c 1) 0 (0 : Fin 3) : sProp 𝕄)),
    bigSep_univ_equiv shE1 (fun c : Dev nD => (dutyTok ER (rcvCell c 2) 0 (0 : Fin 3) : sProp 𝕄))]
  iintro ⟨B0, B1, B2, S0, S1, S2, R0, R1, R2⟩
  isplitl [B0]; · iexact B0
  isplitl [B1]; · iexact B1
  isplitl [B2]; · iexact B2
  isplitl [R1]; · iexact R1
  isplitl [R2]; · iexact R2
  isplitl [R0]; · iexact R0
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (made m) := by
  rw [bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ iprop(poss c ∗ payToks c) from Entails.of_eq (by unfold poss; rw [bigSep_fin7])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (made m) :=
  ((bigSep_mono fun c _ => core_alloc m c).trans (bigSep_fupd _ _)).trans (BI.fupd_mono (regroup m))

end Cert.KernelIdeal.Proto

end
-- ==== Proof.KLaunch.lean ====
/-
  The launch of the exchange: the credit each device is dealt for its waits, the side conditions of the launch, and the
  run of the whole program from every device's body.

  At launch device `d` owes one unit to the entry cell of each of its three peers and a copy's credit to one arrival cell
  of each. Summed over the devices, every entry cell is owed three units and every arrival cell one copy's credit: these
  are the credit tokens the cell's owner is dealt, and what its three waits consume.
-/
import proofs.«900350_g7700000000000351_dist_diff_noisepred_hshard_i_b2_h64_w64_c64_v7x_i4_f32_1_alg».proof.Proof.KLaunchB

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ) (ρ : Dev nD → PrngReg)

/-! ### The launch credit -/

theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

/-- What the devices owe device `c`'s cells at launch, as its credit tokens: three units on its entry cell, a copy's
    credit on each arrival cell. -/
theorem creds (c : Dev nD) :
    (Pipeline.launchCred O₀ c : sProp 𝕄) ⊢ iprop(cred (tallyAt (barCell c) () 3) ∗ cred (tallyAt (rcvCell c 0) () N)
      ∗ cred (tallyAt (rcvCell c 1) () N) ∗ cred (tallyAt (rcvCell c 2) () N)) := by
  have e : (O₀ : Dev nD → CellTallies nD τ sig Unit) = fun d =>
      tallyAt (rcvCell (sh d 3) 0) () N + tallyAt (rcvCell (sh d 1) 2) () N + tallyAt (rcvCell (sh d 2) 1) () N
        + tallyAt (barCell (sh d 3)) () 1 + tallyAt (barCell (sh d 2)) () 1 + tallyAt (barCell (sh d 1)) () 1 := rfl
  rw [e, Pipeline.launchCred_add, Pipeline.launchCred_add, Pipeline.launchCred_add, Pipeline.launchCred_add, Pipeline.launchCred_add]
  iintro ⟨⟨⟨⟨⟨Hr0, Hr2⟩, Hr1⟩, Hb3⟩, Hb2⟩, Hb1⟩
  ihave R0 := (Pipeline.launchCred_tallyAt (.dma (![rcv0, rcv1, rcv2] 0)) (fun d => sh d 3) (fun c => sh c 1)
    (fun c => sh_sh c 1 3 rfl) (fun d => sh_sh d 3 1 rfl) () N c) $$ Hr0
  ihave R2 := (Pipeline.launchCred_tallyAt (.dma (![rcv0, rcv1, rcv2] 2)) (fun d => sh d 1) (fun c => sh c 3)
    (fun c => sh_sh c 3 1 rfl) (fun d => sh_sh d 1 3 rfl) () N c) $$ Hr2
  ihave R1 := (Pipeline.launchCred_tallyAt (.dma (![rcv0, rcv1, rcv2] 1)) (fun d => sh d 2) (fun c => sh c 2)
    (fun c => sh_sh c 2 2 rfl) (fun d => sh_sh d 2 2 rfl) () N c) $$ Hr1
  ihave B3 := (Pipeline.launchCred_tallyAt (.reg barS) (fun d => sh d 3) (fun c => sh c 1)
    (fun c => sh_sh c 1 3 rfl) (fun d => sh_sh d 3 1 rfl) () 1 c) $$ Hb3
  ihave B2 := (Pipeline.launchCred_tallyAt (.reg barS) (fun d => sh d 2) (fun c => sh c 2)
    (fun c => sh_sh c 2 2 rfl) (fun d => sh_sh d 2 2 rfl) () 1 c) $$ Hb2
  ihave B1 := (Pipeline.launchCred_tallyAt (.reg barS) (fun d => sh d 1) (fun c => sh c 3)
    (fun c => sh_sh c 3 1 rfl) (fun d => sh_sh d 1 3 rfl) () 1 c) $$ Hb1
  ihave HB := (cred3 (F := F) (barCell c)) $$ [B3 B2 B1]
  · isplitl [B3]; · iexact B3
    isplitl [B2] <;> iassumption
  isplitl [HB]; · iexact HB
  isplitl [R0]; · iexact R0
  isplitl [R1]; · iexact R1
  iexact R2

/-! ### The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ made m c)
      ⊢ |={Set.univ}=> iprop(start m c ∗ emp) := by
  iintro ⟨-, Hlev, Hcr, -, HG⟩
  ihave Hc := (creds (F := F) c) $$ Hcr
  icases Hc with ⟨H1, HN0, HN1, HN2⟩
  imodintro
  unfold start made
  isplitl
  · isplitl [HG]; · iexact HG
    isplitl [H1]; · iexact H1
    isplitl [HN0]; · iexact HN0
    isplitl [HN1]; · iexact HN1
    isplitl [HN2]; · iexact HN2
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, H1, H2, H3, H4, H5, H6⟩
  isplitr; · iempintro
  isplitl [H1 H2 H3 H4 H5 H6]
  · isplitl [H1]; · iexact H1
    isplitl [H2]; · iexact H2
    isplitl [H3]; · iexact H3
    isplitl [H4]; · iexact H4
    isplitl [H5]; · iexact H5
    iexact H6
  iexists (G m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- From every device's body: every weakly fair execution of the four devices' programs terminates, and every final
    state has each window's array at what the proof data say. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD, ∀ w : Fin cfg0.W,
      r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := made m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The result window is written back at the one grid point: its array ends holding what the body left in its staging
    buffer. -/
theorem arrAt_out (c : Dev nD) : (dats m 0 c).arrAt (2 : Fin 3) cfg0.N = outAt m c := by
  show (dats m 0 c).arrAt (2 : Fin 3) (t₀.val + 1) = outAt m c
  rw [Dat.arrAt_succ, Gen.flush0_2 t₀, if_pos rfl]
  exact Memref.write_access_unit_zero_univ (Elt F) main_v1 (funext fun a => by fin_cases a <;> rfl) _ _ _

/-- The run with every array named: each device's result array ends holding its computed result, its two argument
    arrays what they held. -/
theorem run_named (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (arrAt_out m c),
      (h c 0).trans ((dats m 0 c).arrAt_in 0 rfl _), (h c 1).trans ((dats m 0 c).arrAt_in 1 rfl _)⟩)
    (run_main m ρ hbody)

end Cert.KernelIdeal.Proto

end
-- ==== Proof.KRun.lean ====
/-
  The kernel's run on the four devices, every array named: each device's result buffer ends holding `outAt m c` — the
  body's result from its own block, the four devices' statistics and its copy of the weight — and the arguments end unchanged.
-/
import proofs.«900350_g7700000000000351_dist_diff_noisepred_hshard_i_b2_h64_w64_c64_v7x_i4_f32_1_alg».proof.Proof.KBody
import proofs.«900350_g7700000000000351_dist_diff_noisepred_hshard_i_b2_h64_w64_c64_v7x_i4_f32_1_alg».proof.Proof.KOblig
import proofs.«900350_g7700000000000351_dist_diff_noisepred_hshard_i_b2_h64_w64_c64_v7x_i4_f32_1_alg».proof.Proof.KLaunch

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

variable (ρ : Dev nD → PrngReg)

theorem run : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  run_named m ρ (fun c => body_obligation_of m (sound_body m) c)

end Cert.KernelIdeal.Proto

end
-- ==== Proof.WProto.lean ====
/-
  The exchange protocol of the four devices, as a schedule of rounds.

  Every device `c` has seven semaphore cells: its entry cell (the collective's barrier semaphore), three departure
  cells and three arrival cells.  All cells have exactly one round.
  * The entry cell of `c` has three duties, one unit each: duty `d` is paid by the device `e = c + (3 - d)` (whose signal
    number `d + 1` names `c`), and hands `c` the part `d + 1` of `e`'s exchange buffer together with the knowledge that
    `e`'s arrival cell `d` has reached its round: what `c` needs to copy its statistics into that part.
  * Arrival cell `j` of `c` has one duty, paid by the copy of the device `c + (j + 1)`; it hands `c` part `j + 1` of its own
    exchange buffer holding that device's statistics.
  * Departure cell `k` of `c` has one duty, paid by `c`'s own copy number `k`; it hands back the share of part 0 (the
    device's own statistics) the copy was reading.
  The exchange buffer of every device ends holding ONE function `G c`: part `s` is the statistics of device `c + s`.
-/
import proofs.«900350_g7700000000000351_dist_diff_noisepred_hshard_i_b2_h64_w64_c64_v7x_i4_f32_1_alg».proof.Proof.Spec
import proofs.«900350_g7700000000000351_dist_diff_noisepred_hshard_i_b2_h64_w64_c64_v7x_i4_f32_1_alg».proof.Proof.Gen.Kernel
import proofs.«900350_g7700000000000351_dist_diff_noisepred_hshard_i_b2_h64_w64_c64_v7x_i4_f32_1_alg».proof.Proof.Gen.Kernel.Skeleton
import proofs.«900350_g7700000000000351_dist_diff_noisepred_hshard_i_b2_h64_w64_c64_v7x_i4_f32_1_alg».proof.Proof.Gen.Kernel.Launch
import proofs.«900350_g7700000000000351_dist_diff_noisepred_hshard_i_b2_h64_w64_c64_v7x_i4_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

/-! ## The resource algebra: the pipeline's own copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The ring -/

theorem sh_sh (c : Dev nD) (a b : ℕ) (h : (a + b) % 4 = 0) : sh (sh c a) b = c := by
  apply Fin.ext; show ((c.val + a) % 4 + b) % 4 = c.val; have hc : c.val < 4 := c.isLt; omega
theorem sh_zero (c : Dev nD) : sh c 0 = c := by apply Fin.ext; show (c.val + 0) % 4 = c.val; have hc : c.val < 4 := c.isLt; omega
theorem sh_inj (d : ℕ) : Function.Injective (fun c : Dev nD => sh c d) := by
  intro a b h; have h' : (a.val + d) % 4 = (b.val + d) % 4 := congrArg Fin.val h; apply Fin.ext; have ha : a.val < 4 := a.isLt; have hb : b.val < 4 := b.isLt; omega

/-- The kernel's `device_id` chains name the shifted positions. -/
theorem dev1_eq (c : Dev nD) : (⟨k0_dev1 c, k0_dev1_lt c⟩ : Dev nD) = sh c 1 := Fin.ext (k0_dev1_eq c)
theorem dev2_eq (c : Dev nD) : (⟨k0_dev2 c, k0_dev2_lt c⟩ : Dev nD) = sh c 2 := Fin.ext (k0_dev2_eq c)
theorem dev3_eq (c : Dev nD) : (⟨k0_dev3 c, k0_dev3_lt c⟩ : Dev nD) = sh c 3 := Fin.ext (k0_dev3_eq c)
theorem dev4_eq (c : Dev nD) : (⟨k0_dev4 c, k0_dev4_lt c⟩ : Dev nD) = sh c 2 := Fin.ext (k0_dev4_eq c)
theorem dev5_eq (c : Dev nD) : (⟨k0_dev5 c, k0_dev5_lt c⟩ : Dev nD) = sh c 1 := Fin.ext (k0_dev5_eq c)
theorem dev6_eq (c : Dev nD) : (⟨k0_dev6 c, k0_dev6_lt c⟩ : Dev nD) = sh c 3 := Fin.ext (k0_dev6_eq c)

/-! ## The memrefs and the cells -/

abbrev xM : Memref sig .tc .vmem S2x64x64x64 .f32 := Memref.whole cc0_stg0_0
abbrev wM : Memref sig .tc .vmem S64x128 .f32 := Memref.whole cc0_stg1_0
abbrev oM : Memref sig .tc .vmem S2x64x64x128 .f32 := Memref.whole cc0_stg2_0
abbrev scrM : Memref sig .tc .vmem S4x4x64 .f32 := Memref.whole cc0_scratch0

/-- Part `s` of the exchange buffer, as the kernel's copies name it. -/
abbrev part0M : Memref sig .tc .vmem S4x64 .f32 :=
  (scrM.slice (Rect.unit (s := S4x4x64) ![0, 0, 0] S1x4x64.size inb_S4x4x64_S1x4x64_0_0_0) (fun _ => rfl)).squeeze S4x64 squeezes_S1x4x64_S4x64
abbrev part1M : Memref sig .tc .vmem S4x64 .f32 :=
  (scrM.slice (Rect.unit (s := S4x4x64) ![1, 0, 0] S1x4x64.size inb_S4x4x64_S1x4x64_1_0_0) (fun _ => rfl)).squeeze S4x64 squeezes_S1x4x64_S4x64
abbrev part2M : Memref sig .tc .vmem S4x64 .f32 :=
  (scrM.slice (Rect.unit (s := S4x4x64) ![2, 0, 0] S1x4x64.size inb_S4x4x64_S1x4x64_2_0_0) (fun _ => rfl)).squeeze S4x64 squeezes_S1x4x64_S4x64
abbrev part3M : Memref sig .tc .vmem S4x64 .f32 :=
  (scrM.slice (Rect.unit (s := S4x4x64) ![3, 0, 0] S1x4x64.size inb_S4x4x64_S1x4x64_3_0_0) (fun _ => rfl)).squeeze S4x64 squeezes_S1x4x64_S4x64

abbrev barS : Sem sig := (SemArray.scalar (sig.barrier 0 rfl) : Sems sig S_).sem
abbrev snd0 : DmaSem sig := ((cc0_scratch1.slice (Rect.unit (s := S3) ![0] S1.size inb_S3_S1_0)).squeeze S_ squeezes_S1_S_ : DmaSems sig S_).sem
abbrev snd1 : DmaSem sig := ((cc0_scratch1.slice (Rect.unit (s := S3) ![1] S1.size inb_S3_S1_1)).squeeze S_ squeezes_S1_S_ : DmaSems sig S_).sem
abbrev snd2 : DmaSem sig := ((cc0_scratch1.slice (Rect.unit (s := S3) ![2] S1.size inb_S3_S1_2)).squeeze S_ squeezes_S1_S_ : DmaSems sig S_).sem
abbrev rcv0 : DmaSem sig := ((cc0_scratch2.slice (Rect.unit (s := S3) ![0] S1.size inb_S3_S1_0)).squeeze S_ squeezes_S1_S_ : DmaSems sig S_).sem
abbrev rcv1 : DmaSem sig := ((cc0_scratch2.slice (Rect.unit (s := S3) ![1] S1.size inb_S3_S1_1)).squeeze S_ squeezes_S1_S_ : DmaSems sig S_).sem
abbrev rcv2 : DmaSem sig := ((cc0_scratch2.slice (Rect.unit (s := S3) ![2] S1.size inb_S3_S1_2)).squeeze S_ squeezes_S1_S_ : DmaSems sig S_).sem

theorem snd0_val : snd0 = (3 : DmaSem sig) := by decide
theorem snd1_val : snd1 = (4 : DmaSem sig) := by decide
theorem snd2_val : snd2 = (5 : DmaSem sig) := by decide
theorem rcv0_val : rcv0 = (6 : DmaSem sig) := by decide
theorem rcv1_val : rcv1 = (7 : DmaSem sig) := by decide
theorem rcv2_val : rcv2 = (8 : DmaSem sig) := by decide

abbrev barCell (c : Dev nD) : GSem nD τ sig := ((c : Thread nD τ), .reg barS)
abbrev sndCell (c : Dev nD) (k : Fin 3) : GSem nD τ sig := ((c : Thread nD τ), .dma (![snd0, snd1, snd2] k))
abbrev rcvCell (c : Dev nD) (k : Fin 3) : GSem nD τ sig := ((c : Thread nD τ), .dma (![rcv0, rcv1, rcv2] k))

/-- The three parts of the exchange buffer a copy lands in, and part 0 it reads, as rectangles of the buffer. -/
abbrev rc0 : Rect S4x4x64 := Rect.unit (s := S4x4x64) ![0, 0, 0] S1x4x64.size inb_S4x4x64_S1x4x64_0_0_0
abbrev rc1 : Rect S4x4x64 := Rect.unit (s := S4x4x64) ![1, 0, 0] S1x4x64.size inb_S4x4x64_S1x4x64_1_0_0
abbrev rc2 : Rect S4x4x64 := Rect.unit (s := S4x4x64) ![2, 0, 0] S1x4x64.size inb_S4x4x64_S1x4x64_2_0_0
abbrev rc3 : Rect S4x4x64 := Rect.unit (s := S4x4x64) ![3, 0, 0] S1x4x64.size inb_S4x4x64_S1x4x64_3_0_0

/-- The indices of part `s`: first coordinate `s`. -/
def pset (s : ℕ) : Finset S4x4x64.Idx := Finset.univ.filter fun i => (i 0).val = s

theorem mem_pset {s : ℕ} {i : S4x4x64.Idx} : i ∈ pset s ↔ (i 0).val = s := by unfold pset; simp

theorem rc_set_aux (s : ℕ) (hs : s < 4) (inb) : (Rect.unit (s := S4x4x64) ![s, 0, 0] S1x4x64.size inb).set = pset s := by
  ext i
  rw [Rect.mem_set_unit, mem_pset]
  constructor
  · intro h; have := h 0; simp only [Matrix.cons_val_zero] at this; change s ≤ (i 0).val ∧ (i 0).val < s + 1 at this; omega
  · intro h a
    match a with
    | ⟨0, _⟩ => change s ≤ (i 0).val ∧ (i 0).val < s + 1; omega
    | ⟨1, _⟩ => change 0 ≤ (i 1).val ∧ (i 1).val < 0 + 4; have := (i 1).isLt; change (i 1).val < 4 at this; omega
    | ⟨2, _⟩ => change 0 ≤ (i 2).val ∧ (i 2).val < 0 + 64; have := (i 2).isLt; change (i 2).val < 64 at this; omega

theorem rc0_set : rc0.set = pset 0 := rc_set_aux 0 (by decide) _
theorem rc1_set : rc1.set = pset 1 := rc_set_aux 1 (by decide) _
theorem rc2_set : rc2.set = pset 2 := rc_set_aux 2 (by decide) _
theorem rc3_set : rc3.set = pset 3 := rc_set_aux 3 (by decide) _

theorem part0_set : (part0M : Memref sig .tc .vmem S4x64 .f32).view.set = pset 0 :=
  (View.set_reshape _ _).trans ((View.set_slice_whole cc0_scratch0 rc0).trans rc0_set)
theorem part1_set : (part1M : Memref sig .tc .vmem S4x64 .f32).view.set = pset 1 :=
  (View.set_reshape _ _).trans ((View.set_slice_whole cc0_scratch0 rc1).trans rc1_set)
theorem part2_set : (part2M : Memref sig .tc .vmem S4x64 .f32).view.set = pset 2 :=
  (View.set_reshape _ _).trans ((View.set_slice_whole cc0_scratch0 rc2).trans rc2_set)
theorem part3_set : (part3M : Memref sig .tc .vmem S4x64 .f32).view.set = pset 3 :=
  (View.set_reshape _ _).trans ((View.set_slice_whole cc0_scratch0 rc3).trans rc3_set)

theorem pset_disjoint {s s' : ℕ} (h : s ≠ s') : Disjoint (pset s) (pset s') := by
  rw [Finset.disjoint_left]; intro i hi hi'; rw [mem_pset] at hi hi'; omega

theorem pset_cover : pset 0 ∪ (pset 1 ∪ (pset 2 ∪ pset 3)) = Finset.univ := by
  ext i; simp only [Finset.mem_union, mem_pset, Finset.mem_univ, iff_true]
  have := (i 0).isLt; change (i 0).val < 4 at this; omega

/-! ## Contents -/

/-- Device `c`'s block of the input, as its staging buffer holds it. -/
def xstg (c : Dev nD) : (cc0_stg0_0 : Ref sig .tc).ty.Contents (Elt F) :=
  (win0_0.blk (0 : Fin 1)).view.read (Elt F) (m ((c : Thread nD τ).loc main_arg0))
/-- Device `c`'s copy of the weight, as its staging buffer holds it. -/
def wstg (c : Dev nD) : (cc0_stg1_0 : Ref sig .tc).ty.Contents (Elt F) :=
  (win0_1.blk (0 : Fin 1)).view.read (Elt F) (m ((c : Thread nD τ).loc main_arg1))

/-- What the exchange buffer of device `c` ends holding: part `s` is the statistics of device `c + s`. -/
def G (c : Dev nD) : (cc0_scratch0 : Ref sig .tc).ty.Contents (Elt F) := fun i =>
  k0_pay2 (F := F) (xstg m (sh c (i 0).val)) (ValueIdx.ix3 (0 : Fin 1) (i 1) (i 2))

/-! ## The schedule -/

/-- Part `s` of device `c`'s exchange buffer at share `q`, holding `f` there. -/
def partPts (c : Dev nD) (s : ℕ) (q : PosShare TreeShare) (f : Buf (Elt F) ((c : Thread nD τ).loc cc0_scratch0)) : sProp 𝕄 :=
  ((c : Thread nD τ).loc cc0_scratch0) ↦[pset s]{q} f

omit [FloatOps F] in
instance partPts_storable (c : Dev nD) (s : ℕ) (q) (f) : BI.Storable (upEmb : UEmb _ 𝕄) (partPts (F := F) c s q f) := by unfold partPts; infer_instance

/-- The share of part 0 each of the three copies reads. -/
def shr : Fin 3 → PosShare TreeShare := ![fullShare.left, fullShare.right.left, fullShare.right.right]

abbrev N : ℕ := (part1M : Memref sig .tc .vmem S4x64 .f32).view.dmaCredit
theorem N_pos : 0 < N := View.dmaCredit_pos _ (by decide)

def rcvIx (sm : SemLoc sig) : Option (Fin 3) :=
  if sm = .dma rcv0 then some 0 else if sm = .dma rcv1 then some 1 else if sm = .dma rcv2 then some 2 else none
def sndIx (sm : SemLoc sig) : Option (Fin 3) :=
  if sm = .dma snd0 then some 0 else if sm = .dma snd1 then some 1 else if sm = .dma snd2 then some 2 else none

theorem rcvIx_rcv (k : Fin 3) : rcvIx (.dma (![rcv0, rcv1, rcv2] k)) = some k := by fin_cases k <;> decide
theorem sndIx_snd (k : Fin 3) : sndIx (.dma (![snd0, snd1, snd2] k)) = some k := by fin_cases k <;> decide
theorem rcvIx_snd (k : Fin 3) : rcvIx (.dma (![snd0, snd1, snd2] k)) = none := by fin_cases k <;> decide
theorem rcvIx_bar : rcvIx (.reg barS) = none := by decide
theorem sndIx_bar : sndIx (.reg barS) = none := by decide
theorem dma_ne_bar (q : DmaSem sig) : (SemLoc.dma q : SemLoc sig) ≠ .reg barS := fun h => by cases h

/-- What the signal of device `c + (3 - d)` hands `c`: that device's part `d + 1`, and that its arrival cell `d` is at its round. -/
def barPay (c : Dev nD) (d : Fin 3) : sProp 𝕄 :=
  iprop((∃ f, partPts (sh c (3 - d.val)) (d.val + 1) fullShare f) ∗ reached ER (rcvCell (sh c (3 - d.val)) d) 0)
/-- What a landing in part `j + 1` hands `c`: the part, holding the sender's statistics. -/
def rcvPay (c : Dev nD) (j : Fin 3) : sProp 𝕄 := partPts c (j.val + 1) fullShare (G m c)
/-- What the departure of copy `k` hands back: the share of part 0 it was reading. -/
def sndPay (c : Dev nD) (k : Fin 3) : sProp 𝕄 := partPts c 0 (shr k) (G m c)

abbrev IsBar (g : GSem nD τ sig) : Prop := g.1.2 = .tc ∧ g.2 = .reg barS
abbrev IsXfer (g : GSem nD τ sig) : Prop := g.1.2 = .tc ∧ ((rcvIx g.2).isSome = true ∨ (sndIx g.2).isSome = true)

/-- One round, round 0: an entry cell has three duties of one unit each; a departure or arrival cell the one duty `0`
    of a part's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match rcvIx g.2 with
      | some j => rcvPay m g.1.1 j
      | none => match sndIx g.2 with
        | some k => sndPay m g.1.1 k
        | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m).payload g r d) := by
  show BI.Storable upEmb (if g.2 = .reg barS then barPay g.1.1 d
    else match rcvIx g.2 with
      | some j => rcvPay m g.1.1 j
      | none => match sndIx g.2 with
        | some k => sndPay m g.1.1 k
        | none => iprop(emp))
  unfold barPay rcvPay sndPay
  (repeat' split) <;> infer_instance

section Sched
variable (c : Dev nD) (k : Fin 3)

theorem duties_bar : (Rd (F := F) m).duties (barCell c) 0 = Finset.univ := by dsimp only [Rd]; exact if_pos ⟨rfl, rfl, rfl⟩
theorem duties_snd : (Rd (F := F) m).duties (sndCell c k) 0 = {0} := by
  dsimp only [Rd]; rw [if_neg (fun h => dma_ne_bar _ h.2.2)]; exact if_pos ⟨rfl, rfl, .inr (by rw [sndIx_snd]; rfl)⟩
theorem duties_rcv : (Rd (F := F) m).duties (rcvCell c k) 0 = {0} := by
  dsimp only [Rd]; rw [if_neg (fun h => dma_ne_bar _ h.2.2)]; exact if_pos ⟨rfl, rfl, .inl (by rw [rcvIx_rcv]; rfl)⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 3) : (Rd (F := F) m).amount (barCell c) 0 d = 1 := by dsimp only [Rd]; exact if_pos rfl
theorem amount_snd (d : Fin 3) : (Rd (F := F) m).amount (sndCell c k) 0 d = N := by dsimp only [Rd]; exact if_neg (dma_ne_bar _)
theorem amount_rcv (d : Fin 3) : (Rd (F := F) m).amount (rcvCell c k) 0 d = N := by dsimp only [Rd]; exact if_neg (dma_ne_bar _)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_snd : (Rd (F := F) m).expect (sndCell c k) 0 = N := by
  unfold Schedule.expect Schedule.amountOf; rw [duties_snd, Finset.sum_singleton, amount_snd]
theorem expect_rcv : (Rd (F := F) m).expect (rcvCell c k) 0 = N := by
  unfold Schedule.expect Schedule.amountOf; rw [duties_rcv, Finset.sum_singleton, amount_rcv]

theorem payload_bar (d : Fin 3) : (Rd (F := F) m).payload (barCell c) 0 d = barPay c d := by dsimp only [Rd]; rw [if_pos rfl]
theorem payload_snd (d : Fin 3) : (Rd (F := F) m).payload (sndCell c k) 0 d = sndPay m c k := by
  dsimp only [Rd]; rw [if_neg (dma_ne_bar _)]; simp only [rcvIx_snd, sndIx_snd]
theorem payload_rcv (d : Fin 3) : (Rd (F := F) m).payload (rcvCell c k) 0 d = rcvPay m c k := by
  dsimp only [Rd]; rw [if_neg (dma_ne_bar _)]; simp only [rcvIx_rcv]

/-- The rest of the entry cell's round, no duty taken: the three peers' parts. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_snd : bigSep ((Rd (F := F) m).duties (sndCell c k) 0 \ ∅) (fun d => (Rd (F := F) m).payload (sndCell c k) 0 d) = sndPay m c k := by
  rw [Finset.sdiff_empty, duties_snd, bigSep_singleton, payload_snd]
theorem rest_rcv : bigSep ((Rd (F := F) m).duties (rcvCell c k) 0 \ ∅) (fun d => (Rd (F := F) m).payload (rcvCell c k) 0 d) = rcvPay m c k := by
  rw [Finset.sdiff_empty, duties_rcv, bigSep_singleton, payload_rcv]

end Sched

end Cert.Kernel.Proto

end
-- ==== Proof.WData.lean ====
/-
  What each device owes at launch, the levels that order the waits, and the proof data of the one grid point:
  what every window's staging buffer holds after the body, and the exchange's ghost state before and after it.
-/
import proofs.«900350_g7700000000000351_dist_diff_noisepred_hshard_i_b2_h64_w64_c64_v7x_i4_f32_1_alg».proof.Proof.WProto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch: the three landings, then the three signals, peeled from the right -/

def Oc (c : Dev nD) : CellTallies nD τ sig Unit := tallyAt (rcvCell (sh c 3) 0) () N
def Ob (c : Dev nD) : CellTallies nD τ sig Unit := Oc c + tallyAt (rcvCell (sh c 1) 2) () N
def Oa (c : Dev nD) : CellTallies nD τ sig Unit := Ob c + tallyAt (rcvCell (sh c 2) 1) () N
def O3 (c : Dev nD) : CellTallies nD τ sig Unit := Oa c + tallyAt (barCell (sh c 3)) () 1
def O2 (c : Dev nD) : CellTallies nD τ sig Unit := O3 c + tallyAt (barCell (sh c 2)) () 1
def O₀ (c : Dev nD) : CellTallies nD τ sig Unit := O2 c + tallyAt (barCell (sh c 1)) () 1

def L (g : GSem nD τ sig) : Finset Unit := if g.1.2 = .tc then {()} else ∅
/-- Entry cells at 1, arrival cells at 2, everything else (staging, departure) at 0. -/
def lv (g : GSem nD τ sig) (_ : Unit) : ℕ := if g.2 = .reg barS then 1 else if (rcvIx g.2).isSome = true then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_rcv (c : Dev nD) (k : Fin 3) (u : Unit) : lv (rcvCell c k) u = 2 := by
  dsimp only [lv]; rw [if_neg (dma_ne_bar _), if_pos (by rw [rcvIx_rcv]; rfl)]

theorem Oa_pos {c : Dev nD} {g : GSem nD τ sig} {u : Unit} (h : 0 < Oa c g u) :
    g = rcvCell (sh c 3) 0 ∨ g = rcvCell (sh c 1) 2 ∨ g = rcvCell (sh c 2) 1 := by
  unfold Oa Ob Oc at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem O₀_pos {c : Dev nD} {g : GSem nD τ sig} {u : Unit} (h : 0 < O₀ c g u) :
    (g = rcvCell (sh c 3) 0 ∨ g = rcvCell (sh c 1) 2 ∨ g = rcvCell (sh c 2) 1) ∨ g = barCell (sh c 3) ∨ g = barCell (sh c 2) ∨ g = barCell (sh c 1) := by
  unfold O₀ O2 O3 at h
  rw [Pi.add_apply, Finsupp.add_apply, Pi.add_apply, Finsupp.add_apply, Pi.add_apply, Finsupp.add_apply, tallyAt_apply, tallyAt_apply, tallyAt_apply] at h
  by_contra hn
  simp only [not_or] at hn
  rw [if_neg (fun h' => hn.2.1 h'.1), if_neg (fun h' => hn.2.2.1 h'.1), if_neg (fun h' => hn.2.2.2 h'.1)] at h
  rcases Oa_pos h with h1 | h1 | h1
  · exact hn.1.1 h1
  · exact hn.1.2.1 h1
  · exact hn.1.2.2 h1

omit [FloatOps F] in
theorem mayWait_stage (c : Dev nD) (q : DmaSem sig) (hq : rcvIx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with (rfl | rfl | rfl) | rfl | rfl | rfl <;> exact Finset.mem_singleton_self _)
      (fun p hp => by rw [Finset.mem_singleton.mp hp]; dsimp only [lv]; rw [if_neg (fun h => by cases h), hq]; decide)
      (fun g u hg => by
        rcases O₀_pos hg with (rfl | rfl | rfl) | rfl | rfl | rfl
        · rw [lv_rcv]; decide
        · rw [lv_rcv]; decide
        · rw [lv_rcv]; decide
        · rw [lv_bar]; decide
        · rw [lv_bar]; decide
        · rw [lv_bar]; decide)
  · rw [MayWait_zero]; iintro -; iempintro

omit [FloatOps F] in
/-- At its entry wait a device owes the three landings only: arrival cells, above its entry cell. -/
theorem mayWait_bar (c : Dev nD) :
    (levAts L lv : sProp 𝕄) ⊢ MayWait (c : Thread nD τ) (.reg barS) () (Oa c) :=
  MayOwe.of_cut (L := L) (lev := lv) 1 (fun p hp => by rw [Finset.mem_singleton.mp hp, L_tc]; exact Finset.mem_singleton_self _)
    (fun g u hg => by rcases Oa_pos hg with rfl | rfl | rfl <;> exact Finset.mem_singleton_self _)
    (fun p hp => by rw [Finset.mem_singleton.mp hp]; exact (lv_bar c ()).le)
    (fun g u hg => by rcases Oa_pos hg with rfl | rfl | rfl <;> (rw [lv_rcv]; decide))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The statistics of the device `s` places after `c`, as the exchange buffer's part `s` is loaded. -/
def st (c : Dev nD) (s : ℕ) : FVec F S1x4x64 .f32 := k0_pay2 (F := F) (xstg m (sh c s))

/-- The kernel's result on device `c`. -/
def outAt (c : Dev nD) : (cc0_stg2_0 : Ref sig .tc).ty.Contents (Elt F) :=
  k0_pay3 (F := F) (k0_pay1 (F := F) (xstg m c)) (st m c 0) (st m c 1) (st m c 2) (st m c 3) (wstg m c)

/-- The cells' invariants device `c`'s body opens, under the names `K` the launch allocated them at: its own seven, the
    three peers' entry cells (its signals) and the three arrival cells its copies pay. Cells of a device are numbered
    0 (entry), 1–3 (departure), 4–6 (arrival). -/
def invs (K : Dev nD × Fin 7 → ℕ) (c : Dev nD) : sProp 𝕄 :=
  iprop(cellInv ER (Rd m) (K (c, 0)) (barCell c)
    ∗ cellInv ER (Rd m) (K (c, 1)) (sndCell c 0) ∗ cellInv ER (Rd m) (K (c, 2)) (sndCell c 1) ∗ cellInv ER (Rd m) (K (c, 3)) (sndCell c 2)
    ∗ cellInv ER (Rd m) (K (c, 4)) (rcvCell c 0) ∗ cellInv ER (Rd m) (K (c, 5)) (rcvCell c 1) ∗ cellInv ER (Rd m) (K (c, 6)) (rcvCell c 2)
    ∗ cellInv ER (Rd m) (K (sh c 1, 0)) (barCell (sh c 1)) ∗ cellInv ER (Rd m) (K (sh c 2, 0)) (barCell (sh c 2)) ∗ cellInv ER (Rd m) (K (sh c 3, 0)) (barCell (sh c 3))
    ∗ cellInv ER (Rd m) (K (sh c 2, 5)) (rcvCell (sh c 2) 1) ∗ cellInv ER (Rd m) (K (sh c 1, 6)) (rcvCell (sh c 1) 2) ∗ cellInv ER (Rd m) (K (sh c 3, 4)) (rcvCell (sh c 3) 0))

instance invs_persistent (K : Dev nD × Fin 7 → ℕ) (c : Dev nD) : BI.Persistent (invs m K c) := by unfold invs; infer_instance

/-- The rounds a device knows reached: of the cells it pays, and of its own departure and arrival cells. -/
def reaches (c : Dev nD) : sProp 𝕄 :=
  iprop(reached ER (barCell (sh c 1)) 0 ∗ reached ER (barCell (sh c 2)) 0 ∗ reached ER (barCell (sh c 3)) 0
    ∗ reached ER (rcvCell (sh c 2) 1) 0 ∗ reached ER (rcvCell (sh c 1) 2) 0 ∗ reached ER (rcvCell (sh c 3) 0) 0
    ∗ reached ER (sndCell c 0) 0 ∗ reached ER (sndCell c 1) 0 ∗ reached ER (sndCell c 2) 0
    ∗ reached ER (rcvCell c 0) 0 ∗ reached ER (rcvCell c 1) 0 ∗ reached ER (rcvCell c 2) 0)

instance reaches_persistent (c : Dev nD) : BI.Persistent (reaches (F := F) c) := by unfold reaches; infer_instance

/-- A device's positions: round 0 of its seven cells, nothing taken. -/
def poss (c : Dev nD) : sProp 𝕄 :=
  iprop(atPos ER (barCell c) 0 ∅ 0
    ∗ atPos ER (sndCell c 0) 0 ∅ 0 ∗ atPos ER (sndCell c 1) 0 ∅ 0 ∗ atPos ER (sndCell c 2) 0 ∅ 0
    ∗ atPos ER (rcvCell c 0) 0 ∅ 0 ∗ atPos ER (rcvCell c 1) 0 ∅ 0 ∗ atPos ER (rcvCell c 2) 0 ∅ 0)

/-- The tokens of the nine duties a device pays: the three signals, the three landings, its own three departures. -/
def payToks (c : Dev nD) : sProp 𝕄 :=
  iprop(dutyTok ER (barCell (sh c 1)) 0 (0 : Fin 3) ∗ dutyTok ER (barCell (sh c 2)) 0 (1 : Fin 3) ∗ dutyTok ER (barCell (sh c 3)) 0 (2 : Fin 3)
    ∗ dutyTok ER (rcvCell (sh c 2) 1) 0 (0 : Fin 3) ∗ dutyTok ER (rcvCell (sh c 1) 2) 0 (0 : Fin 3) ∗ dutyTok ER (rcvCell (sh c 3) 0) 0 (0 : Fin 3)
    ∗ dutyTok ER (sndCell c 0) 0 (0 : Fin 3) ∗ dutyTok ER (sndCell c 1) 0 (0 : Fin 3) ∗ dutyTok ER (sndCell c 2) 0 (0 : Fin 3))

/-- The exchange's ghost state device `c` starts from. -/
def ghost (K : Dev nD × Fin 7 → ℕ) (c : Dev nD) : sProp 𝕄 :=
  iprop(invs m K c ∗ reaches c ∗ poss c ∗ payToks c)

/-- What device `c`'s body starts from: that at some names, its credit tokens (its entry cell's three units, its three
    arrival cells' credits) and the level facts. -/
def start (c : Dev nD) : sProp 𝕄 :=
  iprop((∃ K, ghost m K c) ∗ cred (tallyAt (barCell c) () 3)
    ∗ cred (tallyAt (rcvCell c 0) () N) ∗ cred (tallyAt (rcvCell c 1) () N) ∗ cred (tallyAt (rcvCell c 2) () N) ∗ levAts L lv)

def Φ₀ (c : Dev nD) : sProp 𝕄 := iprop(start m c ∗ ∃ f, ((c : Thread nD τ).loc cc0_scratch0) ↦{fullShare} f)
/-- After the point: the exchange buffer holding the four devices' statistics, the six own cells at zero, closed. -/
def Φ₁ (c : Dev nD) : sProp 𝕄 :=
  iprop((((c : Thread nD τ).loc cc0_scratch0) ↦{fullShare} G m c)
    ∗ semVal (sndCell c 0) 0 ∗ semVal (sndCell c 1) 0 ∗ semVal (sndCell c 2) 0
    ∗ semVal (rcvCell c 0) 0 ∗ semVal (rcvCell c 1) 0 ∗ semVal (rcvCell c 2) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Proto

end
-- ==== Proof.WParts.lean ====
/-
  The exchange buffer by parts: splitting and rejoining its ownership, and what its loads, the local store and the
  landings of the peers' copies read and write, against the one function `G c`.
-/
import proofs.«900350_g7700000000000351_dist_diff_noisepred_hshard_i_b2_h64_w64_c64_v7x_i4_f32_1_alg».proof.Proof.WData

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

/-! ## Ownership by parts -/

omit [FloatOps F] in
/-- Ownership of a part only depends on the contents there. -/
theorem partPts_congr (c : Dev nD) (s : ℕ) (q : PosShare TreeShare) {f g : Buf (Elt F) ((c : Thread nD τ).loc cc0_scratch0)}
    (h : ∀ i ∈ pset s, f i = g i) : partPts (F := F) c s q f = partPts c s q g := by
  unfold partPts; exact BI.Region.is_congr h

omit [FloatOps F] in
/-- The whole buffer is its four parts. -/
theorem scr_split (c : Dev nD) (q : PosShare TreeShare) (f : Buf (Elt F) ((c : Thread nD τ).loc cc0_scratch0)) :
    ((((c : Thread nD τ).loc cc0_scratch0) ↦{q} f : sProp 𝕄)) ⊣⊢ iprop(partPts c 0 q f ∗ partPts c 1 q f ∗ partPts c 2 q f ∗ partPts c 3 q f) := by
  unfold partPts
  have h23 : Disjoint (pset 2) (pset 3) := pset_disjoint (by decide)
  have h1 : Disjoint (pset 1) (pset 2 ∪ pset 3) := Finset.disjoint_union_right.mpr ⟨pset_disjoint (by decide), pset_disjoint (by decide)⟩
  have h0 : Disjoint (pset 0) (pset 1 ∪ (pset 2 ∪ pset 3)) :=
    Finset.disjoint_union_right.mpr ⟨pset_disjoint (by decide), Finset.disjoint_union_right.mpr ⟨pset_disjoint (by decide), pset_disjoint (by decide)⟩⟩
  have e0 := pointsTo_union (Val := Elt F) (Ix := Unit) (Name := ℕ) (U := UU) (Lvl := ℕ) (ℓ := (c : Thread nD τ).loc cc0_scratch0) (q := q) (f := f) h0
  have e1 := pointsTo_union (Val := Elt F) (Ix := Unit) (Name := ℕ) (U := UU) (Lvl := ℕ) (ℓ := (c : Thread nD τ).loc cc0_scratch0) (q := q) (f := f) h1
  have e2 := pointsTo_union (Val := Elt F) (Ix := Unit) (Name := ℕ) (U := UU) (Lvl := ℕ) (ℓ := (c : Thread nD τ).loc cc0_scratch0) (q := q) (f := f) h23
  rw [pset_cover] at e0
  constructor
  · refine e0.1.trans (sep_mono_right (e1.1.trans (sep_mono_right e2.1)))
  · exact (sep_mono_right ((sep_mono_right e2.2).trans e1.2)).trans e0.2

/-! ## Reads and writes -/

omit [FloatOps F] in
theorem hz4 : (![0, 0, 0, 0] : Fin 4 → Nat) = fun _ => 0 := funext fun a => by fin_cases a <;> rfl
omit [FloatOps F] in
theorem hz2 : (![0, 0] : Fin 2 → Nat) = fun _ => 0 := funext fun a => by fin_cases a <;> rfl

abbrev rx : Rect S2x64x64x64 := Rect.unit (s := S2x64x64x64) ![0, 0, 0, 0] S2x64x64x64.size inb_S2x64x64x64_S2x64x64x64_0_0_0_0
abbrev rw_ : Rect S64x128 := Rect.unit (s := S64x128) ![0, 0] S64x128.size inb_S64x128_S64x128_0_0
abbrev ro : Rect S2x64x64x128 := Rect.unit (s := S2x64x64x128) ![0, 0, 0, 0] S2x64x64x128.size inb_S2x64x64x128_S2x64x64x128_0_0_0_0

omit [FloatOps F] in
theorem read_x (f : (cc0_stg0_0 : Ref sig .tc).ty.Contents (Elt F)) : (xM : Memref sig .tc .vmem S2x64x64x64 .f32).view.readAt (Elt F) rx.toLoadRect f = f :=
  Memref.readAt_unit_zero (Elt F) cc0_stg0_0 hz4 _ f
omit [FloatOps F] in
theorem read_w (f : (cc0_stg1_0 : Ref sig .tc).ty.Contents (Elt F)) : (wM : Memref sig .tc .vmem S64x128 .f32).view.readAt (Elt F) rw_.toLoadRect f = f :=
  Memref.readAt_unit_zero (Elt F) cc0_stg1_0 hz2 _ f
omit [FloatOps F] in
theorem write_out (f w : (cc0_stg2_0 : Ref sig .tc).ty.Contents (Elt F)) :
    ((oM : Memref sig .tc .vmem S2x64x64x128 .f32).access ro : View sig .tc _ _ _).write (Elt F) f w Finset.univ = w :=
  Memref.write_access_unit_zero_univ (Elt F) cc0_stg2_0 hz4 _ f w

/-- A load of part `s` of a buffer holding `G c` reads the statistics of device `c + s`. -/
theorem read_part_aux (c : Dev nD) (s : ℕ) (hs : s < 4) (inb) :
    (scrM : Memref sig .tc .vmem S4x4x64 .f32).view.readAt (Elt F) (Rect.unit (s := S4x4x64) ![s, 0, 0] S1x4x64.size inb).toLoadRect (G m c) = st m c s := by
  funext i
  rw [View.readAt_apply, View.read_apply]
  show G m c (scrM.view.emb ((Rect.unit (s := S4x4x64) ![s, 0, 0] S1x4x64.size inb).idx i)) = _
  have key : ∀ (a : ℕ) (j : S1x4x64.Idx), a = s → j = i →
      k0_pay2 (F := F) (xstg m (sh c a)) j = k0_pay2 (F := F) (xstg m (sh c s)) i := by
    intro a j ha hj; subst ha hj; rfl
  unfold G st
  refine key _ _ ?_ ?_
  · show s + 1 * (i 0).val = s
    have := (i 0).isLt; change (i 0).val < 1 at this; omega
  · funext a
    match a with
    | ⟨0, _⟩ => apply Fin.ext; show 0 = (i 0).val; have := (i 0).isLt; change (i 0).val < 1 at this; omega
    | ⟨1, _⟩ => apply Fin.ext; show 0 + 1 * (i 1).val = (i 1).val; omega
    | ⟨2, _⟩ => apply Fin.ext; show 0 + 1 * (i 2).val = (i 2).val; omega

/-- `G c` under an index of part `s`. -/
theorem G_emb (c : Dev nD) (s : ℕ) (inb) (i : S1x4x64.Idx) :
    G m c ((Rect.unit (s := S4x4x64) ![s, 0, 0] S1x4x64.size inb).emb i) = k0_pay2 (F := F) (xstg m (sh c s)) i := by
  have key : ∀ (a : ℕ) (j : S1x4x64.Idx), a = s → j = i →
      k0_pay2 (F := F) (xstg m (sh c a)) j = k0_pay2 (F := F) (xstg m (sh c s)) i := by
    intro a j ha hj; subst ha hj; rfl
  unfold G
  refine key _ _ ?_ ?_
  · show s + 1 * (i 0).val = s
    have := (i 0).isLt; change (i 0).val < 1 at this; omega
  · funext a
    match a with
    | ⟨0, _⟩ => apply Fin.ext; show 0 = (i 0).val; have := (i 0).isLt; change (i 0).val < 1 at this; omega
    | ⟨1, _⟩ => apply Fin.ext; show 0 + 1 * (i 1).val = (i 1).val; omega
    | ⟨2, _⟩ => apply Fin.ext; show 0 + 1 * (i 2).val = (i 2).val; omega

/-- Entry `(a, b)` of a part seen as a `[4, 64]` array is entry `(0, a, b)` of the part. -/
def p3 (y : S4x64.Idx) : S1x4x64.Idx :=
  ValueIdx.ix3 (0 : Fin 1) (⟨(y 0).val, (y 0).isLt⟩ : Fin 4) (⟨(y 1).val, (y 1).isLt⟩ : Fin 64)

omit [FloatOps F] in
theorem reshape_idx (h : S4x64.numel = S1x4x64.numel) (y : S4x64.Idx) :
    Shape.reshapeEquiv h y = p3 y := by
  apply S1x4x64.rowMajor.injective
  apply Fin.ext
  rw [Shape.rowMajor_reshapeEquiv, Shape.rowMajor_val_two, Shape.rowMajor_val_three]
  show (y 0).val * 64 + (y 1).val = ((0 * 4) + (y 0).val) * 64 + (y 1).val
  omega

/-- `G c` under an index of part `s` seen as a `[4, 64]` array. -/
theorem G_part (c : Dev nD) (s : ℕ) (inb) (hr) (y : S4x64.Idx) :
    G m c ((((scrM : Memref sig .tc .vmem S4x4x64 .f32).slice (Rect.unit (s := S4x4x64) ![s, 0, 0] S1x4x64.size inb) hr).squeeze S4x64 squeezes_S1x4x64_S4x64).view.emb y)
      = k0_pay2 (F := F) (xstg m (sh c s)) (p3 y) := by
  show G m c ((Rect.unit (s := S4x4x64) ![s, 0, 0] S1x4x64.size inb).emb (Shape.reshapeEquiv _ y)) = _
  rw [reshape_idx, G_emb]

theorem read_part0 (c : Dev nD) : (scrM : Memref sig .tc .vmem S4x4x64 .f32).view.readAt (Elt F) rc0.toLoadRect (G m c) = st m c 0 := read_part_aux m c 0 (by decide) _
theorem read_part1 (c : Dev nD) : (scrM : Memref sig .tc .vmem S4x4x64 .f32).view.readAt (Elt F) rc1.toLoadRect (G m c) = st m c 1 := read_part_aux m c 1 (by decide) _
theorem read_part2 (c : Dev nD) : (scrM : Memref sig .tc .vmem S4x4x64 .f32).view.readAt (Elt F) rc2.toLoadRect (G m c) = st m c 2 := read_part_aux m c 2 (by decide) _
theorem read_part3 (c : Dev nD) : (scrM : Memref sig .tc .vmem S4x4x64 .f32).view.readAt (Elt F) rc3.toLoadRect (G m c) = st m c 3 := read_part_aux m c 3 (by decide) _

/-- The local store of a device's own statistics into part 0 makes part 0 what `G c` says. -/
theorem store_part0 (c : Dev nD) (f : Buf (Elt F) ((c : Thread nD τ).loc cc0_scratch0)) (x : (cc0_stg0_0 : Ref sig .tc).ty.Contents (Elt F)) (hx : x = xstg m c) :
    ∀ i ∈ pset 0, ((scrM : Memref sig .tc .vmem S4x4x64 .f32).access rc0 : View sig .tc _ _ _).write (Elt F) f (k0_pay2 (F := F) x) Finset.univ i = G m c i := by
  intro i hi
  subst hx
  have hmem : i ∈ ((scrM : Memref sig .tc .vmem S4x4x64 .f32).access rc0 : View sig .tc _ _ _).set := by
    rw [View.set_slice_whole, rc0_set]; exact hi
  obtain ⟨y, -, rfl⟩ := Finset.mem_map.mp hmem
  rw [View.write_emb_of_mem _ _ (Finset.mem_univ y)]
  show k0_pay2 (F := F) (xstg m c) y = G m c (rc0.emb y)
  rw [G_emb m c 0 _ y, sh_zero]

/-- A copy of device `c`'s part 0 landing in part `s` of the device `e` with `e + s = c` makes that part what `G e` says. -/
theorem land_part_aux (c e : Dev nD) (s : ℕ) (hes : sh e s = c) (inb) (hr) (fd : Buf (Elt F) ((e : Thread nD τ).loc cc0_scratch0)) :
    ∀ i ∈ pset s, (((scrM : Memref sig .tc .vmem S4x4x64 .f32).slice (Rect.unit (s := S4x4x64) ![s, 0, 0] S1x4x64.size inb) hr).squeeze S4x64 squeezes_S1x4x64_S4x64).view.write (Elt F) fd
        ((part0M : Memref sig .tc .vmem S4x64 .f32).view.read (Elt F) (G m c)) Finset.univ i = G m e i := by
  intro i hi
  have hmem : i ∈ (((scrM : Memref sig .tc .vmem S4x4x64 .f32).slice (Rect.unit (s := S4x4x64) ![s, 0, 0] S1x4x64.size inb) hr).squeeze S4x64 squeezes_S1x4x64_S4x64).view.set := by
    have hs4 : s < 4 := by rw [mem_pset] at hi; have := (i 0).isLt; change (i 0).val < 4 at this; omega
    have hset : (((scrM : Memref sig .tc .vmem S4x4x64 .f32).slice (Rect.unit (s := S4x4x64) ![s, 0, 0] S1x4x64.size inb) hr).squeeze S4x64 squeezes_S1x4x64_S4x64).view.set = pset s :=
      (View.set_reshape _ _).trans ((View.set_slice_whole cc0_scratch0 _).trans (rc_set_aux s hs4 inb))
    rw [hset]; exact hi
  obtain ⟨y, -, rfl⟩ := Finset.mem_map.mp hmem
  rw [View.write_emb_of_mem _ _ (Finset.mem_univ y), View.read_apply]
  show G m c ((part0M : Memref sig .tc .vmem S4x64 .f32).view.emb y) = G m e _
  rw [G_part m c 0, G_part m e s, hes, sh_zero]

end Cert.Kernel.Proto

end
-- ==== Proof.WSend.lean ====
/-
  The three copies of a device's statistics to its peers, each as one rule over the schedule's cells.
-/
import proofs.«900350_g7700000000000351_dist_diff_noisepred_hshard_i_b2_h64_w64_c64_v7x_i4_f32_1_alg».proof.Proof.WParts

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

variable (K : Dev nD × Fin 7 → ℕ)

omit [FloatOps F] in
theorem part0_pts (c : Dev nD) (q : PosShare TreeShare) (f : Buf (Elt F) ((c : Thread nD τ).loc cc0_scratch0)) :
    ((part0M : Memref sig .tc .vmem S4x64 .f32).view.loc (c : Thread nD τ) ↦[(part0M : Memref sig .tc .vmem S4x64 .f32).view.set]{q} f : sProp 𝕄) = partPts c 0 q f := by
  unfold partPts; rw [part0_set]
omit [FloatOps F] in
theorem part1_pts (c : Dev nD) (q : PosShare TreeShare) (f : Buf (Elt F) ((c : Thread nD τ).loc cc0_scratch0)) :
    ((part1M : Memref sig .tc .vmem S4x64 .f32).view.loc (c : Thread nD τ) ↦[(part1M : Memref sig .tc .vmem S4x64 .f32).view.set]{q} f : sProp 𝕄) = partPts c 1 q f := by
  unfold partPts; rw [part1_set]
omit [FloatOps F] in
theorem part2_pts (c : Dev nD) (q : PosShare TreeShare) (f : Buf (Elt F) ((c : Thread nD τ).loc cc0_scratch0)) :
    ((part2M : Memref sig .tc .vmem S4x64 .f32).view.loc (c : Thread nD τ) ↦[(part2M : Memref sig .tc .vmem S4x64 .f32).view.set]{q} f : sProp 𝕄) = partPts c 2 q f := by
  unfold partPts; rw [part2_set]
omit [FloatOps F] in
theorem part3_pts (c : Dev nD) (q : PosShare TreeShare) (f : Buf (Elt F) ((c : Thread nD τ).loc cc0_scratch0)) :
    ((part3M : Memref sig .tc .vmem S4x64 .f32).view.loc (c : Thread nD τ) ↦[(part3M : Memref sig .tc .vmem S4x64 .f32).view.set]{q} f : sProp 𝕄) = partPts c 3 q f := by
  unfold partPts; rw [part3_set]

/-- The copy to the device `c + 2`: part 0 of `c` lands in part 2 there, paying that device's arrival cell 1 and `c`'s
    departure cell 1. -/
theorem wp_send_A (c n : Dev nD) (hn : n = sh c 2)
    {hsc : (part2M : Memref sig (Dev.tc n : Thread nD τ).2.kind .vmem S4x64 .f32).view.ref.isScScratch = false}
    {hsrc : (part0M : Memref sig .tc .vmem S4x64 .f32).view.WordExact} {hdst : (part2M : Memref sig .tc .vmem S4x64 .f32).view.WordExact}
    {hsem : DmaTarget.Typed .vmem (.dma rcv1) (.remote (Dev.tc n : Thread nD τ) (part2M : Memref sig .tc .vmem S4x64 .f32) (.dma snd1) hsc)}
    {α : Type} {Q : α → sProp 𝕄} {k : PUnit → Prog (TpuEff nD τ sig (Elt F) Λ₀ .tc) α}
    (fn : Buf (Elt F) ((sh c 2 : Thread nD τ).loc cc0_scratch0)) (W : Waits sig Unit) :
    iprop(cellInv ER (Rd m) (K (c, 2)) (sndCell c 1) ∗ cellInv ER (Rd m) (K (sh c 2, 5)) (rcvCell (sh c 2) 1)
        ∗ partPts c 0 (shr 1) (G m c) ∗ partPts (sh c 2) 2 fullShare fn
        ∗ owes (c : Thread nD τ) (Oa c) W
        ∗ dutyTok ER (sndCell c 1) 0 (0 : Fin 3) ∗ reached ER (sndCell c 1) 0
        ∗ dutyTok ER (rcvCell (sh c 2) 1) 0 (0 : Fin 3) ∗ reached ER (rcvCell (sh c 2) 1) 0)
      ⊢ iprop(((cred (tallyAt (sndCell c 1) () N) ∗ owes (c : Thread nD τ) (Ob c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma part0M (.remote (Dev.tc n : Thread nD τ) part2M (.dma snd1) hsc) (.dma rcv1) hsrc hdst hsem) k) Q) := by
  subst hn
  rw [← part0_pts, ← part2_pts]
  exact Rounds.wp_send_pointsTo 𝒱₀ ER (Rd m) (c : Thread nD τ) none (κ₁ := K (c, 2)) (κ₂ := K (sh c 2, 5))
    (c' := (sh c 2 : Thread nD τ)) (src := part0M) (dst := part2M) (sS := .dma snd1) (sem := .dma rcv1)
    (r₁ := 0) (r₂ := 0) (d₁ := (0 : Fin 3)) (d₂ := (0 : Fin 3)) (fd := fn) (q := shr 1) (fs := G m c)
    (show (0 : Fin 3) ∈ (Rd m).duties (sndCell c 1) 0 by rw [duties_snd]; exact Finset.mem_singleton_self _)
    (show (0 : Fin 3) ∈ (Rd m).duties (rcvCell (sh c 2) 1) 0 by rw [duties_rcv]; exact Finset.mem_singleton_self _)
    () () N rfl (amount_snd m c 1 0) (amount_rcv m (sh c 2) 1 0) (Ob c) rfl (W := W)
    (show _ ⊢ (Rd m).payload (sndCell c 1) 0 0 by rw [payload_snd]; unfold sndPay; rw [part0_pts])
    (show _ ⊢ (Rd m).payload (rcvCell (sh c 2) 1) 0 0 by
      rw [payload_rcv]; unfold rcvPay; rw [part2_pts]
      exact Entails.of_eq (partPts_congr _ _ _ (land_part_aux m c (sh c 2) 2 (sh_sh c 2 2 (by decide)) _ _ fn)))

/-- The copy to the device `c + 1`: part 0 of `c` lands in part 3 there, paying that device's arrival cell 2 and `c`'s
    departure cell 0. -/
theorem wp_send_B (c n : Dev nD) (hn : n = sh c 1)
    {hsc : (part3M : Memref sig (Dev.tc n : Thread nD τ).2.kind .vmem S4x64 .f32).view.ref.isScScratch = false}
    {hsrc : (part0M : Memref sig .tc .vmem S4x64 .f32).view.WordExact} {hdst : (part3M : Memref sig .tc .vmem S4x64 .f32).view.WordExact}
    {hsem : DmaTarget.Typed .vmem (.dma rcv2) (.remote (Dev.tc n : Thread nD τ) (part3M : Memref sig .tc .vmem S4x64 .f32) (.dma snd0) hsc)}
    {α : Type} {Q : α → sProp 𝕄} {k : PUnit → Prog (TpuEff nD τ sig (Elt F) Λ₀ .tc) α}
    (fn : Buf (Elt F) ((sh c 1 : Thread nD τ).loc cc0_scratch0)) (W : Waits sig Unit) :
    iprop(cellInv ER (Rd m) (K (c, 1)) (sndCell c 0) ∗ cellInv ER (Rd m) (K (sh c 1, 6)) (rcvCell (sh c 1) 2)
        ∗ partPts c 0 (shr 0) (G m c) ∗ partPts (sh c 1) 3 fullShare fn
        ∗ owes (c : Thread nD τ) (Ob c) W
        ∗ dutyTok ER (sndCell c 0) 0 (0 : Fin 3) ∗ reached ER (sndCell c 0) 0
        ∗ dutyTok ER (rcvCell (sh c 1) 2) 0 (0 : Fin 3) ∗ reached ER (rcvCell (sh c 1) 2) 0)
      ⊢ iprop(((cred (tallyAt (sndCell c 0) () N) ∗ owes (c : Thread nD τ) (Oc c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma part0M (.remote (Dev.tc n : Thread nD τ) part3M (.dma snd0) hsc) (.dma rcv2) hsrc hdst hsem) k) Q) := by
  subst hn
  rw [← part0_pts, ← part3_pts]
  exact Rounds.wp_send_pointsTo 𝒱₀ ER (Rd m) (c : Thread nD τ) none (κ₁ := K (c, 1)) (κ₂ := K (sh c 1, 6))
    (c' := (sh c 1 : Thread nD τ)) (src := part0M) (dst := part3M) (sS := .dma snd0) (sem := .dma rcv2)
    (r₁ := 0) (r₂ := 0) (d₁ := (0 : Fin 3)) (d₂ := (0 : Fin 3)) (fd := fn) (q := shr 0) (fs := G m c)
    (show (0 : Fin 3) ∈ (Rd m).duties (sndCell c 0) 0 by rw [duties_snd]; exact Finset.mem_singleton_self _)
    (show (0 : Fin 3) ∈ (Rd m).duties (rcvCell (sh c 1) 2) 0 by rw [duties_rcv]; exact Finset.mem_singleton_self _)
    () () N rfl (amount_snd m c 0 0) (amount_rcv m (sh c 1) 2 0) (Oc c) rfl (W := W)
    (show _ ⊢ (Rd m).payload (sndCell c 0) 0 0 by rw [payload_snd]; unfold sndPay; rw [part0_pts])
    (show _ ⊢ (Rd m).payload (rcvCell (sh c 1) 2) 0 0 by
      rw [payload_rcv]; unfold rcvPay; rw [part3_pts]
      exact Entails.of_eq (partPts_congr _ _ _ (land_part_aux m c (sh c 1) 3 (sh_sh c 1 3 (by decide)) _ _ fn)))

/-- The copy to the device `c + 3`: part 0 of `c` lands in part 1 there, paying that device's arrival cell 0 and `c`'s
    departure cell 2. -/
theorem wp_send_C (c n : Dev nD) (hn : n = sh c 3)
    {hsc : (part1M : Memref sig (Dev.tc n : Thread nD τ).2.kind .vmem S4x64 .f32).view.ref.isScScratch = false}
    {hsrc : (part0M : Memref sig .tc .vmem S4x64 .f32).view.WordExact} {hdst : (part1M : Memref sig .tc .vmem S4x64 .f32).view.WordExact}
    {hsem : DmaTarget.Typed .vmem (.dma rcv0) (.remote (Dev.tc n : Thread nD τ) (part1M : Memref sig .tc .vmem S4x64 .f32) (.dma snd2) hsc)}
    {α : Type} {Q : α → sProp 𝕄} {k : PUnit → Prog (TpuEff nD τ sig (Elt F) Λ₀ .tc) α}
    (fn : Buf (Elt F) ((sh c 3 : Thread nD τ).loc cc0_scratch0)) (W : Waits sig Unit) :
    iprop(cellInv ER (Rd m) (K (c, 3)) (sndCell c 2) ∗ cellInv ER (Rd m) (K (sh c 3, 4)) (rcvCell (sh c 3) 0)
        ∗ partPts c 0 (shr 2) (G m c) ∗ partPts (sh c 3) 1 fullShare fn
        ∗ owes (c : Thread nD τ) (Oc c) W
        ∗ dutyTok ER (sndCell c 2) 0 (0 : Fin 3) ∗ reached ER (sndCell c 2) 0
        ∗ dutyTok ER (rcvCell (sh c 3) 0) 0 (0 : Fin 3) ∗ reached ER (rcvCell (sh c 3) 0) 0)
      ⊢ iprop(((cred (tallyAt (sndCell c 2) () N) ∗ owes (c : Thread nD τ) (0) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma part0M (.remote (Dev.tc n : Thread nD τ) part1M (.dma snd2) hsc) (.dma rcv0) hsrc hdst hsem) k) Q) := by
  subst hn
  rw [← part0_pts, ← part1_pts]
  exact Rounds.wp_send_pointsTo 𝒱₀ ER (Rd m) (c : Thread nD τ) none (κ₁ := K (c, 3)) (κ₂ := K (sh c 3, 4))
    (c' := (sh c 3 : Thread nD τ)) (src := part0M) (dst := part1M) (sS := .dma snd2) (sem := .dma rcv0)
    (r₁ := 0) (r₂ := 0) (d₁ := (0 : Fin 3)) (d₂ := (0 : Fin 3)) (fd := fn) (q := shr 2) (fs := G m c)
    (show (0 : Fin 3) ∈ (Rd m).duties (sndCell c 2) 0 by rw [duties_snd]; exact Finset.mem_singleton_self _)
    (show (0 : Fin 3) ∈ (Rd m).duties (rcvCell (sh c 3) 0) 0 by rw [duties_rcv]; exact Finset.mem_singleton_self _)
    () () N rfl (amount_snd m c 2 0) (amount_rcv m (sh c 3) 0 0) (0) (zero_add _).symm (W := W)
    (show _ ⊢ (Rd m).payload (sndCell c 2) 0 0 by rw [payload_snd]; unfold sndPay; rw [part0_pts])
    (show _ ⊢ (Rd m).payload (rcvCell (sh c 3) 0) 0 0 by
      rw [payload_rcv]; unfold rcvPay; rw [part1_pts]
      exact Entails.of_eq (partPts_congr _ _ _ (land_part_aux m c (sh c 3) 1 (sh_sh c 3 1 (by decide)) _ _ fn)))

/-! ## The loads and the store of the exchange buffer's parts touch their part only -/

omit [FloatOps F] in
theorem scr_setOn_aux (s : ℕ) (hs : s < 4) (inb) :
    (scrM : Memref sig .tc .vmem S4x4x64 .f32).view.setOn (Rect.unit (s := S4x4x64) ![s, 0, 0] S1x4x64.size inb).toLoadRect.set ⊆ pset s := by
  show Finset.map (Function.Embedding.refl _) (Rect.unit (s := S4x4x64) ![s, 0, 0] S1x4x64.size inb).set ⊆ pset s
  rw [Finset.map_refl, rc_set_aux s hs inb]
omit [FloatOps F] in
theorem scr_setOn0 : (scrM : Memref sig .tc .vmem S4x4x64 .f32).view.setOn rc0.toLoadRect.set ⊆ pset 0 := scr_setOn_aux 0 (by decide) _
omit [FloatOps F] in
theorem scr_setOn1 : (scrM : Memref sig .tc .vmem S4x4x64 .f32).view.setOn rc1.toLoadRect.set ⊆ pset 1 := scr_setOn_aux 1 (by decide) _
omit [FloatOps F] in
theorem scr_setOn2 : (scrM : Memref sig .tc .vmem S4x4x64 .f32).view.setOn rc2.toLoadRect.set ⊆ pset 2 := scr_setOn_aux 2 (by decide) _
omit [FloatOps F] in
theorem scr_setOn3 : (scrM : Memref sig .tc .vmem S4x4x64 .f32).view.setOn rc3.toLoadRect.set ⊆ pset 3 := scr_setOn_aux 3 (by decide) _
omit [FloatOps F] in
theorem scr_store0 : ((scrM : Memref sig .tc .vmem S4x4x64 .f32).access rc0 : View sig .tc _ _ _).setOn Finset.univ ⊆ pset 0 := by
  rw [View.setOn_univ, View.set_slice_whole, rc0_set]

omit [FloatOps F] in
theorem credit_part0 : (part0M : Memref sig .tc .vmem S4x64 .f32).view.dmaCredit = N := rfl
omit [FloatOps F] in
theorem credit_part2 : (part2M : Memref sig .tc .vmem S4x64 .f32).view.dmaCredit = N := rfl
omit [FloatOps F] in
theorem credit_part3 : (part3M : Memref sig .tc .vmem S4x64 .f32).view.dmaCredit = N := rfl

/-- What each signal hands its peer: the signaller's own part of that number, and that its arrival cell is at its round. -/
theorem barPay_sig1 (c : Dev nD) : barPay (F := F) (sh c 1) 0 = iprop((∃ f, partPts c 1 fullShare f) ∗ reached ER (rcvCell c 0) 0) := by
  unfold barPay; rw [show sh (sh c 1) (3 - (0 : Fin 3).val) = c from sh_sh c 1 3 (by decide)]; rfl
theorem barPay_sig2 (c : Dev nD) : barPay (F := F) (sh c 2) 1 = iprop((∃ f, partPts c 2 fullShare f) ∗ reached ER (rcvCell c 1) 0) := by
  unfold barPay; rw [show sh (sh c 2) (3 - (1 : Fin 3).val) = c from sh_sh c 2 2 (by decide)]; rfl
theorem barPay_sig3 (c : Dev nD) : barPay (F := F) (sh c 3) 2 = iprop((∃ f, partPts c 3 fullShare f) ∗ reached ER (rcvCell c 2) 0) := by
  unfold barPay; rw [show sh (sh c 3) (3 - (2 : Fin 3).val) = c from sh_sh c 3 1 (by decide)]; rfl

end Cert.Kernel.Proto

end
-- ==== Proof.WBodyDefs.lean ====
/-
  The body's pre- and postcondition at the one grid point, over the exchange's ghost state at names `K`.
-/
import proofs.«900350_g7700000000000351_dist_diff_noisepred_hshard_i_b2_h64_w64_c64_v7x_i4_f32_1_alg».proof.Proof.WData

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

variable (K : Dev nD × Fin 7 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 3)
      ∗ cred (tallyAt (rcvCell c 0) () N) ∗ cred (tallyAt (rcvCell c 1) () N) ∗ cred (tallyAt (rcvCell c 2) () N) ∗ levAts L lv
      ∗ ∃ f, ((c : Thread nD τ).loc cc0_scratch0) ↦{fullShare} f)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ m c ∗ (dats m 0 c).owesAt () t₀.succ ∗ stg c cc0_stg0_0 (xstg m c) ∗ stg c cc0_stg1_0 (wstg m c) ∗ stg c cc0_stg2_0 (outAt m c))

/-- The body, run from `bodyPre` at any names, ends in `bodyPost`. -/
def SoundBody : Prop :=
  ∀ (K : Dev nD × Fin 7 → ℕ) (c : Dev nD) (Kt : PUnit → sProp 𝕄),
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) cc0_scratch1 cc0_scratch2) Kt

end Cert.Kernel.Proto

end
-- ==== Proof.WBody.lean ====
/-
  The body of one device, stepped rule by rule from its precondition to its postcondition: the three signals, the
  statistics stored in part 0, the entry wait, the three copies, the six waits, and the result computed from the four parts.
-/
import proofs.«900350_g7700000000000351_dist_diff_noisepred_hshard_i_b2_h64_w64_c64_v7x_i4_f32_1_alg».proof.Proof.WSend
import proofs.«900350_g7700000000000351_dist_diff_noisepred_hshard_i_b2_h64_w64_c64_v7x_i4_f32_1_alg».proof.Proof.WBodyDefs

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

/-- After the local store, part 0 is owned holding what `G c` says. -/
theorem store_pts (c : Dev nD) (f : Buf (Elt F) ((c : Thread nD τ).loc cc0_scratch0)) :
    ((((scrM : Memref sig .tc .vmem S4x4x64 .f32).access rc0 : View sig .tc _ _ _).loc (c : Thread nD τ))
        ↦[pset 0]{fullShare} (((scrM : Memref sig .tc .vmem S4x4x64 .f32).access rc0 : View sig .tc _ _ _).write (Elt F) f (k0_pay2 (F := F) (xstg m c)) Finset.univ) : sProp 𝕄)
      = partPts c 0 fullShare (G m c) :=
  partPts_congr c 0 fullShare (store_part0 m c f (xstg m c) rfl)

omit [FloatOps F] in
/-- Part 0 at the full share is its three shares, one per copy. -/
theorem part0_shares (c : Dev nD) (f : Buf (Elt F) ((c : Thread nD τ).loc cc0_scratch0)) :
    (partPts (F := F) c 0 fullShare f) ⊣⊢ iprop(partPts c 0 (shr 0) f ∗ partPts c 0 (shr 1) f ∗ partPts c 0 (shr 2) f) := by
  unfold partPts
  have e1 := pointsTo_share (Val := Elt F) (Ix := Unit) (Name := ℕ) (U := UU) (Lvl := ℕ) (ℓ := (c : Thread nD τ).loc cc0_scratch0) (I := pset 0) (f := f)
    (PosShare.mem_left_op_right fullShare)
  have e2 := pointsTo_share (Val := Elt F) (Ix := Unit) (Name := ℕ) (U := UU) (Lvl := ℕ) (ℓ := (c : Thread nD τ).loc cc0_scratch0) (I := pset 0) (f := f)
    (PosShare.mem_left_op_right fullShare.right)
  constructor
  · exact e1.1.trans (sep_mono_right e2.1)
  · exact (sep_mono_right e2.2).trans e1.2

set_option maxHeartbeats 4000000 in
theorem sound_body : SoundBody (F := F) m := by
  intro K c Kt
  unfold bodyPre ghost invs reaches poss payToks
  iintro ⟨⟨⟨⟨⟨#HI0, #HIs0, #HIs1, #HIs2, #HIr0, #HIr1, #HIr2, #HIb1, #HIb2, #HIb3, #HIp2, #HIp1, #HIp3⟩,
      ⟨#Hrb1, #Hrb2, #Hrb3, #Hrp2, #Hrp1, #Hrp3, #Hrs0, #Hrs1, #Hrs2, #Hrr0, #Hrr1, #Hrr2⟩,
      ⟨HaB, HaS0, HaS1, HaS2, HaR0, HaR1, HaR2⟩,
      ⟨Htb1, Htb2, Htb3, Htp2, Htp1, Htp3, Hts0, Hts1, Hts2⟩⟩, HcB, HcR0, HcR1, HcR2, #Hlev, ⟨%f0, Hscr⟩⟩,
    Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch0_0 t₀)]; rfl
  have hw : g1 = wstg m c := by rw [hg1]; unfold Dat.before; rw [if_pos (fetch0_1 t₀)]; rfl
  subst hx; subst hw
  unfold Dat.owesAt Pipeline.owesWithin
  icases Ho with ⟨%W, %hW, HO⟩
  rw [show (dats m 0 c).owed t₀.castSucc = O₀ c from rfl]
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  simp only [dev1_eq c, dev2_eq c, dev3_eq c]
  -- the exchange buffer by parts
  ihave Hsp := (scr_split c fullShare f0).1 $$ Hscr
  icases Hsp with ⟨Hp0, Hp1, Hp2, Hp3⟩
  -- the three signals: each hands the peer one part of this device's buffer
  iapply (Rounds.wp_signal 𝒱₀ ER (Rd m) (c : Thread nD τ) none (dst := (sh c 1 : Thread nD τ)) (κ := K (sh c 1, 0))
      (d := (0 : Fin 3)) (by rw [duties_bar]; exact Finset.mem_univ _) ((amount_bar m (sh c 1) 0).trans (by decide)) () (O2 c) rfl)
    $$ [HO Htb1 Hp1]
  · isplitr; · iexact HIb1
    isplitl [HO]; · iexact HO
    isplitl [Htb1]; · iexact Htb1
    isplitl [Hp1]
    · rw [payload_bar, barPay_sig1]
      isplitl [Hp1]; · iexists f0; iexact Hp1
      iexact Hrr0
    · iexact Hrb1
  iintro HO
  iapply (Rounds.wp_signal 𝒱₀ ER (Rd m) (c : Thread nD τ) none (dst := (sh c 2 : Thread nD τ)) (κ := K (sh c 2, 0))
      (d := (1 : Fin 3)) (by rw [duties_bar]; exact Finset.mem_univ _) ((amount_bar m (sh c 2) 1).trans (by decide)) () (O3 c) rfl)
    $$ [HO Htb2 Hp2]
  · isplitr; · iexact HIb2
    isplitl [HO]; · iexact HO
    isplitl [Htb2]; · iexact Htb2
    isplitl [Hp2]
    · rw [payload_bar, barPay_sig2]
      isplitl [Hp2]; · iexists f0; iexact Hp2
      iexact Hrr1
    · iexact Hrb2
  iintro HO
  iapply (Rounds.wp_signal 𝒱₀ ER (Rd m) (c : Thread nD τ) none (dst := (sh c 3 : Thread nD τ)) (κ := K (sh c 3, 0))
      (d := (2 : Fin 3)) (by rw [duties_bar]; exact Finset.mem_univ _) ((amount_bar m (sh c 3) 2).trans (by decide)) () (Oa c) rfl)
    $$ [HO Htb3 Hp3]
  · isplitr; · iexact HIb3
    isplitl [HO]; · iexact HO
    isplitl [Htb3]; · iexact Htb3
    isplitl [Hp3]
    · rw [payload_bar, barPay_sig3]
      isplitl [Hp3]; · iexists f0; iexact Hp3
      iexact Hrr2
    · iexact Hrb3
  iintro HO
  -- the block is loaded, its statistics stored in part 0
  iapply (wp_load 𝒱₀ (c : Thread nD τ) none Set.univ (m := xM) (Finset.subset_univ _)) $$ Hx; iintro Hx
  rw [read_x]
  unfold partPts
  iapply (wp_load 𝒱₀ (c : Thread nD τ) none Set.univ (m := scrM) (r := rc0.toLoadRect) (S := pset 0) scr_setOn0) $$ Hp0; iintro Hp0
  iapply (wp_store 𝒱₀ (c : Thread nD τ) none Set.univ (m := scrM) (r := rc0) (Mk := Finset.univ) (S := pset 0) scr_store0) $$ Hp0; iintro Hp0
  ihave Hp0 := (Entails.of_eq (store_pts m c f0)) $$ Hp0
  -- the entry wait: the three peers' parts come with it
  iapply (Rounds.wp_wait_rest_token 𝒱₀ ER (Rd m) (c : Thread nD τ) none (κ := K (c, 0))
      (wpE_semWait_eq 𝒱₀ (c : Thread nD τ) none Set.univ) (Set.mem_univ _) () (O := Oa c) (W := W) (R := 0) (m := 0) (T := ∅)
      (by rw [expect_bar]; decide)) $$ [HcB HO HaB]
  · isplitr; · iexact HI0
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay
  icases Hp with ⟨⟨⟨%fC, HpC⟩, -⟩, ⟨⟨%fA, HpA⟩, -⟩, ⟨%fB, HpB⟩, -⟩
  -- part 0 by shares, one per copy
  ihave Hs := (part0_shares c (G m c)).1 $$ Hp0
  icases Hs with ⟨Hq0, Hq1, Hq2⟩
  -- the three copies
  iapply (wp_send_A m K c _ (dev4_eq c) fA _) $$ [Hq1 HpA HO Hts1 Htp2]
  · isplitr; · iexact HIs1
    isplitr; · iexact HIp2
    isplitl [Hq1]; · iexact Hq1
    isplitl [HpA]; · iexact HpA
    isplitl [HO]; · iexact HO
    isplitl [Hts1]; · iexact Hts1
    isplitr; · iexact Hrs1
    isplitl [Htp2]; · iexact Htp2
    iexact Hrp2
  iintro ⟨HcS1, HO⟩
  iapply (wp_send_B m K c _ (dev5_eq c) fB _) $$ [Hq0 HpB HO Hts0 Htp1]
  · isplitr; · iexact HIs0
    isplitr; · iexact HIp1
    isplitl [Hq0]; · iexact Hq0
    isplitl [HpB]; · iexact HpB
    isplitl [HO]; · iexact HO
    isplitl [Hts0]; · iexact Hts0
    isplitr; · iexact Hrs0
    isplitl [Htp1]; · iexact Htp1
    iexact Hrp1
  iintro ⟨HcS0, HO⟩
  iapply (wp_send_C m K c _ (dev6_eq c) fC _) $$ [Hq2 HpC HO Hts2 Htp3]
  · isplitr; · iexact HIs2
    isplitr; · iexact HIp3
    isplitl [Hq2]; · iexact Hq2
    isplitl [HpC]; · iexact HpC
    isplitl [HO]; · iexact HO
    isplitl [Hts2]; · iexact Hts2
    isplitr; · iexact Hrs2
    isplitl [Htp3]; · iexact Htp3
    iexact Hrp3
  iintro ⟨HcS2, HO⟩
  -- the three arrivals: parts 1, 2, 3 come back holding the peers' statistics
  iapply (Rounds.wp_wait_rest_token 𝒱₀ ER (Rd m) (c : Thread nD τ) none (κ := K (c, 4)) (sm := (rcvCell c 0).2)
      (wpE_waitDma2_eq 𝒱₀ (c : Thread nD τ) none Set.univ) (Set.mem_univ _) () (O := 0) (R := 0) (m := 0) (T := ∅)
      (by rw [Nat.zero_add]; exact (expect_rcv m c 0).symm)) $$ [HcR0 HO HaR0]
  · isplitr; · iexact HIr0
    isplitl [HcR0]; · iexact HcR0
    isplitl [HO]; · iexact HO
    isplitr; · rw [MayWait_zero]; iempintro
    iexact HaR0
  iintro ⟨HO, HaR0, -, Hpay⟩
  ihave Hr1 := (Entails.of_eq (show _ = partPts c 1 fullShare (G m c) from rest_rcv m c 0)) $$ Hpay
  iapply (Rounds.wp_wait_rest_token 𝒱₀ ER (Rd m) (c : Thread nD τ) none (κ := K (c, 5)) (sm := (rcvCell c 1).2)
      (wpE_waitDma2_eq 𝒱₀ (c : Thread nD τ) none Set.univ) (Set.mem_univ _) () (O := 0) (R := 0) (m := 0) (T := ∅)
      (by rw [Nat.zero_add, credit_part2]; exact (expect_rcv m c 1).symm)) $$ [HcR1 HO HaR1]
  · isplitr; · iexact HIr1
    isplitl [HcR1]; · iexact HcR1
    isplitl [HO]; · iexact HO
    isplitr; · rw [MayWait_zero]; iempintro
    iexact HaR1
  iintro ⟨HO, HaR1, -, Hpay⟩
  ihave Hr2 := (Entails.of_eq (show _ = partPts c 2 fullShare (G m c) from rest_rcv m c 1)) $$ Hpay
  iapply (Rounds.wp_wait_rest_token 𝒱₀ ER (Rd m) (c : Thread nD τ) none (κ := K (c, 6)) (sm := (rcvCell c 2).2)
      (wpE_waitDma2_eq 𝒱₀ (c : Thread nD τ) none Set.univ) (Set.mem_univ _) () (O := 0) (R := 0) (m := 0) (T := ∅)
      (by rw [Nat.zero_add, credit_part3]; exact (expect_rcv m c 2).symm)) $$ [HcR2 HO HaR2]
  · isplitr; · iexact HIr2
    isplitl [HcR2]; · iexact HcR2
    isplitl [HO]; · iexact HO
    isplitr; · rw [MayWait_zero]; iempintro
    iexact HaR2
  iintro ⟨HO, HaR2, -, Hpay⟩
  ihave Hr3 := (Entails.of_eq (show _ = partPts c 3 fullShare (G m c) from rest_rcv m c 2)) $$ Hpay
  -- the three departures: the shares of part 0 come back
  iapply (Rounds.wp_wait_rest_token 𝒱₀ ER (Rd m) (c : Thread nD τ) none (κ := K (c, 2)) (sm := (sndCell c 1).2)
      (wpE_waitDma2_eq 𝒱₀ (c : Thread nD τ) none Set.univ) (Set.mem_univ _) () (O := 0) (R := 0) (m := 0) (T := ∅)
      (by rw [Nat.zero_add, credit_part0]; exact (expect_snd m c 1).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Hq1 := (Entails.of_eq (show _ = partPts c 0 (shr 1) (G m c) from rest_snd m c 1)) $$ Hpay
  iapply (Rounds.wp_wait_rest_token 𝒱₀ ER (Rd m) (c : Thread nD τ) none (κ := K (c, 1)) (sm := (sndCell c 0).2)
      (wpE_waitDma2_eq 𝒱₀ (c : Thread nD τ) none Set.univ) (Set.mem_univ _) () (O := 0) (R := 0) (m := 0) (T := ∅)
      (by rw [Nat.zero_add, credit_part0]; exact (expect_snd m c 0).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Hq0 := (Entails.of_eq (show _ = partPts c 0 (shr 0) (G m c) from rest_snd m c 0)) $$ Hpay
  iapply (Rounds.wp_wait_rest_token 𝒱₀ ER (Rd m) (c : Thread nD τ) none (κ := K (c, 3)) (sm := (sndCell c 2).2)
      (wpE_waitDma2_eq 𝒱₀ (c : Thread nD τ) none Set.univ) (Set.mem_univ _) () (O := 0) (R := 0) (m := 0) (T := ∅)
      (by rw [Nat.zero_add, credit_part0]; exact (expect_snd m c 2).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Hq2 := (Entails.of_eq (show _ = partPts c 0 (shr 2) (G m c) from rest_snd m c 2)) $$ Hpay
  -- the six own cells close
  imod (Rounds.cell_close ER (Rd m) (Set.mem_univ (K (c, 1))) (fun h => h) (R := 0 + 1) (duties_later m (sndCell c 0))) $$ [HaS0] with HzS0
  · isplitr; · iexact HIs0
    iexact HaS0
  imod (Rounds.cell_close ER (Rd m) (Set.mem_univ (K (c, 2))) (fun h => h) (R := 0 + 1) (duties_later m (sndCell c 1))) $$ [HaS1] with HzS1
  · isplitr; · iexact HIs1
    iexact HaS1
  imod (Rounds.cell_close ER (Rd m) (Set.mem_univ (K (c, 3))) (fun h => h) (R := 0 + 1) (duties_later m (sndCell c 2))) $$ [HaS2] with HzS2
  · isplitr; · iexact HIs2
    iexact HaS2
  imod (Rounds.cell_close ER (Rd m) (Set.mem_univ (K (c, 4))) (fun h => h) (R := 0 + 1) (duties_later m (rcvCell c 0))) $$ [HaR0] with HzR0
  · isplitr; · iexact HIr0
    iexact HaR0
  imod (Rounds.cell_close ER (Rd m) (Set.mem_univ (K (c, 5))) (fun h => h) (R := 0 + 1) (duties_later m (rcvCell c 1))) $$ [HaR1] with HzR1
  · isplitr; · iexact HIr1
    iexact HaR1
  imod (Rounds.cell_close ER (Rd m) (Set.mem_univ (K (c, 6))) (fun h => h) (R := 0 + 1) (duties_later m (rcvCell c 2))) $$ [HaR2] with HzR2
  · isplitr; · iexact HIr2
    iexact HaR2
  -- part 0 whole again
  ihave Hp0 := (part0_shares c (G m c)).2 $$ [Hq0 Hq1 Hq2]
  · isplitl [Hq0]; · iexact Hq0
    isplitl [Hq1] <;> iassumption
  unfold partPts
  -- the four parts and the weight are loaded, the result stored
  iapply (wp_load 𝒱₀ (c : Thread nD τ) none Set.univ (m := scrM) (r := rc0.toLoadRect) (S := pset 0) scr_setOn0) $$ Hp0; iintro Hp0
  rw [read_part0]
  iapply (wp_load 𝒱₀ (c : Thread nD τ) none Set.univ (m := scrM) (r := rc1.toLoadRect) (S := pset 1) scr_setOn1) $$ Hr1; iintro Hr1
  rw [read_part1]
  iapply (wp_load 𝒱₀ (c : Thread nD τ) none Set.univ (m := scrM) (r := rc2.toLoadRect) (S := pset 2) scr_setOn2) $$ Hr2; iintro Hr2
  rw [read_part2]
  iapply (wp_load 𝒱₀ (c : Thread nD τ) none Set.univ (m := scrM) (r := rc3.toLoadRect) (S := pset 3) scr_setOn3) $$ Hr3; iintro Hr3
  rw [read_part3]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out, wp_ret]; imodintro
  iapply Hk
  unfold bodyPost Φ₁ Dat.owesAt Pipeline.owesWithin
  rw [show (dats m 0 c).owed t₀.succ = 0 from rfl]
  isplitl [Hp0 Hr1 Hr2 Hr3 HzS0 HzS1 HzS2 HzR0 HzR1 HzR2]
  · isplitl [Hp0 Hr1 Hr2 Hr3]
    · iapply (scr_split c fullShare (G m c)).2
      unfold partPts
      isplitl [Hp0]; · iexact Hp0
      isplitl [Hr1]; · iexact Hr1
      isplitl [Hr2]; · iexact Hr2
      iexact Hr3
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert ((sndCell c 2).2, ()) (insert ((sndCell c 0).2, ()) (insert ((sndCell c 1).2, ()) (insert ((rcvCell c 2).2, ())
      (insert ((rcvCell c 1).2, ()) (insert ((rcvCell c 0).2, ()) (insert (SemLoc.reg barS, ()) W)))))))
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

end Cert.Kernel.Proto

end
-- ==== Proof.WOblig.lean ====
/-
  The library's body obligation on a device, from the body's run.

  The pipeline hands the body, at its one grid point, the invariant before the point, what the device owes, and each
  of the three windows' staging buffers whole at what it then holds; it asks them back at the invariant after the
  point, what the device then owes, and each staging buffer at what the body leaves.  A whole staging buffer owned at
  some contents is the buffer pointed to at those contents; with that, the obligation's precondition is the body's
  own precondition at some names of the cells' invariants, and its postcondition is the body's own.
-/
import proofs.«900350_g7700000000000351_dist_diff_noisepred_hshard_i_b2_h64_w64_c64_v7x_i4_f32_1_alg».proof.Proof.WBodyDefs

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.StatsNorm (sh)

variable {F : FTy → Type} [FloatOps F]

local notation "𝕄" => MT nD τ sig Unit (Elt F) ℕ UU ℕ

variable (m : (ℓ : Loc nD τ sig) → Buf (Elt F) ℓ)

omit [FloatOps F] in
/-- A whole buffer owned at contents `X` is the buffer pointed to, at the full share, at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The obligation's precondition at the one grid point: the invariant before it, what the device owes, and the
    three staging buffers at what they hold. -/
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on device `c`, from the body's run. -/
theorem body_obligation_of (hsb : SoundBody (F := F) m) (c : Dev nD) :
    BodyObligation (dats (F := F) m 0 c) (defs₀ (F := F)) 𝒱₀ () Set.univ := fun t => by
  rw [fin_N t]
  rw [Gen.bigSep_W0, Gen.bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, H1, H2, H3, H4, Hlev⟩, Hscr⟩, Ho, Hx, Hw, Hout⟩
  iapply (hsb K c fun _ => bodyPost m c)
  unfold bodyPre
  isplitr []
  · isplitl [Hg H1 H2 H3 H4 Hlev Hscr]
    · isplitl [Hg]; · iexact Hg
      isplitl [H1]; · iexact H1
      isplitl [H2]; · iexact H2
      isplitl [H3]; · iexact H3
      isplitl [H4]; · iexact H4
      isplitl [Hlev]; · iexact Hlev
      iexact Hscr
    isplitl [Ho]; · iexact Ho
    isplitl [Hx]; · iexact Hx
    isplitl [Hw]; · iexact Hw
    iexact Hout
  · iintro H; iexact H

/-- The same in the form that asks each staging buffer back only on the part its transfers move. -/
theorem body_obligation_loose_of (hsb : SoundBody (F := F) m) (c : Dev nD) :
    BodyObligationLoose (dats (F := F) m 0 c) (defs₀ (F := F)) 𝒱₀ () Set.univ :=
  (body_obligation_of m hsb c).loose

end Cert.Kernel.Proto

end
-- ==== Proof.WLaunchA.lean ====
/-
  The launch of the exchange, first half: the cells and duty tokens minted at launch, every device's semaphores at zero
  turned into the cells' invariants under one update, and the tokens dealt to the devices that pay the duties.

  A device has seven cells — its entry cell, three departure cells, three arrival cells — and nine duty tokens: the three
  duties of its entry cell and the one duty of each other cell. The token of duty `d` of device `c`'s entry cell goes to
  the device `3 - d` places after `c`, which signals it; the token of arrival cell `k` to the device `k + 1` places after
  `c`, whose copy lands there; the departure tokens stay. Seen from the payer: device `c` gets duty `δ - 1` of the entry
  cell of the device `δ` places after it, and the token of arrival cell `3 - δ` of that device, for `δ = 1, 2, 3`.
-/
import proofs.«900350_g7700000000000351_dist_diff_noisepred_hshard_i_b2_h64_w64_c64_v7x_i4_f32_1_alg».proof.Proof.WData

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own (scoped) semaphores: the three departure, then the three arrival ones. -/
abbrev osem : Fin 6 → SemLoc sig := fun
  | 0 => .dma (![snd0, snd1, snd2] 0) | 1 => .dma (![snd0, snd1, snd2] 1) | 2 => .dma (![snd0, snd1, snd2] 2)
  | 3 => .dma (![rcv0, rcv1, rcv2] 0) | 4 => .dma (![rcv0, rcv1, rcv2] 1) | 5 => .dma (![rcv0, rcv1, rcv2] 2)
/-- All seven of a device's cells: entry, departure 0–2, arrival 0–2. -/
abbrev csem : Fin 7 → SemLoc sig := fun
  | 0 => .reg barS
  | 1 => .dma (![snd0, snd1, snd2] 0) | 2 => .dma (![snd0, snd1, snd2] 1) | 3 => .dma (![snd0, snd1, snd2] 2)
  | 4 => .dma (![rcv0, rcv1, rcv2] 0) | 5 => .dma (![rcv0, rcv1, rcv2] 1) | 6 => .dma (![rcv0, rcv1, rcv2] 2)
abbrev kcell (ck : Dev nD × Fin 7) : GSem nD τ sig := ((ck.1 : Thread nD τ), csem ck.2)

theorem ownSemFacts : Pipeline.OwnSemFacts cfg0.spec osem := by decide

theorem csem_injective : Function.Injective csem := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def xCells : Finset (GSem nD τ sig) := Finset.univ.map ⟨kcell, kcell_injective⟩

/-- The cell and the duty of a device's `j`-th token: the entry cell's three duties, then duty 0 of the six others. -/
abbrev tokCell : Fin 9 → Fin 7 := ![0, 0, 0, 1, 2, 3, 4, 5, 6]
abbrev tokDuty : Fin 9 → Fin 3 := ![0, 1, 2, 0, 0, 0, 0, 0, 0]
theorem tokIx_injective : Function.Injective (fun j : Fin 9 => (tokCell j, tokDuty j)) := by decide

abbrev tokOf (cj : Dev nD × Fin 9) : GSem nD τ sig × ℕ × Fin 3 := (kcell (cj.1, tokCell cj.2), 0, tokDuty cj.2)
theorem tokOf_injective : Function.Injective (tokOf : Dev nD × Fin 9 → GSem nD τ sig × ℕ × Fin 3) := by
  rintro ⟨c, j⟩ ⟨c', j'⟩ h
  have h1 : (c, tokCell j) = (c', tokCell j') := kcell_injective (congrArg (fun x : GSem nD τ sig × ℕ × Fin 3 => x.1) h)
  have h2 : tokDuty j = tokDuty j' := congrArg (fun x : GSem nD τ sig × ℕ × Fin 3 => x.2.2) h
  have hc : c = c' := congrArg Prod.fst h1
  have hj : j = j' := tokIx_injective (Prod.ext (congrArg Prod.snd h1) h2)
  subst hc; subst hj; rfl
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sndCell c 0) 0 (0 : Fin 3) ∗ dutyTok ER (sndCell c 1) 0 (0 : Fin 3) ∗ dutyTok ER (sndCell c 2) 0 (0 : Fin 3)
    ∗ dutyTok ER (rcvCell c 0) 0 (0 : Fin 3) ∗ dutyTok ER (rcvCell c 1) 0 (0 : Fin 3) ∗ dutyTok ER (rcvCell c 2) 0 (0 : Fin 3))

/-- What the launch element deals device `c`. -/
def dealt (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

/-- What the global step makes of it. -/
def made (c : Dev nD) : sProp 𝕄 := iprop(∃ K, ghost m K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund : BI.own (ER (initOf xCells xToks)) ⊢ (|==> bigSep Finset.univ (dealt m) : sProp 𝕄) := by
  have hX (Φ : GSem nD τ sig → sProp 𝕄) :
      bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin9]; rfl
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The departure and arrival semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sndCell c 0) 0 ∗ semVal (sndCell c 1) 0 ∗ semVal (sndCell c 2) 0
        ∗ semVal (rcvCell c 0) 0 ∗ semVal (rcvCell c 1) 0 ∗ semVal (rcvCell c 2) 0) := by
  rw [Pipeline.ownSems0_eq_of_list c osem [0, 1, 2, 3, 4, 5] (by decide) (by decide)]; rfl
/-- the collective's barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Cert.Kernel.Proto

end
-- ==== Proof.WLaunchB.lean ====
/-
  The launch of the exchange, second half of the global step: from the cells' invariants of all devices and the tokens as
  minted, what each device's body starts from — the invariants of the thirteen cells it touches, the reached rounds, its
  positions, and the tokens of the nine duties it pays.
-/
import proofs.«900350_g7700000000000351_dist_diff_noisepred_hshard_i_b2_h64_w64_c64_v7x_i4_f32_1_alg».proof.Proof.WLaunchA

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ) (ρ : Dev nD → PrngReg)

/-- The invariants of all cells under the names `K`, and every cell's round 0 reached. -/
def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) :
    (bigSep Finset.univ fun ck : Dev nD × Fin 7 => (cellInv ER (Rd m) (K ck) (kcell ck) : sProp 𝕄)) ⊢ cellInv ER (Rd m) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- From the records, a device's positions and the tokens it pays with: its starting ghost state. -/
theorem ghost_intro (K : Dev nD × Fin 7 → ℕ) (c : Dev nD) : iprop(records m K ∗ (poss c ∗ payToks c)) ⊢ made m c := by
  unfold records made ghost invs reaches
  iintro ⟨⟨#HI, #HR⟩, HP, HT⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (sh c 1, 0)); iexact HI
    isplitr; · iapply (inv_at m K (sh c 2, 0)); iexact HI
    isplitr; · iapply (inv_at m K (sh c 3, 0)); iexact HI
    isplitr; · iapply (inv_at m K (sh c 2, 5)); iexact HI
    isplitr; · iapply (inv_at m K (sh c 1, 6)); iexact HI
    iapply (inv_at m K (sh c 3, 4)); iexact HI
  isplitr
  · isplitr; · iapply (reached_at (F := F) (sh c 1, 0)); iexact HR
    isplitr; · iapply (reached_at (F := F) (sh c 2, 0)); iexact HR
    isplitr; · iapply (reached_at (F := F) (sh c 3, 0)); iexact HR
    isplitr; · iapply (reached_at (F := F) (sh c 2, 5)); iexact HR
    isplitr; · iapply (reached_at (F := F) (sh c 1, 6)); iexact HR
    isplitr; · iapply (reached_at (F := F) (sh c 3, 4)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  isplitl [HP]; · iexact HP
  iexact HT

/-- The shifts of the ring as permutations of the devices. -/
def shE1 : Dev nD ≃ Dev nD := ⟨fun c => sh c 1, fun c => sh c 3, fun c => sh_sh c 1 3 rfl, fun c => sh_sh c 3 1 rfl⟩
def shE2 : Dev nD ≃ Dev nD := ⟨fun c => sh c 2, fun c => sh c 2, fun c => sh_sh c 2 2 rfl, fun c => sh_sh c 2 2 rfl⟩
def shE3 : Dev nD ≃ Dev nD := ⟨fun c => sh c 3, fun c => sh c 1, fun c => sh_sh c 3 1 rfl, fun c => sh_sh c 1 3 rfl⟩

/-- The tokens dealt round the ring: each token to the device that pays its duty. -/
theorem toks_around : (bigSep Finset.univ fun c : Dev nD => (toks c : sProp 𝕄)) ⊢ bigSep Finset.univ fun c : Dev nD => payToks c := by
  unfold toks payToks
  simp only [bigSep_sep']
  rw [bigSep_univ_equiv shE1 (fun c : Dev nD => (dutyTok ER (barCell c) 0 (0 : Fin 3) : sProp 𝕄)),
    bigSep_univ_equiv shE2 (fun c : Dev nD => (dutyTok ER (barCell c) 0 (1 : Fin 3) : sProp 𝕄)),
    bigSep_univ_equiv shE3 (fun c : Dev nD => (dutyTok ER (barCell c) 0 (2 : Fin 3) : sProp 𝕄)),
    bigSep_univ_equiv shE3 (fun c : Dev nD => (dutyTok ER (rcvCell c 0) 0 (0 : Fin 3) : sProp 𝕄)),
    bigSep_univ_equiv shE2 (fun c : Dev nD => (dutyTok ER (rcvCell c 1) 0 (0 : Fin 3) : sProp 𝕄)),
    bigSep_univ_equiv shE1 (fun c : Dev nD => (dutyTok ER (rcvCell c 2) 0 (0 : Fin 3) : sProp 𝕄))]
  iintro ⟨B0, B1, B2, S0, S1, S2, R0, R1, R2⟩
  isplitl [B0]; · iexact B0
  isplitl [B1]; · iexact B1
  isplitl [B2]; · iexact B2
  isplitl [R1]; · iexact R1
  isplitl [R2]; · iexact R2
  isplitl [R0]; · iexact R0
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (made m) := by
  rw [bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ iprop(poss c ∗ payToks c) from Entails.of_eq (by unfold poss; rw [bigSep_fin7])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (made m) :=
  ((bigSep_mono fun c _ => core_alloc m c).trans (bigSep_fupd _ _)).trans (BI.fupd_mono (regroup m))

end Cert.Kernel.Proto

end
-- ==== Proof.WLaunch.lean ====
/-
  The launch of the exchange: the credit each device is dealt for its waits, the side conditions of the launch, and the
  run of the whole program from every device's body.

  At launch device `d` owes one unit to the entry cell of each of its three peers and a copy's credit to one arrival cell
  of each. Summed over the devices, every entry cell is owed three units and every arrival cell one copy's credit: these
  are the credit tokens the cell's owner is dealt, and what its three waits consume.
-/
import proofs.«900350_g7700000000000351_dist_diff_noisepred_hshard_i_b2_h64_w64_c64_v7x_i4_f32_1_alg».proof.Proof.WLaunchB

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ) (ρ : Dev nD → PrngReg)

/-! ### The launch credit -/

theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

/-- What the devices owe device `c`'s cells at launch, as its credit tokens: three units on its entry cell, a copy's
    credit on each arrival cell. -/
theorem creds (c : Dev nD) :
    (Pipeline.launchCred O₀ c : sProp 𝕄) ⊢ iprop(cred (tallyAt (barCell c) () 3) ∗ cred (tallyAt (rcvCell c 0) () N)
      ∗ cred (tallyAt (rcvCell c 1) () N) ∗ cred (tallyAt (rcvCell c 2) () N)) := by
  have e : (O₀ : Dev nD → CellTallies nD τ sig Unit) = fun d =>
      tallyAt (rcvCell (sh d 3) 0) () N + tallyAt (rcvCell (sh d 1) 2) () N + tallyAt (rcvCell (sh d 2) 1) () N
        + tallyAt (barCell (sh d 3)) () 1 + tallyAt (barCell (sh d 2)) () 1 + tallyAt (barCell (sh d 1)) () 1 := rfl
  rw [e, Pipeline.launchCred_add, Pipeline.launchCred_add, Pipeline.launchCred_add, Pipeline.launchCred_add, Pipeline.launchCred_add]
  iintro ⟨⟨⟨⟨⟨Hr0, Hr2⟩, Hr1⟩, Hb3⟩, Hb2⟩, Hb1⟩
  ihave R0 := (Pipeline.launchCred_tallyAt (.dma (![rcv0, rcv1, rcv2] 0)) (fun d => sh d 3) (fun c => sh c 1)
    (fun c => sh_sh c 1 3 rfl) (fun d => sh_sh d 3 1 rfl) () N c) $$ Hr0
  ihave R2 := (Pipeline.launchCred_tallyAt (.dma (![rcv0, rcv1, rcv2] 2)) (fun d => sh d 1) (fun c => sh c 3)
    (fun c => sh_sh c 3 1 rfl) (fun d => sh_sh d 1 3 rfl) () N c) $$ Hr2
  ihave R1 := (Pipeline.launchCred_tallyAt (.dma (![rcv0, rcv1, rcv2] 1)) (fun d => sh d 2) (fun c => sh c 2)
    (fun c => sh_sh c 2 2 rfl) (fun d => sh_sh d 2 2 rfl) () N c) $$ Hr1
  ihave B3 := (Pipeline.launchCred_tallyAt (.reg barS) (fun d => sh d 3) (fun c => sh c 1)
    (fun c => sh_sh c 1 3 rfl) (fun d => sh_sh d 3 1 rfl) () 1 c) $$ Hb3
  ihave B2 := (Pipeline.launchCred_tallyAt (.reg barS) (fun d => sh d 2) (fun c => sh c 2)
    (fun c => sh_sh c 2 2 rfl) (fun d => sh_sh d 2 2 rfl) () 1 c) $$ Hb2
  ihave B1 := (Pipeline.launchCred_tallyAt (.reg barS) (fun d => sh d 1) (fun c => sh c 3)
    (fun c => sh_sh c 3 1 rfl) (fun d => sh_sh d 1 3 rfl) () 1 c) $$ Hb1
  ihave HB := (cred3 (F := F) (barCell c)) $$ [B3 B2 B1]
  · isplitl [B3]; · iexact B3
    isplitl [B2] <;> iassumption
  isplitl [HB]; · iexact HB
  isplitl [R0]; · iexact R0
  isplitl [R1]; · iexact R1
  iexact R2

/-! ### The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ made m c)
      ⊢ |={Set.univ}=> iprop(start m c ∗ emp) := by
  iintro ⟨-, Hlev, Hcr, -, HG⟩
  ihave Hc := (creds (F := F) c) $$ Hcr
  icases Hc with ⟨H1, HN0, HN1, HN2⟩
  imodintro
  unfold start made
  isplitl
  · isplitl [HG]; · iexact HG
    isplitl [H1]; · iexact H1
    isplitl [HN0]; · iexact HN0
    isplitl [HN1]; · iexact HN1
    isplitl [HN2]; · iexact HN2
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, H1, H2, H3, H4, H5, H6⟩
  isplitr; · iempintro
  isplitl [H1 H2 H3 H4 H5 H6]
  · isplitl [H1]; · iexact H1
    isplitl [H2]; · iexact H2
    isplitl [H3]; · iexact H3
    isplitl [H4]; · iexact H4
    isplitl [H5]; · iexact H5
    iexact H6
  iexists (G m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- From every device's body: every weakly fair execution of the four devices' programs terminates, and every final
    state has each window's array at what the proof data say. -/
theorem run_main (hbody : ∀ c : Dev nD, BodyObligation (dats (F := F) m 0 c) (defs₀ (F := F)) 𝒱₀ () Set.univ) :
    θ_run defs (onTc (τ := τ) (main (F := F))) (s₀ m ρ) (fun r => ∀ c : Dev nD, ∀ w : Fin cfg0.W,
      r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := made m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The result window is written back at the one grid point: its array ends holding what the body left in its staging
    buffer. -/
theorem arrAt_out (c : Dev nD) : (dats m 0 c).arrAt (2 : Fin 3) cfg0.N = outAt m c := by
  show (dats m 0 c).arrAt (2 : Fin 3) (t₀.val + 1) = outAt m c
  rw [Dat.arrAt_succ, Gen.flush0_2 t₀, if_pos rfl]
  exact Memref.write_access_unit_zero_univ (Elt F) main_v1 (funext fun a => by fin_cases a <;> rfl) _ _ _

/-- The run with every array named: each device's result array ends holding its computed result, its two argument
    arrays what they held. -/
theorem run_named (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 2).trans (arrAt_out m c),
      (h c 0).trans ((dats m 0 c).arrAt_in 0 rfl _), (h c 1).trans ((dats m 0 c).arrAt_in 1 rfl _)⟩)
    (run_main m ρ hbody)

end Cert.Kernel.Proto

end
-- ==== Proof.WRun.lean ====
/-
  The kernel's run on the four devices, every array named: each device's result buffer ends holding `outAt m c` — the
  body's result from its own block, the four devices' statistics and its copy of the weight — and the arguments end unchanged.
-/
import proofs.«900350_g7700000000000351_dist_diff_noisepred_hshard_i_b2_h64_w64_c64_v7x_i4_f32_1_alg».proof.Proof.WBody
import proofs.«900350_g7700000000000351_dist_diff_noisepred_hshard_i_b2_h64_w64_c64_v7x_i4_f32_1_alg».proof.Proof.WOblig
import proofs.«900350_g7700000000000351_dist_diff_noisepred_hshard_i_b2_h64_w64_c64_v7x_i4_f32_1_alg».proof.Proof.WLaunch

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.StatsNorm (sh)

variable {F : FTy → Type} [FloatOps F]

local notation "𝕄" => MT nD τ sig Unit (Elt F) ℕ UU ℕ

variable (m : (ℓ : Loc nD τ sig) → Buf (Elt F) ℓ)

variable (ρ : Dev nD → PrngReg)

theorem run : θ_run defs (onTc (τ := τ) (main (F := F))) ⟨m, fun _ => 0, ρ⟩ (fun r => ∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  run_named m ρ (fun c => body_obligation_of m (sound_body m) c)

end Cert.Kernel.Proto

end
-- ==== Proof.lean ====
/-
  The certificate of a normalisation whose statistics are taken over rows spread on four devices.

  The whole input `X : [2, 256, 64, 64]` is cut along its second axis into four blocks of 64 rows, one per device; the
  weight `W : [64, 128]` is replicated.  Each device sums its block and the squares of its block over the rows and
  columns, the devices exchange these statistics on a ring of four (every device signals its three peers' entry
  semaphore, waits for three, copies its statistics into a part of each peer's exchange buffer, and waits for the three
  arrivals and its three departures), and every device then holds the four statistics, whose sum is the statistic of the
  whole input.  From it: the mean, the variance as the mean of squares less the squared mean, the reciprocal square
  root, the normalised block `t`, `t` times its logistic, and the product with `W`.

  The reference computes on one device, over the whole arrays, the mean, the centred variance, the quotient by the
  square root, `t / (1 + e^(-t))` and the product.  Over the extended reals the two agree on finite inputs:
  * a sum over 256 rows is the sum of the four sums over 64 rows, whatever the order the four arrive in;
  * the mean of squares less the squared mean is the mean of the centred squares (finite sums of reals);
  * for a positive real `v`, multiplying by the reciprocal square root of `v` is dividing by its square root, and
    `t · (1 / (1 + e^(-t))) = t / (1 + e^(-t))`;
  * a block of rows of a product is the product of that block of rows.
  Block `c` of the reference's result is therefore what device `c` ends holding (`Assemble.algebraic`).

  The three frames: each kernel program runs to the end on every fair schedule because every wait is on a cell whose
  level is below everything the waiter still owes (the signals are sent before any wait; the copies are owed only
  across the entry wait), nothing faults, and the argument arrays are only read.  The kernel's idealisation rewrote no
  operation, so the fourth conjunct is trivial.
-/
import proofs.«900350_g7700000000000351_dist_diff_noisepred_hshard_i_b2_h64_w64_c64_v7x_i4_f32_1_alg».proof.Defs
import proofs.«900350_g7700000000000351_dist_diff_noisepred_hshard_i_b2_h64_w64_c64_v7x_i4_f32_1_alg».proof.Proof.Gen.Kernel
import proofs.«900350_g7700000000000351_dist_diff_noisepred_hshard_i_b2_h64_w64_c64_v7x_i4_f32_1_alg».proof.Proof.Gen.Kernel.Skeleton
import proofs.«900350_g7700000000000351_dist_diff_noisepred_hshard_i_b2_h64_w64_c64_v7x_i4_f32_1_alg».proof.Proof.Gen.Kernel.Launch
import proofs.«900350_g7700000000000351_dist_diff_noisepred_hshard_i_b2_h64_w64_c64_v7x_i4_f32_1_alg».proof.Proof.Gen.Kernel.Points
import proofs.«900350_g7700000000000351_dist_diff_noisepred_hshard_i_b2_h64_w64_c64_v7x_i4_f32_1_alg».proof.Proof.Gen.Kernel.Frame
import proofs.«900350_g7700000000000351_dist_diff_noisepred_hshard_i_b2_h64_w64_c64_v7x_i4_f32_1_alg».proof.Proof.Gen.KernelIdeal
import proofs.«900350_g7700000000000351_dist_diff_noisepred_hshard_i_b2_h64_w64_c64_v7x_i4_f32_1_alg».proof.Proof.Gen.KernelIdeal.Skeleton
import proofs.«900350_g7700000000000351_dist_diff_noisepred_hshard_i_b2_h64_w64_c64_v7x_i4_f32_1_alg».proof.Proof.Gen.KernelIdeal.Launch
import proofs.«900350_g7700000000000351_dist_diff_noisepred_hshard_i_b2_h64_w64_c64_v7x_i4_f32_1_alg».proof.Proof.Gen.KernelIdeal.Points
import proofs.«900350_g7700000000000351_dist_diff_noisepred_hshard_i_b2_h64_w64_c64_v7x_i4_f32_1_alg».proof.Proof.Gen.KernelIdeal.Frame
import proofs.«900350_g7700000000000351_dist_diff_noisepred_hshard_i_b2_h64_w64_c64_v7x_i4_f32_1_alg».proof.Proof.Gen.ReferenceIdeal
import proofs.«900350_g7700000000000351_dist_diff_noisepred_hshard_i_b2_h64_w64_c64_v7x_i4_f32_1_alg».proof.Proof.Gen.Pre_finite_inputs_Kernel
import proofs.«900350_g7700000000000351_dist_diff_noisepred_hshard_i_b2_h64_w64_c64_v7x_i4_f32_1_alg».proof.Proof.Gen.Pre_finite_inputs_ReferenceIdeal
import proofs.«900350_g7700000000000351_dist_diff_noisepred_hshard_i_b2_h64_w64_c64_v7x_i4_f32_1_alg».proof.Proof.Assemble
import proofs.«900350_g7700000000000351_dist_diff_noisepred_hshard_i_b2_h64_w64_c64_v7x_i4_f32_1_alg».proof.Proof.KRun
import proofs.«900350_g7700000000000351_dist_diff_noisepred_hshard_i_b2_h64_w64_c64_v7x_i4_f32_1_alg».proof.Proof.WRun
import Idealize.ShloMosaic.Adequacy
import Idealize.ShloMosaic.Init

noncomputable section

namespace Cert.Proof

open Idealize.ShloMosaic Idealize.SL.Sem

/-- The five conjuncts from the two kernel runs: the idealised kernel's with every array named, the word-level
    kernel's with its result dropped. -/
theorem claim : Cert.Claim :=
  Cert.Proof.Assemble.claim_of
    (fun m ρ => Cert.KernelIdeal.Proto.run (F := Ideal) m ρ)
    (fun m ρ => (θ_run (Cert.Kernel.defs (F := Bits)) _ _).mono (fun _ h c => (h c).2) (Cert.Kernel.Proto.run (F := Bits) m ρ))

end Cert.Proof

end
